-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S2x640000 : Shape := ⟨2, ![2, 640000]⟩
abbrev S2x200000 : Shape := ⟨2, ![2, 200000]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S256x128 .f32) (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S256x128 .f32 := Host.absf main_arg14
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg16
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S20000x128 .f32) (main_arg1 : FVec F S20000x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S256x128 .f32) (main_arg15 : FVec F S128 .f32) (main_arg16 : FVec F S128x1 .f32) (main_arg17 : FVec F S1 .f32) (main_arg18 : IVec S2x640000 32) (main_arg19 : IVec S2x640000 32) (main_arg20 : IVec S2x200000 32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S20000x128 : Shape := ⟨2, ![20000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S2x640000 : Shape := ⟨2, ![2, 640000]⟩
abbrev S2x200000 : Shape := ⟨2, ![2, 200000]⟩
abbrev S1x640000 : Shape := ⟨2, ![1, 640000]⟩
abbrev S640000 : Shape := ⟨1, ![640000]⟩
abbrev S_ : Shape := ⟨0, ![]⟩
abbrev S20000 : Shape := ⟨1, ![20000]⟩
abbrev S640000x1 : Shape := ⟨2, ![640000, 1]⟩
abbrev S640000x128 : Shape := ⟨2, ![640000, 128]⟩
abbrev S20000x1 : Shape := ⟨2, ![20000, 1]⟩
abbrev S1x128 : Shape := ⟨2, ![1, 128]⟩
abbrev S4000x128 : Shape := ⟨2, ![4000, 128]⟩
abbrev S4000x1 : Shape := ⟨2, ![4000, 1]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S1x1 : Shape := ⟨2, ![1, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 144
  | .vmem => 55
  | .smem => 0
  | _ => 0

abbrev hbmTy0_0 (i : Nat) : BufTy := match i % 128 with
  | 0 => ⟨S20000x128, .f32⟩
  | 1 => ⟨S20000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S256x128, .f32⟩
  | 15 => ⟨S128, .f32⟩
  | 16 => ⟨S128x1, .f32⟩
  | 17 => ⟨S1, .f32⟩
  | 18 => ⟨S2x640000, .i32⟩
  | 19 => ⟨S2x640000, .i32⟩
  | 20 => ⟨S2x200000, .i32⟩
  | 21 => ⟨S1x640000, .i32⟩
  | 22 => ⟨S640000, .i32⟩
  | 23 => ⟨S1x640000, .i32⟩
  | 24 => ⟨S640000, .i32⟩
  | 25 => ⟨S1x640000, .i32⟩
  | 26 => ⟨S640000, .i32⟩
  | 27 => ⟨S1x640000, .i32⟩
  | 28 => ⟨S640000, .i32⟩
  | 29 => ⟨S_, .f32⟩
  | 30 => ⟨S640000, .f32⟩
  | 31 => ⟨S_, .f32⟩
  | 32 => ⟨S20000, .f32⟩
  | 33 => ⟨S640000x1, .i32⟩
  | 34 => ⟨S20000, .f32⟩
  | 35 => ⟨S_, .f32⟩
  | 36 => ⟨S20000, .f32⟩
  | 37 => ⟨S20000, .f32⟩
  | 38 => ⟨S_, .f32⟩
  | 39 => ⟨S20000, .f32⟩
  | 40 => ⟨S20000, .f32⟩
  | 41 => ⟨S_, .f32⟩
  | 42 => ⟨S20000, .f32⟩
  | 43 => ⟨S640000x1, .i32⟩
  | 44 => ⟨S20000, .f32⟩
  | 45 => ⟨S_, .f32⟩
  | 46 => ⟨S20000, .f32⟩
  | 47 => ⟨S20000, .f32⟩
  | 48 => ⟨S_, .f32⟩
  | 49 => ⟨S20000, .f32⟩
  | 50 => ⟨S20000, .f32⟩
  | 51 => ⟨S_, .i32⟩
  | 52 => ⟨S640000, .i32⟩
  | 53 => ⟨S640000, .i1⟩
  | 54 => ⟨S_, .i32⟩
  | 55 => ⟨S640000, .i32⟩
  | 56 => ⟨S640000, .i32⟩
  | 57 => ⟨S640000, .i32⟩
  | 58 => ⟨S640000x1, .i32⟩
  | 59 => ⟨S640000x128, .f32⟩
  | 60 => ⟨S_, .f32⟩
  | 61 => ⟨S20000x128, .f32⟩
  | 62 => ⟨S640000x1, .i32⟩
  | 63 => ⟨S20000x128, .f32⟩
  | 64 => ⟨S20000x1, .f32⟩
  | 65 => ⟨S1x128, .f32⟩
  | 66 => ⟨S20000x128, .f32⟩
  | 67 => ⟨S_, .i32⟩
  | 68 => ⟨S640000, .i32⟩
  | 69 => ⟨S640000, .i1⟩
  | 70 => ⟨S_, .i32⟩
  | 71 => ⟨S640000, .i32⟩
  | 72 => ⟨S640000, .i32⟩
  | 73 => ⟨S640000, .i32⟩
  | 74 => ⟨S640000x1, .i32⟩
  | 75 => ⟨S640000x128, .f32⟩
  | 76 => ⟨S_, .f32⟩
  | 77 => ⟨S20000x128, .f32⟩
  | 78 => ⟨S640000x1, .i32⟩
  | 79 => ⟨S20000x128, .f32⟩
  | 80 => ⟨S20000x1, .f32⟩
  | 81 => ⟨S1x128, .f32⟩
  | 82 => ⟨S20000x128, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000x128, .f32⟩
  | 92 => ⟨S_, .f32⟩
  | 93 => ⟨S20000x128, .f32⟩
  | 94 => ⟨S640000x1, .i32⟩
  | 95 => ⟨S20000x128, .f32⟩
  | 96 => ⟨S20000x1, .f32⟩
  | 97 => ⟨S1x128, .f32⟩
  | 98 => ⟨S20000x128, .f32⟩
  | 99 => ⟨S_, .i32⟩
  | 100 => ⟨S640000, .i32⟩
  | 101 => ⟨S640000, .i1⟩
  | 102 => ⟨S_, .i32⟩
  | 103 => ⟨S640000, .i32⟩
  | 104 => ⟨S640000, .i32⟩
  | 105 => ⟨S640000, .i32⟩
  | 106 => ⟨S640000x1, .i32⟩
  | 107 => ⟨S640000x128, .f32⟩
  | 108 => ⟨S_, .f32⟩
  | 109 => ⟨S20000x128, .f32⟩
  | 110 => ⟨S640000x1, .i32⟩
  | 111 => ⟨S20000x128, .f32⟩
  | 112 => ⟨S20000x1, .f32⟩
  | 113 => ⟨S1x128, .f32⟩
  | 114 => ⟨S20000x128, .f32⟩
  | 115 => ⟨S1x200000, .i32⟩
  | 116 => ⟨S200000, .i32⟩
  | 117 => ⟨S1x200000, .i32⟩
  | 118 => ⟨S200000, .i32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x128, .f32⟩
  | _ => ⟨S20000x128, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x128, .f32⟩
  | 9 => ⟨S128x128, .f32⟩
  | 10 => ⟨S128x128, .f32⟩
  | 11 => ⟨S1x128, .f32⟩
  | 12 => ⟨S1x128, .f32⟩
  | 13 => ⟨S1x1, .f32⟩
  | 14 => ⟨S200000x1, .f32⟩
  | 15 => ⟨S200000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x1, .f32⟩
  | .local _ .vmem, ⟨36, _⟩ => ⟨S4000x1, .f32⟩
  | .local _ .vmem, ⟨37, _⟩ => ⟨S4000x128, .f32⟩
  | .local _ .vmem, ⟨38, _⟩ => ⟨S4000x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S4000x128, .f32⟩
  | .local _ .vmem, ⟨43, _⟩ => ⟨S4000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S1x128, .f32⟩
  | .local _ .vmem, ⟨52, _⟩ => ⟨S1x1, .f32⟩
  | .local _ .vmem, ⟨53, _⟩ => ⟨S2000x1, .f32⟩
  | .local _ .vmem, ⟨54, _⟩ => ⟨S2000x1, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_4 : Ref sig .tc := ⟨.hbm, 45, rfl⟩
abbrev main_v19 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_c : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_8 : Ref sig .tc := ⟨.hbm, 67, rfl⟩
abbrev main_v36 : Ref sig .tc := ⟨.hbm, 68, rfl⟩
abbrev main_v37 : Ref sig .tc := ⟨.hbm, 69, rfl⟩
abbrev main_c_9 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_10 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_c_11 : Ref sig .tc := ⟨.hbm, 83, rfl⟩
abbrev main_v49 : Ref sig .tc := ⟨.hbm, 84, rfl⟩
abbrev main_v50 : Ref sig .tc := ⟨.hbm, 85, rfl⟩
abbrev main_c_12 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_13 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_14 : Ref sig .tc := ⟨.hbm, 99, rfl⟩
abbrev main_v62 : Ref sig .tc := ⟨.hbm, 100, rfl⟩
abbrev main_v63 : Ref sig .tc := ⟨.hbm, 101, rfl⟩
abbrev main_c_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_c_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_c_20 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg7_0 : Ref sig .tc := ⟨.vmem, 53, rfl⟩
abbrev cc4_stg7_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem5_0 : DmaSem sig := 51
abbrev cc4_sem6_0 : DmaSem sig := 52
abbrev cc4_sem7_0 : DmaSem sig := 53
abbrev cc4_sem7_1 : DmaSem sig := 54

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S20000 : S_.BroadcastsInDim S20000 (![] : Fin 0 → Fin S20000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  shapeCasts_S20000_S20000x1 : S20000.ShapeCasts S20000x1
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S256x128_S128x128_0_0 : S256x128.Slices ![0, 0] S128x128
  slices_S256x128_S128x128_128_0 : S256x128.Slices ![128, 0] S128x128
  transposes_S128x1_S1x128_1_0 : S128x1.Transposes [1, 0] S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  shapeCasts_S128x128_S128x128 : S128x128.ShapeCasts S128x128
  broadcasts_S1x128_S2000x128 : S1x128.Broadcasts S2000x128
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S20000_S640000x1_S640000_n_0_0_1_wf : ScatterDims.WF S20000 S640000x1 S640000 [] [0] [0] 1
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S4000x128_S128x128_S4000x128_1_0_0_1_n_n_wf : DotDims.WF S4000x128 S128x128 S4000x128 [1] [0] [0] [1] [] []
  gather_S20000x128_S200000x1_S200000x128_1_0_n_n_0_1_1128_wf : GatherDims.WF S20000x128 S200000x1 S200000x128 [1] [0] [] [0] [] 1 ![1, 128]
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S20000x128.size a
  hwx0_0 : ∀ i : grid0.Coords, EltTy.bits .f32 = 32 ∨ (Rect.block (s := S20000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S20000x1.size a
  hwx0_1 : ∀ i : grid0.Coords, EltTy.bits .f32 = 32 ∨ (Rect.block (s := S20000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S20000x128.size a
  hwx0_2 : ∀ i : grid0.Coords, EltTy.bits .f32 = 32 ∨ (Rect.block (s := S20000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S20000x128.size a
  hwx0_6 : ∀ i : grid0.Coords, EltTy.bits .f32 = 32 ∨ (Rect.block (s := S20000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S20000x128.size a
  hwx1_0 : ∀ i : grid1.Coords, EltTy.bits .f32 = 32 ∨ (Rect.block (s := S20000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S20000x1.size a
  hwx1_1 : ∀ i : grid1.Coords, EltTy.bits .f32 = 32 ∨ (Rect.block (s := S20000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S20000x128.size a
  hwx1_2 : ∀ i : grid1.Coords, EltTy.bits .f32 = 32 ∨ (Rect.block (s := S20000x128) S4000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S20000x128.size a
  hwx1_6 : ∀ i : grid1.Coords, EltTy.bits .f32 = 32 ∨ (Rect.block (s := S20000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S20000x1.size a
  hwx2_1 : ∀ i : grid2.Coords, EltTy.bits .f32 = 32 ∨ (Rect.block (s := S20000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S20000x128.size a
  hwx2_2 : ∀ i : grid2.Coords, EltTy.bits .f32 = 32 ∨ (Rect.block (s := S20000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S20000x128.size a
  hwx2_6 : ∀ i : grid2.Coords, EltTy.bits .f32 = 32 ∨ (Rect.block (s := S20000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S20000x128.size a
  hwx3_0 : ∀ i : grid3.Coords, EltTy.bits .f32 = 32 ∨ (Rect.block (s := S20000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S20000x1.size a
  hwx3_1 : ∀ i : grid3.Coords, EltTy.bits .f32 = 32 ∨ (Rect.block (s := S20000x1) S4000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S20000x128.size a
  hwx3_2 : ∀ i : grid3.Coords, EltTy.bits .f32 = 32 ∨ (Rect.block (s := S20000x128) S4000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S4000x128.size a ≤ S20000x128.size a
  hwx3_6 : ∀ i : grid3.Coords, EltTy.bits .f32 = 32 ∨ (Rect.block (s := S20000x128) S4000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S200000x128.size a
  hwx4_0 : ∀ i : grid4.Coords, EltTy.bits .f32 = 32 ∨ (Rect.block (s := S200000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S200000x128.size a
  hwx4_1 : ∀ i : grid4.Coords, EltTy.bits .f32 = 32 ∨ (Rect.block (s := S200000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x1.size a ≤ S200000x1.size a
  hwx4_7 : ∀ i : grid4.Coords, EltTy.bits .f32 = 32 ∨ (Rect.block (s := S200000x1) S2000x1.size (cc4_transform_7 i) (hinb4_7 i)).WholeWords (EltTy.packing .f32)

variable [Facts₀]

def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v32) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v71) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S4000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v74) S4000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v85) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v95) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v98) S2000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S20000x128 : Shape := ⟨2, ![20000, 128]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S2x640000 : Shape := ⟨2, ![2, 640000]⟩
abbrev S2x200000 : Shape := ⟨2, ![2, 200000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S20000 : Shape := ⟨1, ![20000]⟩
abbrev S20000x1 : Shape := ⟨2, ![20000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S20000x128, .f32⟩
  | 1 => ⟨S20000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S256x128, .f32⟩
  | 15 => ⟨S128, .f32⟩
  | 16 => ⟨S128x1, .f32⟩
  | 17 => ⟨S1, .f32⟩
  | 18 => ⟨S2x640000, .i32⟩
  | 19 => ⟨S2x640000, .i32⟩
  | 20 => ⟨S2x200000, .i32⟩
  | 21 => ⟨S1x640000, .i32⟩
  | 22 => ⟨S640000, .i32⟩
  | 23 => ⟨S1x640000, .i32⟩
  | 24 => ⟨S640000, .i32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x128, .f32⟩
  | 34 => ⟨S_, .f32⟩
  | 35 => ⟨S20000x128, .f32⟩
  | 36 => ⟨S640000x1, .i32⟩
  | 37 => ⟨S20000x128, .f32⟩
  | 38 => ⟨S_, .f32⟩
  | 39 => ⟨S640000, .f32⟩
  | 40 => ⟨S_, .f32⟩
  | 41 => ⟨S20000, .f32⟩
  | 42 => ⟨S640000x1, .i32⟩
  | 43 => ⟨S20000, .f32⟩
  | 44 => ⟨S_, .f32⟩
  | 45 => ⟨S20000, .f32⟩
  | 46 => ⟨S20000, .f32⟩
  | 47 => ⟨S20000x1, .f32⟩
  | 48 => ⟨S20000x128, .f32⟩
  | 49 => ⟨S20000x128, .f32⟩
  | 50 => ⟨S20000x128, .f32⟩
  | 51 => ⟨S1x128, .f32⟩
  | 52 => ⟨S20000x128, .f32⟩
  | 53 => ⟨S20000x128, .f32⟩
  | 54 => ⟨S20000x128, .f32⟩
  | 55 => ⟨S20000x128, .f32⟩
  | 56 => ⟨S_, .f32⟩
  | 57 => ⟨S20000x128, .f32⟩
  | 58 => ⟨S20000x128, .f32⟩
  | 59 => ⟨S1x640000, .i32⟩
  | 60 => ⟨S640000, .i32⟩
  | 61 => ⟨S1x640000, .i32⟩
  | 62 => ⟨S640000, .i32⟩
  | 63 => ⟨S_, .i32⟩
  | 64 => ⟨S640000, .i32⟩
  | 65 => ⟨S640000, .i1⟩
  | 66 => ⟨S_, .i32⟩
  | 67 => ⟨S640000, .i32⟩
  | 68 => ⟨S640000, .i32⟩
  | 69 => ⟨S640000, .i32⟩
  | 70 => ⟨S640000x1, .i32⟩
  | 71 => ⟨S640000x128, .f32⟩
  | 72 => ⟨S_, .f32⟩
  | 73 => ⟨S20000x128, .f32⟩
  | 74 => ⟨S640000x1, .i32⟩
  | 75 => ⟨S20000x128, .f32⟩
  | 76 => ⟨S_, .f32⟩
  | 77 => ⟨S640000, .f32⟩
  | 78 => ⟨S_, .f32⟩
  | 79 => ⟨S20000, .f32⟩
  | 80 => ⟨S640000x1, .i32⟩
  | 81 => ⟨S20000, .f32⟩
  | 82 => ⟨S_, .f32⟩
  | 83 => ⟨S20000, .f32⟩
  | 84 => ⟨S20000, .f32⟩
  | 85 => ⟨S20000x1, .f32⟩
  | 86 => ⟨S20000x128, .f32⟩
  | 87 => ⟨S20000x128, .f32⟩
  | 88 => ⟨S20000x128, .f32⟩
  | 89 => ⟨S1x128, .f32⟩
  | 90 => ⟨S20000x128, .f32⟩
  | 91 => ⟨S20000x128, .f32⟩
  | 92 => ⟨S20000x128, .f32⟩
  | 93 => ⟨S20000x128, .f32⟩
  | 94 => ⟨S_, .f32⟩
  | 95 => ⟨S20000x128, .f32⟩
  | 96 => ⟨S20000x128, .f32⟩
  | 97 => ⟨S1x640000, .i32⟩
  | 98 => ⟨S640000, .i32⟩
  | 99 => ⟨S1x640000, .i32⟩
  | 100 => ⟨S640000, .i32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S_, .f32⟩
  | 111 => ⟨S20000x128, .f32⟩
  | 112 => ⟨S640000x1, .i32⟩
  | 113 => ⟨S20000x128, .f32⟩
  | 114 => ⟨S_, .f32⟩
  | 115 => ⟨S640000, .f32⟩
  | 116 => ⟨S_, .f32⟩
  | 117 => ⟨S20000, .f32⟩
  | 118 => ⟨S640000x1, .i32⟩
  | 119 => ⟨S20000, .f32⟩
  | 120 => ⟨S_, .f32⟩
  | 121 => ⟨S20000, .f32⟩
  | 122 => ⟨S20000, .f32⟩
  | 123 => ⟨S20000x1, .f32⟩
  | 124 => ⟨S20000x128, .f32⟩
  | 125 => ⟨S20000x128, .f32⟩
  | 126 => ⟨S20000x128, .f32⟩
  | 127 => ⟨S1x128, .f32⟩
  | _ => ⟨S20000x128, .f32⟩

abbrev hbmTy0_1 (i : Nat) : BufTy := match i % 128 with
  | 0 => ⟨S20000x128, .f32⟩
  | 1 => ⟨S20000x128, .f32⟩
  | 2 => ⟨S20000x128, .f32⟩
  | 3 => ⟨S20000x128, .f32⟩
  | 4 => ⟨S1x640000, .i32⟩
  | 5 => ⟨S640000, .i32⟩
  | 6 => ⟨S1x640000, .i32⟩
  | 7 => ⟨S640000, .i32⟩
  | 8 => ⟨S_, .i32⟩
  | 9 => ⟨S640000, .i32⟩
  | 10 => ⟨S640000, .i1⟩
  | 11 => ⟨S_, .i32⟩
  | 12 => ⟨S640000, .i32⟩
  | 13 => ⟨S640000, .i32⟩
  | 14 => ⟨S640000, .i32⟩
  | 15 => ⟨S640000x1, .i32⟩
  | 16 => ⟨S640000x128, .f32⟩
  | 17 => ⟨S_, .f32⟩
  | 18 => ⟨S20000x128, .f32⟩
  | 19 => ⟨S640000x1, .i32⟩
  | 20 => ⟨S20000x128, .f32⟩
  | 21 => ⟨S_, .f32⟩
  | 22 => ⟨S640000, .f32⟩
  | 23 => ⟨S_, .f32⟩
  | 24 => ⟨S20000, .f32⟩
  | 25 => ⟨S640000x1, .i32⟩
  | 26 => ⟨S20000, .f32⟩
  | 27 => ⟨S_, .f32⟩
  | 28 => ⟨S20000, .f32⟩
  | 29 => ⟨S20000, .f32⟩
  | 30 => ⟨S20000x1, .f32⟩
  | 31 => ⟨S20000x128, .f32⟩
  | 32 => ⟨S20000x128, .f32⟩
  | 33 => ⟨S20000x128, .f32⟩
  | 34 => ⟨S1x128, .f32⟩
  | 35 => ⟨S20000x128, .f32⟩
  | 36 => ⟨S20000x128, .f32⟩
  | 37 => ⟨S20000x128, .f32⟩
  | 38 => ⟨S20000x128, .f32⟩
  | 39 => ⟨S1x200000, .i32⟩
  | 40 => ⟨S200000, .i32⟩
  | 41 => ⟨S1x200000, .i32⟩
  | 42 => ⟨S200000, .i32⟩
  | 43 => ⟨S_, .i32⟩
  | 44 => ⟨S200000, .i32⟩
  | 45 => ⟨S200000, .i1⟩
  | 46 => ⟨S_, .i32⟩
  | 47 => ⟨S200000, .i32⟩
  | 48 => ⟨S200000, .i32⟩
  | 49 => ⟨S200000, .i32⟩
  | 50 => ⟨S200000x1, .i32⟩
  | 51 => ⟨S200000x128, .f32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x128, .f32⟩
  | 61 => ⟨S200000x256, .f32⟩
  | 62 => ⟨S200000x128, .f32⟩
  | 63 => ⟨S1x128, .f32⟩
  | 64 => ⟨S200000x128, .f32⟩
  | 65 => ⟨S200000x128, .f32⟩
  | 66 => ⟨S_, .f32⟩
  | 67 => ⟨S200000x128, .f32⟩
  | 68 => ⟨S200000x128, .f32⟩
  | 69 => ⟨S200000x1, .f32⟩
  | 70 => ⟨S1x1, .f32⟩
  | 71 => ⟨S200000x1, .f32⟩
  | 72 => ⟨S200000x1, .f32⟩
  | 73 => ⟨S200000, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_cst_2 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call0_cst : Ref sig .tc := ⟨.hbm, 56, rfl⟩
abbrev main_call0_v0 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_4 : Ref sig .tc := ⟨.hbm, 63, rfl⟩
abbrev main_v34 : Ref sig .tc := ⟨.hbm, 64, rfl⟩
abbrev main_v35 : Ref sig .tc := ⟨.hbm, 65, rfl⟩
abbrev main_c_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_9 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_call1_cst : Ref sig .tc := ⟨.hbm, 94, rfl⟩
abbrev main_call1_v0 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_10 : Ref sig .tc := ⟨.hbm, 101, rfl⟩
abbrev main_v64 : Ref sig .tc := ⟨.hbm, 102, rfl⟩
abbrev main_v65 : Ref sig .tc := ⟨.hbm, 103, rfl⟩
abbrev main_c_11 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_12 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_13 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_15 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_16 : Ref sig .tc := ⟨.hbm, 136, rfl⟩
abbrev main_v93 : Ref sig .tc := ⟨.hbm, 137, rfl⟩
abbrev main_v94 : Ref sig .tc := ⟨.hbm, 138, rfl⟩
abbrev main_c_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_18 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_19 : Ref sig .tc := ⟨.hbm, 149, rfl⟩
abbrev main_v103 : Ref sig .tc := ⟨.hbm, 150, rfl⟩
abbrev main_cst_20 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_21 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_c_22 : Ref sig .tc := ⟨.hbm, 171, rfl⟩
abbrev main_v122 : Ref sig .tc := ⟨.hbm, 172, rfl⟩
abbrev main_v123 : Ref sig .tc := ⟨.hbm, 173, rfl⟩
abbrev main_c_23 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_24 : Ref sig .tc := ⟨.hbm, 180, rfl⟩
abbrev main_v129 : Ref sig .tc := ⟨.hbm, 181, rfl⟩
abbrev main_v130 : Ref sig .tc := ⟨.hbm, 182, rfl⟩
abbrev main_c_25 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_call2_cst : Ref sig .tc := ⟨.hbm, 194, rfl⟩
abbrev main_call2_v0 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  scatter_S20000_S640000x1_S640000_n_0_0_1_wf : ScatterDims.WF S20000 S640000x1 S640000 [] [0] [0] 1
  dot_S20000x128_S128x128_S20000x128_1_0_0_1_n_n_wf : DotDims.WF S20000x128 S128x128 S20000x128 [1] [0] [0] [1] [] []
  gather_S20000x128_S200000x1_S200000x128_1_0_n_n_0_1_1128_wf : GatherDims.WF S20000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S200000x1_S200000x128_1_0_n_n_0_1_1128 : GatherDims S20000x128 S200000x1 S200000x128 where
  offsetDims := [1]
  collapsedSliceDims := [0]
  operandBatchingDims := []
  startIndicesBatchingDims := []
  startIndexMap := [0]
  indexVectorDim := 1
  sliceSizes := ![1, 128]
  wf := gather_S20000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel's run with EVERY unscoped buffer named.

  @main is eleven segments: six stretches of host operations around five pipelined regions. The buffer contents at
  each boundary are a fold from the launch memory: a host stretch applies its operations, a region replaces its
  windows' arrays by what its write-backs leave. Every weakly fair execution terminates, nothing faulting, and in
  the final state every unscoped buffer holds the last boundary's contents `W11`.
-/
import proofs.«110691_j32409823216440_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and each unscoped buffer of each TensorCore
    ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.Whole

end
-- ==== Proof.Spec.lean ====
/-
  The two scalar formulas this certificate turns on, stated once over plain functions on the extended reals.

  * `combK`: one entry of a SAGE "combine" step. Row `a` of the neighbour sum is scaled by the row's
    reciprocal in-degree `s`, multiplied into column `wl` of the left weight; row `x` of the destination
    features is multiplied into column `wr` of the right weight; the two products and the bias entry `b` are added.
  * `decK`: one entry of the edge decoder. The hidden row is `relu (zr · Wa + zc · Wb + b1)` — the product of the
    concatenated row `[zr, zc]` with the stacked weight `[Wa; Wb]` split at the join —, and the result is its inner
    product with the output weight `w2`, plus the output bias `b2`.
-/
import Idealize.ShloMosaic.PureOps.Ideal

noncomputable section

namespace Cert.Spec

open Idealize.ShloMosaic

/-- The float word `0.0` read as an extended real. -/
abbrev Z32 : EReal := Ideal.ofBits .f32 0x00000000#32
/-- The float word `1.0` read as an extended real. -/
abbrev ONE32 : EReal := Ideal.ofBits .f32 0x3F800000#32

/-- One entry of a combine step: `(∑ₖ (aₖ · s) · wlₖ + ∑ₖ xₖ · wrₖ) + b`. -/
def combK (a x wl wr : Fin 128 → EReal) (s b : EReal) : EReal :=
  ((∑ k : Fin 128, (a k * s) * wl k) + (∑ k : Fin 128, x k * wr k)) + b

/-- One entry of the decoder: `(0 + ∑_q relu((∑ₖ zrₖ·Wa k q + ∑ₖ zcₖ·Wb k q) + b1_q) · w2_q) + b2`. -/
def decK (zr zc : Fin 128 → EReal) (wa wb : Fin 128 → Fin 128 → EReal) (b1 w2 : Fin 128 → EReal) (b2 : EReal) : EReal :=
  (Z32 + ∑ q : Fin 128, max (((∑ k : Fin 128, zr k * wa k q) + (∑ k : Fin 128, zc k * wb k q)) + b1 q) Z32 * w2 q) + b2

end Cert.Spec

end
-- ==== Proof.CombineRowK.lean ====
/-
  One entry of each of the four combine kernels' stored blocks, as the scalar formula `Cert.Spec.combK`.

  Each kernel body computes, on a block of 4000 rows and 128 lanes,
    relu? ( (agg ⊙ s) · Wl + x · Wr + b ),
  where `agg` is the block of neighbour sums, `s` the [4000, 1] column of reciprocal in-degrees broadcast along
  the lanes, `x` the block of destination features, `Wl`, `Wr` the two [128, 128] weights and `b` the [1, 128]
  bias row broadcast over the rows. At the extended reals the narrowing of the matrix operands is the identity
  and a matrix product into the zero accumulator is the plain sum over the contracted coordinate, so entry
  `(p, q)` of the result is
    (∑ₖ (agg p k · s p) · Wl k q + ∑ₖ x p k · Wr k q) + b q,
  followed in the first two kernels by the maximum with the zero word.
-/
import proofs.«110691_j32409823216440_2_alg».proof.Proof.Spec
import proofs.«110691_j32409823216440_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.CombineRowK

open Idealize.ShloMosaic Idealize.ShloMosaic.ValueIdx Cert.KernelIdeal Cert.Spec

/-- A `[a, 1]` column broadcast along the lanes to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate of the [4000,128] × [128,128] product is the output's row. -/
theorem lhs0 (i : S4000x128.Idx) (k : dot_S4000x128_S128x128_S4000x128_1_0_0_1_n_n.contr.Idx) :
    (dot_S4000x128_S128x128_S4000x128_1_0_0_1_n_n.lhsIdx i k 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

/-- The right operand's column coordinate is the output's column. -/
theorem rhs1 (i : S4000x128.Idx) (k : dot_S4000x128_S128x128_S4000x128_1_0_0_1_n_n.contr.Idx) :
    (dot_S4000x128_S128x128_S4000x128_1_0_0_1_n_n.rhsIdx i k 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- The matrix product into the zero accumulator, read at `(p, q)`: the sum over the contracted coordinate `k`
    of the left operand at `(p, k)` times the right operand at `(k, q)`. -/
theorem matmul_zero_ix2 {φ₁ φ₂ : FTy} (L : FVec Ideal S4000x128 φ₁) (R : FVec Ideal S128x128 φ₂) (p : Fin 4000) (q : Fin 128) :
    matmul dot_S4000x128_S128x128_S4000x128_1_0_0_1_n_n none L R (constant (F := Ideal) S4000x128 .f32 0x00000000#32) (ix2 p q)
      = ∑ k : Fin 128, L (ix2 p k) * R (ix2 k q) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q)
      ((contrEquiv1 dot_S4000x128_S128x128_S4000x128_1_0_0_1_n_n 128 rfl rfl).symm k) = ix2 p k :=
    funext fun a => Fin.ext (by
      match a with
      | ⟨0, _⟩ => exact lhs0 _ _
      | ⟨1, _⟩ => exact (dot_S4000x128_S128x128_S4000x128_1_0_0_1_n_n.lhsIdx_val_of_single rfl _ _).trans hk)
  have er : dot_S4000x128_S128x128_S4000x128_1_0_0_1_n_n.rhsIdx (ix2 p q)
      ((contrEquiv1 dot_S4000x128_S128x128_S4000x128_1_0_0_1_n_n 128 rfl rfl).symm k) = ix2 k q :=
    funext fun a => Fin.ext (by
      match a with
      | ⟨0, _⟩ => exact (dot_S4000x128_S128x128_S4000x128_1_0_0_1_n_n.rhsIdx_val_of_single rfl _ _).trans hk
      | ⟨1, _⟩ => exact rhs1 _ _)
  rw [el, er]

/-- One entry of combine kernel 0's stored block, the combine step followed by the rectifier. -/
theorem pay0_apply (v0 v10 : Vec Ideal S4000x128 .f32) (v2 : Vec Ideal S4000x1 .f32) (v7 v12 : Vec Ideal S128x128 .f32)
    (v16 : Vec Ideal S1x128 .f32) (p : Fin 4000) (q : Fin 128) :
    Cert.KernelIdeal.Gen.k0_pay1 (F := Ideal) v0 v2 v7 v10 v12 v16 (ix2 p q)
      = max (combK (fun k => v0 (ix2 p k)) (fun k => v10 (ix2 p k)) (fun k => v7 (ix2 k q)) (fun k => v12 (ix2 k q))
          (v2 (ix2 p 0)) (v16 (ix2 0 q))) Z32 := by
  unfold Cert.KernelIdeal.Gen.k0_pay1
  simp only [maximumf_apply, addf_apply, mulf_apply, truncf_apply, broadcast_apply, shapeCast_self, matmul_zero_ix2,
    broadcastTo_a1_ab_apply, broadcastTo_1b_ab_apply, combK]
  rfl

/-- One entry of combine kernel 1's stored block, the combine step followed by the rectifier. -/
theorem pay1_apply (v0 v10 : Vec Ideal S4000x128 .f32) (v2 : Vec Ideal S4000x1 .f32) (v7 v12 : Vec Ideal S128x128 .f32)
    (v16 : Vec Ideal S1x128 .f32) (p : Fin 4000) (q : Fin 128) :
    Cert.KernelIdeal.Gen.k1_pay1 (F := Ideal) v0 v2 v7 v10 v12 v16 (ix2 p q)
      = max (combK (fun k => v0 (ix2 p k)) (fun k => v10 (ix2 p k)) (fun k => v7 (ix2 k q)) (fun k => v12 (ix2 k q))
          (v2 (ix2 p 0)) (v16 (ix2 0 q))) Z32 := by
  unfold Cert.KernelIdeal.Gen.k1_pay1
  simp only [maximumf_apply, addf_apply, mulf_apply, truncf_apply, broadcast_apply, shapeCast_self, matmul_zero_ix2,
    broadcastTo_a1_ab_apply, broadcastTo_1b_ab_apply, combK]
  rfl

/-- One entry of combine kernel 2's stored block, the combine step with no rectifier. -/
theorem pay2_apply (v0 v10 : Vec Ideal S4000x128 .f32) (v2 : Vec Ideal S4000x1 .f32) (v7 v13 : Vec Ideal S128x128 .f32)
    (v17 : Vec Ideal S1x128 .f32) (p : Fin 4000) (q : Fin 128) :
    Cert.KernelIdeal.Gen.k2_pay1 (F := Ideal) v0 v2 v7 v10 v13 v17 (ix2 p q)
      = combK (fun k => v0 (ix2 p k)) (fun k => v10 (ix2 p k)) (fun k => v7 (ix2 k q)) (fun k => v13 (ix2 k q))
          (v2 (ix2 p 0)) (v17 (ix2 0 q)) := by
  unfold Cert.KernelIdeal.Gen.k2_pay1
  simp only [maximumf_apply, addf_apply, mulf_apply, truncf_apply, broadcast_apply, shapeCast_self, matmul_zero_ix2,
    broadcastTo_a1_ab_apply, broadcastTo_1b_ab_apply, combK]

/-- One entry of combine kernel 3's stored block, the combine step with no rectifier. -/
theorem pay3_apply (v0 v10 : Vec Ideal S4000x128 .f32) (v2 : Vec Ideal S4000x1 .f32) (v7 v13 : Vec Ideal S128x128 .f32)
    (v17 : Vec Ideal S1x128 .f32) (p : Fin 4000) (q : Fin 128) :
    Cert.KernelIdeal.Gen.k3_pay1 (F := Ideal) v0 v2 v7 v10 v13 v17 (ix2 p q)
      = combK (fun k => v0 (ix2 p k)) (fun k => v10 (ix2 p k)) (fun k => v7 (ix2 k q)) (fun k => v13 (ix2 k q))
          (v2 (ix2 p 0)) (v17 (ix2 0 q)) := by
  unfold Cert.KernelIdeal.Gen.k3_pay1
  simp only [maximumf_apply, addf_apply, mulf_apply, truncf_apply, broadcast_apply, shapeCast_self, matmul_zero_ix2,
    broadcastTo_a1_ab_apply, broadcastTo_1b_ab_apply, combK]

end Cert.CombineRowK

end
-- ==== Proof.DecoderRowK.lean ====
/-
  The edge decoder's kernel body read at one entry.

  Each output entry (p, 0) of the decoder kernel is computed from row p of the two gathered feature blocks:
  the two row-by-matrix products into zero accumulators are added, the hidden bias row is added, the result is
  clamped below at 0.0, multiplied entrywise by the output weight row, summed along the 128 lanes, and the
  output bias is added. This module states that as Cert.Spec.decK of the row's coordinates.
-/
import proofs.«110691_j32409823216440_2_alg».proof.Proof.Spec
import proofs.«110691_j32409823216440_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.DecoderRow

open Idealize.ShloMosaic Idealize.ShloMosaic.ValueIdx Cert.Spec

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The decoder kernel's dimension numbers: [2000,128] × [128,128] → [2000,128], contracting the left operand's
    axis 1 with the right operand's axis 0. -/
abbrev dotK := Cert.KernelIdeal.dot_S2000x128_S128x128_S2000x128_1_0_0_1_n_n

theorem dotK_lhs0 (i : Cert.KernelIdeal.S2000x128.Idx) (q : dotK.contr.Idx) : (dotK.lhsIdx i q 0).val = (i 0).val := by
  unfold DotDims.lhsIdx
  rw [dif_neg (show ¬(0 : Fin Cert.KernelIdeal.S2000x128.rank) ∈ dotK.lhsBatch by decide),
    dif_pos (show (0 : Fin Cert.KernelIdeal.S2000x128.rank) ∈ dotK.lhsNonContracting by decide)]
  rfl
theorem dotK_lhs1 (i : Cert.KernelIdeal.S2000x128.Idx) (q : dotK.contr.Idx) :
    (dotK.lhsIdx i q 1).val = (q ⟨0, by decide⟩).val :=
  dotK.lhsIdx_val_of_single rfl i q
theorem dotK_rhs0 (i : Cert.KernelIdeal.S2000x128.Idx) (q : dotK.contr.Idx) :
    (dotK.rhsIdx i q 0).val = (q ⟨0, by decide⟩).val :=
  dotK.rhsIdx_val_of_single rfl i q
theorem dotK_rhs1 (i : Cert.KernelIdeal.S2000x128.Idx) (q : dotK.contr.Idx) : (dotK.rhsIdx i q 1).val = (i 1).val := by
  unfold DotDims.rhsIdx
  rw [dif_neg (show ¬(1 : Fin Cert.KernelIdeal.S128x128.rank) ∈ dotK.rhsBatch by decide),
    dif_pos (show (1 : Fin Cert.KernelIdeal.S128x128.rank) ∈ dotK.rhsNonContracting by decide)]
  rfl

/-- One entry of the product into the zero accumulator is the row-column sum. -/
theorem matmulK_apply {φ₁ φ₂ : FTy} (lhs : FVec Ideal Cert.KernelIdeal.S2000x128 φ₁) (rhs : FVec Ideal Cert.KernelIdeal.S128x128 φ₂)
    (p : Fin 2000) (q : Fin 128) :
    matmul dotK none lhs rhs (constant (F := Ideal) Cert.KernelIdeal.S2000x128 .f32 0x00000000#32) (ix2 p q)
      = ∑ k : Fin 128, lhs (ix2 p k) * rhs (ix2 k q) := by
  simp only [matmul]
  rw [Ideal.matmul_constant_zero_apply, ← Equiv.sum_comp (contrEquiv1 dotK 128 rfl rfl).symm]
  refine Finset.sum_congr rfl fun k _ => ?_
  have hk := contrEquiv1_symm_val dotK 128 rfl rfl k
  have el : dotK.lhsIdx (ix2 p q) ((contrEquiv1 dotK 128 rfl rfl).symm k) = ix2 p k := funext fun a => Fin.ext (by
    match a with
    | ⟨0, _⟩ => exact dotK_lhs0 _ _
    | ⟨1, _⟩ => exact (dotK_lhs1 _ _).trans hk)
  have er : dotK.rhsIdx (ix2 p q) ((contrEquiv1 dotK 128 rfl rfl).symm k) = ix2 k q := funext fun a => Fin.ext (by
    match a with
    | ⟨0, _⟩ => exact (dotK_rhs0 _ _).trans hk
    | ⟨1, _⟩ => exact dotK_rhs1 _ _)
  rw [el, er]

/-- The lane sum of a [2000,128] array from the zero word, at row p: the sum over the row. -/
theorem laneSumK_apply (src : FVec Ideal Cert.KernelIdeal.S2000x128 .f32)
    (h : Cert.KernelIdeal.S2000x128.Reduces [1] Cert.KernelIdeal.S2000) (hφ : FKind.Formats FTy.f32)
    (hacc : (0x00000000#32 : BitVec 32) = 0x00000000#32) (p : Fin 2000) :
    multiReduction (F := Ideal) .add [1] Cert.KernelIdeal.S2000 src 0x00000000#32 h hφ hacc (ix1 p)
      = ∑ q : Fin 128, src (ix2 p q) := by
  refine (Ideal.multiReduction_add_single src 0x00000000#32 h hφ hacc (ix1 p)).trans ?_
  show ∑ q : Fin 128, src (h.lift (ix1 p) q) = _
  refine Finset.sum_congr rfl fun q _ => congrArg src (funext fun c => Fin.ext ?_)
  match c with
  | ⟨0, _⟩ => rfl
  | ⟨1, _⟩ => rfl

/-- THE DECODER KERNEL'S PAYLOAD AT ENTRY (p, 0): decK of row p of the two feature blocks, the two weight
    matrices, the hidden bias row, the output weight row and the output bias. -/
theorem pay4_apply (v0 v7 : Vec Ideal Cert.KernelIdeal.S2000x128 .f32) (v3 v10 : Vec Ideal Cert.KernelIdeal.S128x128 .f32)
    (v15 v21 : Vec Ideal Cert.KernelIdeal.S1x128 .f32) (v27 : Vec Ideal Cert.KernelIdeal.S1x1 .f32) (p : Fin 2000) (z : Fin 1) :
    Cert.KernelIdeal.Gen.k4_pay1 (F := Ideal) v0 v3 v7 v10 v15 v21 v27 (ix2 p z)
      = decK (fun k => v0 (ix2 p k)) (fun k => v7 (ix2 p k)) (fun k q => v3 (ix2 k q)) (fun k q => v10 (ix2 k q))
          (fun q => v15 (ix2 0 q)) (fun q => v21 (ix2 0 q)) (v27 (ix2 0 0)) := by
  obtain rfl : z = 0 := Subsingleton.elim _ _
  have hz : ∀ x : EReal, Z32 + x = x := fun x => by
    rw [show Z32 = 0 from Ideal.ofBits_zero_f32, zero_add]
  unfold Cert.KernelIdeal.Gen.k4_pay1 decK
  rw [addf_apply, shapeCast_a_a1_apply, laneSumK_apply, broadcastTo_1b_ab_apply]
  simp only [shapeCast_self]
  rw [hz]
  refine congrArg (· + v27 (ix2 0 0)) (Finset.sum_congr rfl fun q _ => ?_)
  rw [mulf_apply, maximumf_apply, addf_apply, addf_apply, matmulK_apply, matmulK_apply,
    broadcastTo_1b_ab_apply, broadcastTo_1b_ab_apply]
  simp only [truncf_apply, broadcast_apply]
  rfl

end Cert.DecoderRow

end
-- ==== Proof.Regions.lean ====
/-
  Each pipelined region's output array as ONE function of the arrays the region finds.

  A combine region walks five blocks of 4000 rows; at each it reads the matching row blocks of the neighbour sum, of
  the reciprocal in-degree column and of the destination features, the two whole weights and the bias row, and
  writes the block of combine entries back. The blocks tile the [20000,128] output, so the array ends as the
  whole-array combine. The decoder region does the same over a hundred blocks of 2000 rows of a [200000,1] column.
-/
import proofs.«110691_j32409823216440_2_alg».proof.Proof.Gen.KernelIdeal.Frame
import proofs.«110691_j32409823216440_2_alg».proof.Proof.Spec
import proofs.«110691_j32409823216440_2_alg».proof.Proof.CombineRowK
import proofs.«110691_j32409823216440_2_alg».proof.Proof.DecoderRowK
import Idealize.ShloMosaic.Lib.Pipeline.Value
import Idealize.ShloMosaic.Lib.ValueIdx

set_option maxRecDepth 16384

noncomputable section

namespace Cert.KernelIdeal.Whole

open Cert.KernelIdeal Cert.KernelIdeal.Gen Cert.Spec
open Idealize.ShloMosaic Idealize.ShloMosaic.TcCoe Idealize.ShloMosaic.ValueIdx
open Idealize.SL.Sem
open Idealize.ShloMosaic.Pipeline (Dat Cfg Window)

/-- A whole [20000,128] array of combine entries followed by relu: entry (r, q) from row `r` of the neighbour sum, of the
    reciprocal in-degree column and of the destination features, column `q` of the two weights and of the bias row. -/
def combReluArr (agg : Vec Ideal S20000x128 .f32) (inv : Vec Ideal S20000x1 .f32) (xd : Vec Ideal S20000x128 .f32)
    (wl wr : Vec Ideal S128x128 .f32) (b : Vec Ideal S1x128 .f32) : Vec Ideal S20000x128 .f32 :=
  fun i => max (combK (fun k => agg (ix2 (i 0) k)) (fun k => xd (ix2 (i 0) k)) (fun k => wl (ix2 k (i 1))) (fun k => wr (ix2 k (i 1))) (inv (ix2 (i 0) 0)) (b (ix2 0 (i 1)))) Z32

/-- The same without the relu. -/
def combLinArr (agg : Vec Ideal S20000x128 .f32) (inv : Vec Ideal S20000x1 .f32) (xd : Vec Ideal S20000x128 .f32)
    (wl wr : Vec Ideal S128x128 .f32) (b : Vec Ideal S1x128 .f32) : Vec Ideal S20000x128 .f32 :=
  fun i => combK (fun k => agg (ix2 (i 0) k)) (fun k => xd (ix2 (i 0) k)) (fun k => wl (ix2 k (i 1))) (fun k => wr (ix2 k (i 1))) (inv (ix2 (i 0) 0)) (b (ix2 0 (i 1)))

theorem hz : (![0, 0] : Fin 2 → Nat) = fun _ => 0 := funext fun a => by fin_cases a <;> rfl

variable (V : (c : Dev nD) → (b : Ref sig .tc) → Buf (Elt Ideal) ((c : Thread nD τ).loc b))

/-! ## Region 0: rows of the neighbour sum main_v32 scaled by the column main_v33, combined with main_arg1 -/

theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the whole-array combine of the arrays the region finds. -/
theorem flushed0_eq (c : Dev nD) (t : Fin cfg0.N) :
    (dat0 (F := Ideal) V c).flushed 6 t = ((cfg0.win 6).blk t).view.read (Elt Ideal)
      (combReluArr (V c main_v32) (V c main_v33) (V c main_arg1) (V c main_arg2) (V c main_arg3) (V c main_v34)) := by
  show (cfg0.win 6).cut (grid0.coords t) ((dat0 (F := Ideal) V c).after 6 t) = _
  rw [after0_6]
  unfold out0_6
  rw [View.canon_unit_zero hz]
  simp only [View.ld_unit_zero (S := S4000x128) hz, View.ld_unit_zero (S := S4000x1) hz, View.ld_unit_zero (S := S128x128) hz, View.ld_unit_zero (S := S1x128) hz]
  obtain ⟨a0, a1, b0, b1, c0, c1, d0, d1, e0, e1, f0, f1, g0, g1⟩ := idx_facts0 t
  have ht : t.val < 5 := t.isLt
  funext j
  obtain ⟨p, q, rfl⟩ : ∃ (p : Fin 4000) (q : Fin 128), j = ix2 p q := ⟨j 0, j 1, eq_ix2 j⟩
  have hp : p.val < 4000 := p.isLt
  have hr : t.val * 4000 + p.val < 20000 := by omega
  refine (Cert.CombineRowK.pay0_apply (iblk0 V c 0 t) (iblk0 V c 2 t) (iblk0 V c 1 t) (iblk0 V c 3 t) (iblk0 V c 4 t) (iblk0 V c 5 t) p q).trans ?_
  show _ = combReluArr _ _ _ _ _ _ (((cfg0.win 6).blk t).view.emb (ix2 p q))
  have hemb : ((cfg0.win 6).blk t).view.emb (ix2 p q) = ix2 ⟨t.val * 4000 + p.val, hr⟩ q := by
    funext a; apply Fin.ext
    match a with
    | ⟨0, _⟩ => show win0_6.index t (0 : Fin 2) * 4000 + 1 * p.val = t.val * 4000 + p.val; omega
    | ⟨1, _⟩ => show win0_6.index t (1 : Fin 2) * 128 + 1 * q.val = q.val; omega
  rw [hemb]
  have h0 : ∀ k : Fin 128, iblk0 V c 0 t (ix2 p k) = V c main_v32 (ix2 ⟨t.val * 4000 + p.val, hr⟩ k) := fun k => by
    show V c main_v32 (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  have h2 : ∀ k : Fin 128, iblk0 V c 2 t (ix2 p k) = V c main_arg1 (ix2 ⟨t.val * 4000 + p.val, hr⟩ k) := fun k => by
    show V c main_arg1 (((cfg0.win 2).blk t).view.emb (ix2 p k)) = _
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 128 + 1 * k.val = k.val; omega
  have h1 : iblk0 V c 1 t (ix2 p 0) = V c main_v33 (ix2 ⟨t.val * 4000 + p.val, hr⟩ 0) := by
    show V c main_v33 (((cfg0.win 1).blk t).view.emb (ix2 p 0)) = _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 1 + 1 * 0 = 0; omega
  have h3 : ∀ k : Fin 128, iblk0 V c 3 t (ix2 k q) = V c main_arg2 (ix2 k q) := fun k => by
    show V c main_arg2 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have h4 : ∀ k : Fin 128, iblk0 V c 4 t (ix2 k q) = V c main_arg3 (ix2 k q) := fun k => by
    show V c main_arg3 (((cfg0.win 4).blk t).view.emb (ix2 k q)) = _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega
  have h5 : iblk0 V c 5 t (ix2 0 q) = V c main_v34 (ix2 0 q) := by
    show V c main_v34 (((cfg0.win 5).blk t).view.emb (ix2 0 q)) = _
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * q.val = q.val; omega
  simp only [h0, h1, h2, h3, h4, h5]
  rfl

theorem mem_blk0 (t : Fin cfg0.N) (i : S20000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v35).slice (win0_6.rect t)).set ↔ _
  rw [View.set_slice_whole, Rect.mem_set_unit]
  exact Iff.rfl

/-- The five row blocks tile the array: row `r` lies in block `r / 4000`. -/
theorem cover0 (i : S20000x128.Idx) : ∃ t : Fin cfg0.N, (cfg0.win 6).flush t = true ∧ i ∈ ((cfg0.win 6).blk t).view.set := by
  have hi0 : (i 0).val < 20000 := (i 0).isLt
  have hi1 : (i 1).val < 128 := (i 1).isLt
  have hlt : (i 0).val / 4000 < 5 := by omega
  refine ⟨⟨(i 0).val / 4000, hlt⟩, flush0_6 _, ?_⟩
  rw [mem_blk0]
  obtain ⟨a0, a1, b0, b1, c0, c1, d0, d1, e0, e1, f0, f1, g0, g1⟩ := idx_facts0 ⟨(i 0).val / 4000, hlt⟩
  have g0' : win0_6.index ⟨(i 0).val / 4000, hlt⟩ (0 : Fin 2) = (i 0).val / 4000 := g0
  intro a
  match a with
  | ⟨0, _⟩ => show win0_6.index ⟨(i 0).val / 4000, hlt⟩ (0 : Fin 2) * 4000 ≤ (i 0).val ∧ (i 0).val < win0_6.index ⟨(i 0).val / 4000, hlt⟩ (0 : Fin 2) * 4000 + 4000; omega
  | ⟨1, _⟩ => show win0_6.index ⟨(i 0).val / 4000, hlt⟩ (1 : Fin 2) * 128 ≤ (i 1).val ∧ (i 1).val < win0_6.index ⟨(i 0).val / 4000, hlt⟩ (1 : Fin 2) * 128 + 128; omega

/-- The region's output array after its last write-back. -/
theorem final0 (c : Dev nD) : (dat0 (F := Ideal) V c).arrAt 6 cfg0.N
    = combReluArr (V c main_v32) (V c main_v33) (V c main_arg1) (V c main_arg2) (V c main_arg3) (V c main_v34) :=
  (dat0 (F := Ideal) V c).arrAt_eq_of_cover 6 _ (fun t _ => flushed0_eq V c t) (cover0)

/-! ## Region 1: rows of the neighbour sum main_v45 scaled by the column main_v46, combined with main_arg0 -/

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the whole-array combine of the arrays the region finds. -/
theorem flushed1_eq (c : Dev nD) (t : Fin cfg1.N) :
    (dat1 (F := Ideal) V c).flushed 6 t = ((cfg1.win 6).blk t).view.read (Elt Ideal)
      (combReluArr (V c main_v45) (V c main_v46) (V c main_arg0) (V c main_arg5) (V c main_arg6) (V c main_v47)) := by
  show (cfg1.win 6).cut (grid1.coords t) ((dat1 (F := Ideal) V c).after 6 t) = _
  rw [after1_6]
  unfold out1_6
  rw [View.canon_unit_zero hz]
  simp only [View.ld_unit_zero (S := S4000x128) hz, View.ld_unit_zero (S := S4000x1) hz, View.ld_unit_zero (S := S128x128) hz, View.ld_unit_zero (S := S1x128) hz]
  obtain ⟨a0, a1, b0, b1, c0, c1, d0, d1, e0, e1, f0, f1, g0, g1⟩ := idx_facts1 t
  have ht : t.val < 5 := t.isLt
  funext j
  obtain ⟨p, q, rfl⟩ : ∃ (p : Fin 4000) (q : Fin 128), j = ix2 p q := ⟨j 0, j 1, eq_ix2 j⟩
  have hp : p.val < 4000 := p.isLt
  have hr : t.val * 4000 + p.val < 20000 := by omega
  refine (Cert.CombineRowK.pay1_apply (iblk1 V c 0 t) (iblk1 V c 2 t) (iblk1 V c 1 t) (iblk1 V c 3 t) (iblk1 V c 4 t) (iblk1 V c 5 t) p q).trans ?_
  show _ = combReluArr _ _ _ _ _ _ (((cfg1.win 6).blk t).view.emb (ix2 p q))
  have hemb : ((cfg1.win 6).blk t).view.emb (ix2 p q) = ix2 ⟨t.val * 4000 + p.val, hr⟩ q := by
    funext a; apply Fin.ext
    match a with
    | ⟨0, _⟩ => show win1_6.index t (0 : Fin 2) * 4000 + 1 * p.val = t.val * 4000 + p.val; omega
    | ⟨1, _⟩ => show win1_6.index t (1 : Fin 2) * 128 + 1 * q.val = q.val; omega
  rw [hemb]
  have h0 : ∀ k : Fin 128, iblk1 V c 0 t (ix2 p k) = V c main_v45 (ix2 ⟨t.val * 4000 + p.val, hr⟩ k) := fun k => by
    show V c main_v45 (((cfg1.win 0).blk t).view.emb (ix2 p k)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * k.val = k.val; omega
  have h2 : ∀ k : Fin 128, iblk1 V c 2 t (ix2 p k) = V c main_arg0 (ix2 ⟨t.val * 4000 + p.val, hr⟩ k) := fun k => by
    show V c main_arg0 (((cfg1.win 2).blk t).view.emb (ix2 p k)) = _
    refine congrArg _ (funext fun a => Fin.ext ?_)
    match a with
    | ⟨0, _⟩ => show win1_2.index t (0 : Fin 2) * 4000 + 1 * p.val = t.val * 4000 + p.val; omega
    | ⟨1, _⟩ => show win1_2.index t (1 : Fin 2) * 128 + 1 * k.val = k.val; omega
  have h1 : iblk1 V c 1 t (ix2 p 0) = V c main_v46 (ix2 ⟨t.val * 4000 + p.val, hr⟩ 0) := by
    show V c main_v46 (((cfg1.win 1).blk t).view.emb (ix2 p 0)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 1 + 1 * 0 = 0; omega
  have h3 : ∀ k : Fin 128, iblk1 V c 3 t (ix2 k q) = V c main_arg5 (ix2 k q) := fun k => by
    show V c main_arg5 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have h4 : ∀ k : Fin 128, iblk1 V c 4 t (ix2 k q) = V c main_arg6 (ix2 k q) := fun k => by
    show V c main_arg6 (((cfg1.win 4).blk t).view.emb (ix2 k q)) = _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = q.val; omega
  have h5 : iblk1 V c 5 t (ix2 0 q) = V c main_v47 (ix2 0 q) := by
    show V c main_v47 (((cfg1.win 5).blk t).view.emb (ix2 0 q)) = _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega
  simp only [h0, h1, h2, h3, h4, h5]
  rfl

theorem mem_blk1 (t : Fin cfg1.N) (i : S20000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v48).slice (win1_6.rect t)).set ↔ _
  rw [View.set_slice_whole, Rect.mem_set_unit]
  exact Iff.rfl

/-- The five row blocks tile the array: row `r` lies in block `r / 4000`. -/
theorem cover1 (i : S20000x128.Idx) : ∃ t : Fin cfg1.N, (cfg1.win 6).flush t = true ∧ i ∈ ((cfg1.win 6).blk t).view.set := by
  have hi0 : (i 0).val < 20000 := (i 0).isLt
  have hi1 : (i 1).val < 128 := (i 1).isLt
  have hlt : (i 0).val / 4000 < 5 := by omega
  refine ⟨⟨(i 0).val / 4000, hlt⟩, flush1_6 _, ?_⟩
  rw [mem_blk1]
  obtain ⟨a0, a1, b0, b1, c0, c1, d0, d1, e0, e1, f0, f1, g0, g1⟩ := idx_facts1 ⟨(i 0).val / 4000, hlt⟩
  have g0' : win1_6.index ⟨(i 0).val / 4000, hlt⟩ (0 : Fin 2) = (i 0).val / 4000 := g0
  intro a
  match a with
  | ⟨0, _⟩ => show win1_6.index ⟨(i 0).val / 4000, hlt⟩ (0 : Fin 2) * 4000 ≤ (i 0).val ∧ (i 0).val < win1_6.index ⟨(i 0).val / 4000, hlt⟩ (0 : Fin 2) * 4000 + 4000; omega
  | ⟨1, _⟩ => show win1_6.index ⟨(i 0).val / 4000, hlt⟩ (1 : Fin 2) * 128 ≤ (i 1).val ∧ (i 1).val < win1_6.index ⟨(i 0).val / 4000, hlt⟩ (1 : Fin 2) * 128 + 128; omega

/-- The region's output array after its last write-back. -/
theorem final1 (c : Dev nD) : (dat1 (F := Ideal) V c).arrAt 6 cfg1.N
    = combReluArr (V c main_v45) (V c main_v46) (V c main_arg0) (V c main_arg5) (V c main_arg6) (V c main_v47) :=
  (dat1 (F := Ideal) V c).arrAt_eq_of_cover 6 _ (fun t _ => flushed1_eq V c t) (cover1)

/-! ## Region 2: rows of the neighbour sum main_v58 scaled by the column main_v59, combined with main_v35 -/

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the whole-array combine of the arrays the region finds. -/
theorem flushed2_eq (c : Dev nD) (t : Fin cfg2.N) :
    (dat2 (F := Ideal) V c).flushed 6 t = ((cfg2.win 6).blk t).view.read (Elt Ideal)
      (combLinArr (V c main_v58) (V c main_v59) (V c main_v35) (V c main_arg8) (V c main_arg9) (V c main_v60)) := by
  show (cfg2.win 6).cut (grid2.coords t) ((dat2 (F := Ideal) V c).after 6 t) = _
  rw [after2_6]
  unfold out2_6
  rw [View.canon_unit_zero hz]
  simp only [View.ld_unit_zero (S := S4000x128) hz, View.ld_unit_zero (S := S4000x1) hz, View.ld_unit_zero (S := S128x128) hz, View.ld_unit_zero (S := S1x128) hz]
  obtain ⟨a0, a1, b0, b1, c0, c1, d0, d1, e0, e1, f0, f1, g0, g1⟩ := idx_facts2 t
  have ht : t.val < 5 := t.isLt
  funext j
  obtain ⟨p, q, rfl⟩ : ∃ (p : Fin 4000) (q : Fin 128), j = ix2 p q := ⟨j 0, j 1, eq_ix2 j⟩
  have hp : p.val < 4000 := p.isLt
  have hr : t.val * 4000 + p.val < 20000 := by omega
  refine (Cert.CombineRowK.pay2_apply (iblk2 V c 0 t) (iblk2 V c 2 t) (iblk2 V c 1 t) (iblk2 V c 3 t) (iblk2 V c 4 t) (iblk2 V c 5 t) p q).trans ?_
  show _ = combLinArr _ _ _ _ _ _ (((cfg2.win 6).blk t).view.emb (ix2 p q))
  have hemb : ((cfg2.win 6).blk t).view.emb (ix2 p q) = ix2 ⟨t.val * 4000 + p.val, hr⟩ q := by
    funext a; apply Fin.ext
    match a with
    | ⟨0, _⟩ => show win2_6.index t (0 : Fin 2) * 4000 + 1 * p.val = t.val * 4000 + p.val; omega
    | ⟨1, _⟩ => show win2_6.index t (1 : Fin 2) * 128 + 1 * q.val = q.val; omega
  rw [hemb]
  have h0 : ∀ k : Fin 128, iblk2 V c 0 t (ix2 p k) = V c main_v58 (ix2 ⟨t.val * 4000 + p.val, hr⟩ k) := fun k => by
    show V c main_v58 (((cfg2.win 0).blk t).view.emb (ix2 p k)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 128 + 1 * k.val = k.val; omega
  have h2 : ∀ k : Fin 128, iblk2 V c 2 t (ix2 p k) = V c main_v35 (ix2 ⟨t.val * 4000 + p.val, hr⟩ k) := fun k => by
    show V c main_v35 (((cfg2.win 2).blk t).view.emb (ix2 p k)) = _
    refine congrArg _ (funext fun a => Fin.ext ?_)
    match a with
    | ⟨0, _⟩ => show win2_2.index t (0 : Fin 2) * 4000 + 1 * p.val = t.val * 4000 + p.val; omega
    | ⟨1, _⟩ => show win2_2.index t (1 : Fin 2) * 128 + 1 * k.val = k.val; omega
  have h1 : iblk2 V c 1 t (ix2 p 0) = V c main_v59 (ix2 ⟨t.val * 4000 + p.val, hr⟩ 0) := by
    show V c main_v59 (((cfg2.win 1).blk t).view.emb (ix2 p 0)) = _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 1 + 1 * 0 = 0; omega
  have h3 : ∀ k : Fin 128, iblk2 V c 3 t (ix2 k q) = V c main_arg8 (ix2 k q) := fun k => by
    show V c main_arg8 (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have h4 : ∀ k : Fin 128, iblk2 V c 4 t (ix2 k q) = V c main_arg9 (ix2 k q) := fun k => by
    show V c main_arg9 (((cfg2.win 4).blk t).view.emb (ix2 k q)) = _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = q.val; omega
  have h5 : iblk2 V c 5 t (ix2 0 q) = V c main_v60 (ix2 0 q) := by
    show V c main_v60 (((cfg2.win 5).blk t).view.emb (ix2 0 q)) = _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  simp only [h0, h1, h2, h3, h4, h5]
  rfl

theorem mem_blk2 (t : Fin cfg2.N) (i : S20000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v61).slice (win2_6.rect t)).set ↔ _
  rw [View.set_slice_whole, Rect.mem_set_unit]
  exact Iff.rfl

/-- The five row blocks tile the array: row `r` lies in block `r / 4000`. -/
theorem cover2 (i : S20000x128.Idx) : ∃ t : Fin cfg2.N, (cfg2.win 6).flush t = true ∧ i ∈ ((cfg2.win 6).blk t).view.set := by
  have hi0 : (i 0).val < 20000 := (i 0).isLt
  have hi1 : (i 1).val < 128 := (i 1).isLt
  have hlt : (i 0).val / 4000 < 5 := by omega
  refine ⟨⟨(i 0).val / 4000, hlt⟩, flush2_6 _, ?_⟩
  rw [mem_blk2]
  obtain ⟨a0, a1, b0, b1, c0, c1, d0, d1, e0, e1, f0, f1, g0, g1⟩ := idx_facts2 ⟨(i 0).val / 4000, hlt⟩
  have g0' : win2_6.index ⟨(i 0).val / 4000, hlt⟩ (0 : Fin 2) = (i 0).val / 4000 := g0
  intro a
  match a with
  | ⟨0, _⟩ => show win2_6.index ⟨(i 0).val / 4000, hlt⟩ (0 : Fin 2) * 4000 ≤ (i 0).val ∧ (i 0).val < win2_6.index ⟨(i 0).val / 4000, hlt⟩ (0 : Fin 2) * 4000 + 4000; omega
  | ⟨1, _⟩ => show win2_6.index ⟨(i 0).val / 4000, hlt⟩ (1 : Fin 2) * 128 ≤ (i 1).val ∧ (i 1).val < win2_6.index ⟨(i 0).val / 4000, hlt⟩ (1 : Fin 2) * 128 + 128; omega

/-- The region's output array after its last write-back. -/
theorem final2 (c : Dev nD) : (dat2 (F := Ideal) V c).arrAt 6 cfg2.N
    = combLinArr (V c main_v58) (V c main_v59) (V c main_v35) (V c main_arg8) (V c main_arg9) (V c main_v60) :=
  (dat2 (F := Ideal) V c).arrAt_eq_of_cover 6 _ (fun t _ => flushed2_eq V c t) (cover2)

/-! ## Region 3: rows of the neighbour sum main_v71 scaled by the column main_v72, combined with main_v48 -/

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- What point `t` writes back is block `t` of the whole-array combine of the arrays the region finds. -/
theorem flushed3_eq (c : Dev nD) (t : Fin cfg3.N) :
    (dat3 (F := Ideal) V c).flushed 6 t = ((cfg3.win 6).blk t).view.read (Elt Ideal)
      (combLinArr (V c main_v71) (V c main_v72) (V c main_v48) (V c main_arg11) (V c main_arg12) (V c main_v73)) := by
  show (cfg3.win 6).cut (grid3.coords t) ((dat3 (F := Ideal) V c).after 6 t) = _
  rw [after3_6]
  unfold out3_6
  rw [View.canon_unit_zero hz]
  simp only [View.ld_unit_zero (S := S4000x128) hz, View.ld_unit_zero (S := S4000x1) hz, View.ld_unit_zero (S := S128x128) hz, View.ld_unit_zero (S := S1x128) hz]
  obtain ⟨a0, a1, b0, b1, c0, c1, d0, d1, e0, e1, f0, f1, g0, g1⟩ := idx_facts3 t
  have ht : t.val < 5 := t.isLt
  funext j
  obtain ⟨p, q, rfl⟩ : ∃ (p : Fin 4000) (q : Fin 128), j = ix2 p q := ⟨j 0, j 1, eq_ix2 j⟩
  have hp : p.val < 4000 := p.isLt
  have hr : t.val * 4000 + p.val < 20000 := by omega
  refine (Cert.CombineRowK.pay3_apply (iblk3 V c 0 t) (iblk3 V c 2 t) (iblk3 V c 1 t) (iblk3 V c 3 t) (iblk3 V c 4 t) (iblk3 V c 5 t) p q).trans ?_
  show _ = combLinArr _ _ _ _ _ _ (((cfg3.win 6).blk t).view.emb (ix2 p q))
  have hemb : ((cfg3.win 6).blk t).view.emb (ix2 p q) = ix2 ⟨t.val * 4000 + p.val, hr⟩ q := by
    funext a; apply Fin.ext
    match a with
    | ⟨0, _⟩ => show win3_6.index t (0 : Fin 2) * 4000 + 1 * p.val = t.val * 4000 + p.val; omega
    | ⟨1, _⟩ => show win3_6.index t (1 : Fin 2) * 128 + 1 * q.val = q.val; omega
  rw [hemb]
  have h0 : ∀ k : Fin 128, iblk3 V c 0 t (ix2 p k) = V c main_v71 (ix2 ⟨t.val * 4000 + p.val, hr⟩ k) := fun k => by
    show V c main_v71 (((cfg3.win 0).blk t).view.emb (ix2 p k)) = _
    refine congrArg _ (funext fun a => Fin.ext ?_)
    match a with
    | ⟨0, _⟩ => show win3_0.index t (0 : Fin 2) * 4000 + 1 * p.val = t.val * 4000 + p.val; omega
    | ⟨1, _⟩ => show win3_0.index t (1 : Fin 2) * 128 + 1 * k.val = k.val; omega
  have h2 : ∀ k : Fin 128, iblk3 V c 2 t (ix2 p k) = V c main_v48 (ix2 ⟨t.val * 4000 + p.val, hr⟩ k) := fun k => by
    show V c main_v48 (((cfg3.win 2).blk t).view.emb (ix2 p k)) = _
    refine congrArg _ (funext fun a => Fin.ext ?_)
    match a with
    | ⟨0, _⟩ => show win3_2.index t (0 : Fin 2) * 4000 + 1 * p.val = t.val * 4000 + p.val; omega
    | ⟨1, _⟩ => show win3_2.index t (1 : Fin 2) * 128 + 1 * k.val = k.val; omega
  have h1 : iblk3 V c 1 t (ix2 p 0) = V c main_v72 (ix2 ⟨t.val * 4000 + p.val, hr⟩ 0) := by
    show V c main_v72 (((cfg3.win 1).blk t).view.emb (ix2 p 0)) = _
    refine congrArg _ (funext fun a => Fin.ext ?_)
    match a with
    | ⟨0, _⟩ => show win3_1.index t (0 : Fin 2) * 4000 + 1 * p.val = t.val * 4000 + p.val; omega
    | ⟨1, _⟩ => show win3_1.index t (1 : Fin 2) * 1 + 1 * 0 = 0; omega
  have h3 : ∀ k : Fin 128, iblk3 V c 3 t (ix2 k q) = V c main_arg11 (ix2 k q) := fun k => by
    show V c main_arg11 (((cfg3.win 3).blk t).view.emb (ix2 k q)) = _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = q.val; omega
  have h4 : ∀ k : Fin 128, iblk3 V c 4 t (ix2 k q) = V c main_arg12 (ix2 k q) := fun k => by
    show V c main_arg12 (((cfg3.win 4).blk t).view.emb (ix2 k q)) = _
    refine congrArg _ (funext fun a => Fin.ext ?_)
    match a with
    | ⟨0, _⟩ => show win3_4.index t (0 : Fin 2) * 128 + 1 * k.val = k.val; omega
    | ⟨1, _⟩ => show win3_4.index t (1 : Fin 2) * 128 + 1 * q.val = q.val; omega
  have h5 : iblk3 V c 5 t (ix2 0 q) = V c main_v73 (ix2 0 q) := by
    show V c main_v73 (((cfg3.win 5).blk t).view.emb (ix2 0 q)) = _
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q.val = q.val; omega
  simp only [h0, h1, h2, h3, h4, h5]
  rfl

theorem mem_blk3 (t : Fin cfg3.N) (i : S20000x128.Idx) :
    i ∈ ((cfg3.win 6).blk t).view.set ↔ ∀ a : Fin 2, win3_6.index t a * S4000x128.size a ≤ (i a).val ∧ (i a).val < win3_6.index t a * S4000x128.size a + S4000x128.size a := by
  show i ∈ ((View.whole main_v74).slice (win3_6.rect t)).set ↔ _
  rw [View.set_slice_whole, Rect.mem_set_unit]
  exact Iff.rfl

/-- The five row blocks tile the array: row `r` lies in block `r / 4000`. -/
theorem cover3 (i : S20000x128.Idx) : ∃ t : Fin cfg3.N, (cfg3.win 6).flush t = true ∧ i ∈ ((cfg3.win 6).blk t).view.set := by
  have hi0 : (i 0).val < 20000 := (i 0).isLt
  have hi1 : (i 1).val < 128 := (i 1).isLt
  have hlt : (i 0).val / 4000 < 5 := by omega
  refine ⟨⟨(i 0).val / 4000, hlt⟩, flush3_6 _, ?_⟩
  rw [mem_blk3]
  obtain ⟨a0, a1, b0, b1, c0, c1, d0, d1, e0, e1, f0, f1, g0, g1⟩ := idx_facts3 ⟨(i 0).val / 4000, hlt⟩
  have g0' : win3_6.index ⟨(i 0).val / 4000, hlt⟩ (0 : Fin 2) = (i 0).val / 4000 := g0
  intro a
  match a with
  | ⟨0, _⟩ => show win3_6.index ⟨(i 0).val / 4000, hlt⟩ (0 : Fin 2) * 4000 ≤ (i 0).val ∧ (i 0).val < win3_6.index ⟨(i 0).val / 4000, hlt⟩ (0 : Fin 2) * 4000 + 4000; omega
  | ⟨1, _⟩ => show win3_6.index ⟨(i 0).val / 4000, hlt⟩ (1 : Fin 2) * 128 ≤ (i 1).val ∧ (i 1).val < win3_6.index ⟨(i 0).val / 4000, hlt⟩ (1 : Fin 2) * 128 + 128; omega

/-- The region's output array after its last write-back. -/
theorem final3 (c : Dev nD) : (dat3 (F := Ideal) V c).arrAt 6 cfg3.N
    = combLinArr (V c main_v71) (V c main_v72) (V c main_v48) (V c main_arg11) (V c main_arg12) (V c main_v73) :=
  (dat3 (F := Ideal) V c).arrAt_eq_of_cover 6 _ (fun t _ => flushed3_eq V c t) (cover3)

/-! ## The decoder region: rows of the two gathered embeddings through the split-weight MLP -/

/-- A whole [200000,1] array of decoder entries: entry (l, 0) from row `l` of the two gathered embeddings. -/
def decArr (zr zc : Vec Ideal S200000x128 .f32) (wa wb : Vec Ideal S128x128 .f32) (b1 w2 : Vec Ideal S1x128 .f32) (b2 : Vec Ideal S1x1 .f32) : Vec Ideal S200000x1 .f32 :=
  fun i => decK (fun k => zr (ix2 (i 0) k)) (fun k => zc (ix2 (i 0) k)) (fun k q => wa (ix2 k q)) (fun k q => wb (ix2 k q)) (fun q => b1 (ix2 0 q)) (fun q => w2 (ix2 0 q)) (b2 (ix2 0 0))

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- What point `t` writes back is block `t` of the whole-array decoder of the arrays the region finds. -/
theorem flushed4_eq (c : Dev nD) (t : Fin cfg4.N) :
    (dat4 (F := Ideal) V c).flushed 7 t = ((cfg4.win 7).blk t).view.read (Elt Ideal)
      (decArr (V c main_v85) (V c main_v92) (V c main_v93) (V c main_v94) (V c main_v96) (V c main_v95) (V c main_v97)) := by
  show (cfg4.win 7).cut (grid4.coords t) ((dat4 (F := Ideal) V c).after 7 t) = _
  rw [after4_7]
  unfold out4_7
  rw [View.canon_unit_zero hz]
  simp only [View.ld_unit_zero (S := S2000x128) hz, View.ld_unit_zero (S := S128x128) hz, View.ld_unit_zero (S := S1x128) hz, View.ld_unit_zero (S := S1x1) hz]
  obtain ⟨a0, a1, b0, b1, c0, c1, d0, d1, e0, e1, f0, f1, g0, g1, o0, o1⟩ := idx_facts4 t
  have ht : t.val < 100 := t.isLt
  funext j
  obtain ⟨p, z, rfl⟩ : ∃ (p : Fin 2000) (z : Fin 1), j = ix2 p z := ⟨j 0, j 1, eq_ix2 j⟩
  have hp : p.val < 2000 := p.isLt
  have hr : t.val * 2000 + p.val < 200000 := by omega
  refine (Cert.DecoderRow.pay4_apply (iblk4 V c 0 t) (iblk4 V c 1 t) (iblk4 V c 2 t) (iblk4 V c 3 t) (iblk4 V c 4 t) (iblk4 V c 5 t) (iblk4 V c 6 t) p z).trans ?_
  show _ = decArr _ _ _ _ _ _ _ (((cfg4.win 7).blk t).view.emb (ix2 p z))
  have hrow : (((cfg4.win 7).blk t).view.emb (ix2 p z)) 0 = ⟨t.val * 2000 + p.val, hr⟩ := by
    apply Fin.ext; show win4_7.index t (0 : Fin 2) * 2000 + 1 * p.val = t.val * 2000 + p.val; omega
  unfold decArr
  rw [hrow]
  have h0 : ∀ k : Fin 128, iblk4 V c 0 t (ix2 p k) = V c main_v85 (ix2 ⟨t.val * 2000 + p.val, hr⟩ k) := fun k => by
    show V c main_v85 (((cfg4.win 0).blk t).view.emb (ix2 p k)) = _
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  have h1 : ∀ k : Fin 128, iblk4 V c 1 t (ix2 p k) = V c main_v92 (ix2 ⟨t.val * 2000 + p.val, hr⟩ k) := fun k => by
    show V c main_v92 (((cfg4.win 1).blk t).view.emb (ix2 p k)) = _
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 128 + 1 * k.val = k.val; omega
  have h2 : ∀ (k : Fin 128) (q : Fin 128), iblk4 V c 2 t (ix2 k q) = V c main_v93 (ix2 k q) := fun k q => by
    show V c main_v93 (((cfg4.win 2).blk t).view.emb (ix2 k q)) = _
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * q.val = q.val; omega
  have h3 : ∀ (k : Fin 128) (q : Fin 128), iblk4 V c 3 t (ix2 k q) = V c main_v94 (ix2 k q) := fun k q => by
    show V c main_v94 (((cfg4.win 3).blk t).view.emb (ix2 k q)) = _
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * q.val = q.val; omega
  have h4 : ∀ q : Fin 128, iblk4 V c 4 t (ix2 0 q) = V c main_v96 (ix2 0 q) := fun q => by
    show V c main_v96 (((cfg4.win 4).blk t).view.emb (ix2 0 q)) = _
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * q.val = q.val; omega
  have h5 : ∀ q : Fin 128, iblk4 V c 5 t (ix2 0 q) = V c main_v95 (ix2 0 q) := fun q => by
    show V c main_v95 (((cfg4.win 5).blk t).view.emb (ix2 0 q)) = _
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * q.val = q.val; omega
  have h6 : iblk4 V c 6 t (ix2 0 0) = V c main_v97 (ix2 0 0) := by
    show V c main_v97 (((cfg4.win 6).blk t).view.emb (ix2 0 0)) = _
    refine congrArg _ (funext fun a => Fin.ext ?_)
    match a with
    | ⟨0, _⟩ => show win4_6.index t (0 : Fin 2) * 1 + 1 * 0 = 0; omega
    | ⟨1, _⟩ => show win4_6.index t (1 : Fin 2) * 1 + 1 * 0 = 0; omega
  simp only [h0, h1, h2, h3, h4, h5, h6]
  rfl

theorem mem_blk4 (t : Fin cfg4.N) (i : S200000x1.Idx) :
    i ∈ ((cfg4.win 7).blk t).view.set ↔ ∀ a : Fin 2, win4_7.index t a * S2000x1.size a ≤ (i a).val ∧ (i a).val < win4_7.index t a * S2000x1.size a + S2000x1.size a := by
  show i ∈ ((View.whole main_v98).slice (win4_7.rect t)).set ↔ _
  rw [View.set_slice_whole, Rect.mem_set_unit]
  exact Iff.rfl

/-- The hundred row blocks tile the column: row `l` lies in block `l / 2000`. -/
theorem cover4 (i : S200000x1.Idx) : ∃ t : Fin cfg4.N, (cfg4.win 7).flush t = true ∧ i ∈ ((cfg4.win 7).blk t).view.set := by
  have hi0 : (i 0).val < 200000 := (i 0).isLt
  have hi1 : (i 1).val < 1 := (i 1).isLt
  have hlt : (i 0).val / 2000 < 100 := by omega
  refine ⟨⟨(i 0).val / 2000, hlt⟩, flush4_7 _, ?_⟩
  rw [mem_blk4]
  obtain ⟨a0, a1, b0, b1, c0, c1, d0, d1, e0, e1, f0, f1, g0, g1, o0, o1⟩ := idx_facts4 ⟨(i 0).val / 2000, hlt⟩
  have o0' : win4_7.index ⟨(i 0).val / 2000, hlt⟩ (0 : Fin 2) = (i 0).val / 2000 := o0
  intro a
  match a with
  | ⟨0, _⟩ => show win4_7.index ⟨(i 0).val / 2000, hlt⟩ (0 : Fin 2) * 2000 ≤ (i 0).val ∧ (i 0).val < win4_7.index ⟨(i 0).val / 2000, hlt⟩ (0 : Fin 2) * 2000 + 2000; omega
  | ⟨1, _⟩ => show win4_7.index ⟨(i 0).val / 2000, hlt⟩ (1 : Fin 2) * 1 ≤ (i 1).val ∧ (i 1).val < win4_7.index ⟨(i 0).val / 2000, hlt⟩ (1 : Fin 2) * 1 + 1; omega

/-- The decoder's output column after its last write-back. -/
theorem final4 (c : Dev nD) : (dat4 (F := Ideal) V c).arrAt 7 cfg4.N
    = decArr (V c main_v85) (V c main_v92) (V c main_v93) (V c main_v94) (V c main_v96) (V c main_v95) (V c main_v97) :=
  (dat4 (F := Ideal) V c).arrAt_eq_of_cover 7 _ (fun t _ => flushed4_eq V c t) (cover4)

end Cert.KernelIdeal.Whole

end
-- ==== Proof.CombineRowR.lean ====
/-
  One entry of each of the reference's four combine layers, as the scalar formula `Cert.Spec.combK`.

  Each layer of the reference computes, on the whole [20000, 128] array,
    relu? ( ((agg / c) · Wl + b) + x · Wr ),     c = max cnt 1  broadcast along each row,
  where `agg` is the scattered neighbour sum, `cnt` the scattered in-degree (both kept opaque here), `x` the
  destination features, `Wl`, `Wr` the two [128, 128] weights and `b` the bias. Entry `(p, q)` is therefore
    ((∑ₖ (agg p k / c p) · Wl k q) + b q) + ∑ₖ x p k · Wr k q.
  Since `c p ≥ 1 > 0`, a quotient by `c p` is the product with `(c p)⁻¹`, and `1 / c p = (c p)⁻¹`; so with
  `s = 1 / c p` this is `combK`'s `(∑ₖ (agg p k · s) · Wl k q + ∑ₖ x p k · Wr k q) + b q` up to the order of the
  three summands, which the extended reals' commutative, associative addition does not see. The first two
  layers end with the maximum against a broadcast zero word, which is kept as that word.
-/
import proofs.«110691_j32409823216440_2_alg».proof.Proof.Spec
import proofs.«110691_j32409823216440_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.CombineRowR

open Idealize.ShloMosaic Idealize.ShloMosaic.ValueIdx Cert.ReferenceIdeal Cert.ReferenceIdeal.Read Cert.Spec

/-! ## The scalar law -/

/-- The float word of `1.0` denotes the extended real `1`. -/
theorem one32_eq_one : ONE32 = 1 := by
  show Ideal.ofBits .f32 0x3F800000#32 = 1
  simp [Ideal.ofBits, Ideal.ieee, -EReal.coe_mul]; norm_num

/-- A count clamped below by `1` is not zero. -/
theorem max_one32_ne_zero (cnt : EReal) : max cnt ONE32 ≠ 0 := by
  rw [one32_eq_one]
  exact (lt_of_lt_of_le zero_lt_one (le_max_right cnt 1)).ne'

/-- The reference's order of operations against `combK`: dividing each neighbour-sum entry by the clamped count `c`
    is multiplying it by `1 / c` (`c ≠ 0`, so both quotients are products with `c⁻¹`, and `1 · c⁻¹ = c⁻¹`), and
    `(A + b) + X = (A + X) + b` in the extended reals' commutative addition. -/
theorem comb_law (a x wl wr : Fin 128 → EReal) (cnt b : EReal) :
    ((∑ k : Fin 128, Ideal.div (a k) (max cnt ONE32) * wl k) + b) + ∑ k : Fin 128, x k * wr k
      = combK a x wl wr (Ideal.div ONE32 (max cnt ONE32)) b := by
  have hc : max cnt ONE32 ≠ 0 := max_one32_ne_zero cnt
  unfold combK Ideal.div
  simp only [if_neg hc]
  rw [one32_eq_one]
  simp only [one_mul]
  exact add_right_comm _ _ _

/-- The same law under the rectifier's maximum with the zero word. -/
theorem comb_law_relu (a x wl wr : Fin 128 → EReal) (cnt b : EReal) :
    max (((∑ k : Fin 128, Ideal.div (a k) (max cnt ONE32) * wl k) + b) + ∑ k : Fin 128, x k * wr k) Z32
      = max (combK a x wl wr (Ideal.div ONE32 (max cnt ONE32)) b) Z32 := by
  rw [comb_law]

/-! ## The generated index functions at coordinates -/

theorem lidxL_29 (p : Fin 20000) (q k : Fin 128) : lidx_main_v23 (ix2 p q) k = ix2 p k :=
  funext fun a => Fin.ext (by match a with | ⟨0, _⟩ => rfl | ⟨1, _⟩ => rfl)
theorem ridxL_29 (p : Fin 20000) (q k : Fin 128) : ridx_main_v23 (ix2 p q) k = ix2 k q :=
  funext fun a => Fin.ext (by match a with | ⟨0, _⟩ => rfl | ⟨1, _⟩ => rfl)
theorem lidxR_29 (p : Fin 20000) (q k : Fin 128) : lidx_main_v27 (ix2 p q) k = ix2 p k :=
  funext fun a => Fin.ext (by match a with | ⟨0, _⟩ => rfl | ⟨1, _⟩ => rfl)
theorem ridxR_29 (p : Fin 20000) (q k : Fin 128) : ridx_main_v27 (ix2 p q) k = ix2 k q :=
  funext fun a => Fin.ext (by match a with | ⟨0, _⟩ => rfl | ⟨1, _⟩ => rfl)
theorem idxCol_29 (p : Fin 20000) (k : Fin 128) : idx_main_v21 (ix2 p k) = ix2 p (0 : Fin 1) :=
  funext fun a => Fin.ext (by match a with | ⟨0, _⟩ => rfl | ⟨1, _⟩ => rfl)
theorem idxCnt_29 (p : Fin 20000) (c : Fin 1) : idx_main_v20 (ix2 p c) = ix1 p :=
  funext fun a => Fin.ext (by match a with | ⟨0, _⟩ => rfl)
theorem idxRow_29 (p : Fin 20000) (q : Fin 128) : idx_main_v25 (ix2 p q) = ix2 (0 : Fin 1) q :=
  funext fun a => Fin.ext (by match a with | ⟨0, _⟩ => rfl | ⟨1, _⟩ => rfl)
theorem idxBias_29 (c : Fin 1) (q : Fin 128) : idx_main_v24 (ix2 c q) = ix1 q :=
  funext fun a => Fin.ext (by match a with | ⟨0, _⟩ => rfl)

theorem lidxL_59 (p : Fin 20000) (q k : Fin 128) : lidx_main_v53 (ix2 p q) k = ix2 p k :=
  funext fun a => Fin.ext (by match a with | ⟨0, _⟩ => rfl | ⟨1, _⟩ => rfl)
theorem ridxL_59 (p : Fin 20000) (q k : Fin 128) : ridx_main_v53 (ix2 p q) k = ix2 k q :=
  funext fun a => Fin.ext (by match a with | ⟨0, _⟩ => rfl | ⟨1, _⟩ => rfl)
theorem lidxR_59 (p : Fin 20000) (q k : Fin 128) : lidx_main_v57 (ix2 p q) k = ix2 p k :=
  funext fun a => Fin.ext (by match a with | ⟨0, _⟩ => rfl | ⟨1, _⟩ => rfl)
theorem ridxR_59 (p : Fin 20000) (q k : Fin 128) : ridx_main_v57 (ix2 p q) k = ix2 k q :=
  funext fun a => Fin.ext (by match a with | ⟨0, _⟩ => rfl | ⟨1, _⟩ => rfl)
theorem idxCol_59 (p : Fin 20000) (k : Fin 128) : idx_main_v51 (ix2 p k) = ix2 p (0 : Fin 1) :=
  funext fun a => Fin.ext (by match a with | ⟨0, _⟩ => rfl | ⟨1, _⟩ => rfl)
theorem idxCnt_59 (p : Fin 20000) (c : Fin 1) : idx_main_v50 (ix2 p c) = ix1 p :=
  funext fun a => Fin.ext (by match a with | ⟨0, _⟩ => rfl)
theorem idxRow_59 (p : Fin 20000) (q : Fin 128) : idx_main_v55 (ix2 p q) = ix2 (0 : Fin 1) q :=
  funext fun a => Fin.ext (by match a with | ⟨0, _⟩ => rfl | ⟨1, _⟩ => rfl)
theorem idxBias_59 (c : Fin 1) (q : Fin 128) : idx_main_v54 (ix2 c q) = ix1 q :=
  funext fun a => Fin.ext (by match a with | ⟨0, _⟩ => rfl)

theorem lidxL_88 (p : Fin 20000) (q k : Fin 128) : lidx_main_v83 (ix2 p q) k = ix2 p k :=
  funext fun a => Fin.ext (by match a with | ⟨0, _⟩ => rfl | ⟨1, _⟩ => rfl)
theorem ridxL_88 (p : Fin 20000) (q k : Fin 128) : ridx_main_v83 (ix2 p q) k = ix2 k q :=
  funext fun a => Fin.ext (by match a with | ⟨0, _⟩ => rfl | ⟨1, _⟩ => rfl)
theorem lidxR_88 (p : Fin 20000) (q k : Fin 128) : lidx_main_v87 (ix2 p q) k = ix2 p k :=
  funext fun a => Fin.ext (by match a with | ⟨0, _⟩ => rfl | ⟨1, _⟩ => rfl)
theorem ridxR_88 (p : Fin 20000) (q k : Fin 128) : ridx_main_v87 (ix2 p q) k = ix2 k q :=
  funext fun a => Fin.ext (by match a with | ⟨0, _⟩ => rfl | ⟨1, _⟩ => rfl)
theorem idxCol_88 (p : Fin 20000) (k : Fin 128) : idx_main_v81 (ix2 p k) = ix2 p (0 : Fin 1) :=
  funext fun a => Fin.ext (by match a with | ⟨0, _⟩ => rfl | ⟨1, _⟩ => rfl)
theorem idxCnt_88 (p : Fin 20000) (c : Fin 1) : idx_main_v80 (ix2 p c) = ix1 p :=
  funext fun a => Fin.ext (by match a with | ⟨0, _⟩ => rfl)
theorem idxRow_88 (p : Fin 20000) (q : Fin 128) : idx_main_v85 (ix2 p q) = ix2 (0 : Fin 1) q :=
  funext fun a => Fin.ext (by match a with | ⟨0, _⟩ => rfl | ⟨1, _⟩ => rfl)
theorem idxBias_88 (c : Fin 1) (q : Fin 128) : idx_main_v84 (ix2 c q) = ix1 q :=
  funext fun a => Fin.ext (by match a with | ⟨0, _⟩ => rfl)

theorem lidxL_117 (p : Fin 20000) (q k : Fin 128) : lidx_main_v112 (ix2 p q) k = ix2 p k :=
  funext fun a => Fin.ext (by match a with | ⟨0, _⟩ => rfl | ⟨1, _⟩ => rfl)
theorem ridxL_117 (p : Fin 20000) (q k : Fin 128) : ridx_main_v112 (ix2 p q) k = ix2 k q :=
  funext fun a => Fin.ext (by match a with | ⟨0, _⟩ => rfl | ⟨1, _⟩ => rfl)
theorem lidxR_117 (p : Fin 20000) (q k : Fin 128) : lidx_main_v116 (ix2 p q) k = ix2 p k :=
  funext fun a => Fin.ext (by match a with | ⟨0, _⟩ => rfl | ⟨1, _⟩ => rfl)
theorem ridxR_117 (p : Fin 20000) (q k : Fin 128) : ridx_main_v116 (ix2 p q) k = ix2 k q :=
  funext fun a => Fin.ext (by match a with | ⟨0, _⟩ => rfl | ⟨1, _⟩ => rfl)
theorem idxCol_117 (p : Fin 20000) (k : Fin 128) : idx_main_v110 (ix2 p k) = ix2 p (0 : Fin 1) :=
  funext fun a => Fin.ext (by match a with | ⟨0, _⟩ => rfl | ⟨1, _⟩ => rfl)
theorem idxCnt_117 (p : Fin 20000) (c : Fin 1) : idx_main_v109 (ix2 p c) = ix1 p :=
  funext fun a => Fin.ext (by match a with | ⟨0, _⟩ => rfl)
theorem idxRow_117 (p : Fin 20000) (q : Fin 128) : idx_main_v114 (ix2 p q) = ix2 (0 : Fin 1) q :=
  funext fun a => Fin.ext (by match a with | ⟨0, _⟩ => rfl | ⟨1, _⟩ => rfl)
theorem idxBias_117 (c : Fin 1) (q : Fin 128) : idx_main_v113 (ix2 c q) = ix1 q :=
  funext fun a => Fin.ext (by match a with | ⟨0, _⟩ => rfl)

/-! ## The four layers -/

/-- Layer 1: one entry of the neighbour sum divided by the clamped in-degree of its row. -/
theorem div29 (x0 : (⟨S20000x128, .f32⟩ : BufTy).Contents (Elt Ideal)) (x18 : (⟨S2x640000, .i32⟩ : BufTy).Contents (Elt Ideal)) (p : Fin 20000) (q k : Fin 128) :
    val_main_v22 (F := Ideal) x0 x18 (lidx_main_v23 (ix2 p q) k)
      = Ideal.div (val_main_v13 (F := Ideal) x0 x18 (ix2 p k)) (max (val_main_v17 (F := Ideal) x18 (ix1 p)) ONE32) := by
  rw [lidxL_29, val_main_v22_apply, val_main_v21_apply, val_main_v20_apply, val_main_v19_apply, val_main_v18_apply, val_main_cst_3_apply,
    idxCol_29, idxCnt_29]
  generalize val_main_v13 (F := Ideal) x0 x18 = agg
  generalize val_main_v17 (F := Ideal) x18 = cnt
  rw [Ideal.hostDivf_def, Ideal.maximumf_def, Ideal.ofBits_def]

/-- Layer 1 of the reference, read at `(p, q)`, rectifier included. -/
theorem ref29_apply (x0 x1 : (⟨S20000x128, .f32⟩ : BufTy).Contents (Elt Ideal)) (x2 x3 : (⟨S128x128, .f32⟩ : BufTy).Contents (Elt Ideal)) (x4 : (⟨S128, .f32⟩ : BufTy).Contents (Elt Ideal)) (x18 : (⟨S2x640000, .i32⟩ : BufTy).Contents (Elt Ideal)) (p : Fin 20000) (q : Fin 128) :
    val_main_v29 (F := Ideal) x0 x1 x2 x3 x4 x18 (ix2 p q)
      = max (combK (fun k => val_main_v13 (F := Ideal) x0 x18 (ix2 p k)) (fun k => x1 (ix2 p k)) (fun k => x2 (ix2 k q))
          (fun k => x3 (ix2 k q)) (Ideal.div ONE32 (max (val_main_v17 (F := Ideal) x18 (ix1 p)) ONE32)) (x4 (ix1 q))) Z32 := by
  rw [val_main_v29_apply, val_main_v28_apply, val_main_v26_apply, val_main_v23_apply, val_main_v27_apply, val_main_v25_apply, val_main_v24_apply, val_main_call0_v0_apply, val_main_call0_cst_apply, idxRow_29, idxBias_29, Ideal.maximumf_def, Ideal.addf_def, Ideal.addf_def, Ideal.ofBits_def]
  simp only [div29, ridxL_29, lidxR_29, ridxR_29]
  generalize val_main_v13 (F := Ideal) x0 x18 = agg
  generalize val_main_v17 (F := Ideal) x18 = cnt
  exact comb_law_relu (fun k => agg (ix2 p k)) (fun k => x1 (ix2 p k)) (fun k => x2 (ix2 k q))
    (fun k => x3 (ix2 k q)) (cnt (ix1 p)) (x4 (ix1 q))

/-- Layer 2: one entry of the neighbour sum divided by the clamped in-degree of its row. -/
theorem div59 (x1 : (⟨S20000x128, .f32⟩ : BufTy).Contents (Elt Ideal)) (x19 : (⟨S2x640000, .i32⟩ : BufTy).Contents (Elt Ideal)) (p : Fin 20000) (q k : Fin 128) :
    val_main_v52 (F := Ideal) x1 x19 (lidx_main_v53 (ix2 p q) k)
      = Ideal.div (val_main_v43 (F := Ideal) x1 x19 (ix2 p k)) (max (val_main_v47 (F := Ideal) x19 (ix1 p)) ONE32) := by
  rw [lidxL_59, val_main_v52_apply, val_main_v51_apply, val_main_v50_apply, val_main_v49_apply, val_main_v48_apply, val_main_cst_9_apply,
    idxCol_59, idxCnt_59]
  generalize val_main_v43 (F := Ideal) x1 x19 = agg
  generalize val_main_v47 (F := Ideal) x19 = cnt
  rw [Ideal.hostDivf_def, Ideal.maximumf_def, Ideal.ofBits_def]

/-- Layer 2 of the reference, read at `(p, q)`, rectifier included. -/
theorem ref59_apply (x0 x1 : (⟨S20000x128, .f32⟩ : BufTy).Contents (Elt Ideal)) (x5 x6 : (⟨S128x128, .f32⟩ : BufTy).Contents (Elt Ideal)) (x7 : (⟨S128, .f32⟩ : BufTy).Contents (Elt Ideal)) (x19 : (⟨S2x640000, .i32⟩ : BufTy).Contents (Elt Ideal)) (p : Fin 20000) (q : Fin 128) :
    val_main_v59 (F := Ideal) x0 x1 x5 x6 x7 x19 (ix2 p q)
      = max (combK (fun k => val_main_v43 (F := Ideal) x1 x19 (ix2 p k)) (fun k => x0 (ix2 p k)) (fun k => x5 (ix2 k q))
          (fun k => x6 (ix2 k q)) (Ideal.div ONE32 (max (val_main_v47 (F := Ideal) x19 (ix1 p)) ONE32)) (x7 (ix1 q))) Z32 := by
  rw [val_main_v59_apply, val_main_v58_apply, val_main_v56_apply, val_main_v53_apply, val_main_v57_apply, val_main_v55_apply, val_main_v54_apply, val_main_call1_v0_apply, val_main_call1_cst_apply, idxRow_59, idxBias_59, Ideal.maximumf_def, Ideal.addf_def, Ideal.addf_def, Ideal.ofBits_def]
  simp only [div59, ridxL_59, lidxR_59, ridxR_59]
  generalize val_main_v43 (F := Ideal) x1 x19 = agg
  generalize val_main_v47 (F := Ideal) x19 = cnt
  exact comb_law_relu (fun k => agg (ix2 p k)) (fun k => x0 (ix2 p k)) (fun k => x5 (ix2 k q))
    (fun k => x6 (ix2 k q)) (cnt (ix1 p)) (x7 (ix1 q))

/-- Layer 3: one entry of the neighbour sum divided by the clamped in-degree of its row. -/
theorem div88 (x0 x1 : (⟨S20000x128, .f32⟩ : BufTy).Contents (Elt Ideal)) (x5 x6 : (⟨S128x128, .f32⟩ : BufTy).Contents (Elt Ideal)) (x7 : (⟨S128, .f32⟩ : BufTy).Contents (Elt Ideal)) (x18 x19 : (⟨S2x640000, .i32⟩ : BufTy).Contents (Elt Ideal)) (p : Fin 20000) (q k : Fin 128) :
    val_main_v82 (F := Ideal) x0 x1 x5 x6 x7 x18 x19 (lidx_main_v83 (ix2 p q) k)
      = Ideal.div (val_main_v73 (F := Ideal) x0 x1 x5 x6 x7 x18 x19 (ix2 p k)) (max (val_main_v77 (F := Ideal) x18 (ix1 p)) ONE32) := by
  rw [lidxL_88, val_main_v82_apply, val_main_v81_apply, val_main_v80_apply, val_main_v79_apply, val_main_v78_apply, val_main_cst_15_apply,
    idxCol_88, idxCnt_88]
  generalize val_main_v73 (F := Ideal) x0 x1 x5 x6 x7 x18 x19 = agg
  generalize val_main_v77 (F := Ideal) x18 = cnt
  rw [Ideal.hostDivf_def, Ideal.maximumf_def, Ideal.ofBits_def]

/-- Layer 3 of the reference, read at `(p, q)` (no rectifier). -/
theorem ref88_apply (x0 x1 : (⟨S20000x128, .f32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x18 x19 : (⟨S2x640000, .i32⟩ : BufTy).Contents (Elt Ideal)) (p : Fin 20000) (q : Fin 128) :
    val_main_v88 (F := Ideal) x0 x1 x2 x3 x4 x5 x6 x7 x8 x9 x10 x18 x19 (ix2 p q)
      = combK (fun k => val_main_v73 (F := Ideal) x0 x1 x5 x6 x7 x18 x19 (ix2 p k)) (fun k => val_main_v29 (F := Ideal) x0 x1 x2 x3 x4 x18 (ix2 p k)) (fun k => x8 (ix2 k q))
          (fun k => x9 (ix2 k q)) (Ideal.div ONE32 (max (val_main_v77 (F := Ideal) x18 (ix1 p)) ONE32)) (x10 (ix1 q)) := by
  rw [val_main_v88_apply, val_main_v86_apply, val_main_v83_apply, val_main_v87_apply, val_main_v85_apply, val_main_v84_apply, idxRow_88, idxBias_88, Ideal.addf_def, Ideal.addf_def]
  simp only [div88, ridxL_88, lidxR_88, ridxR_88]
  generalize val_main_v73 (F := Ideal) x0 x1 x5 x6 x7 x18 x19 = agg
  generalize val_main_v77 (F := Ideal) x18 = cnt
  generalize val_main_v29 (F := Ideal) x0 x1 x2 x3 x4 x18 = dst
  exact comb_law (fun k => agg (ix2 p k)) (fun k => dst (ix2 p k)) (fun k => x8 (ix2 k q))
    (fun k => x9 (ix2 k q)) (cnt (ix1 p)) (x10 (ix1 q))

/-- Layer 4: one entry of the neighbour sum divided by the clamped in-degree of its row. -/
theorem div117 (x0 x1 : (⟨S20000x128, .f32⟩ : BufTy).Contents (Elt Ideal)) (x2 x3 : (⟨S128x128, .f32⟩ : BufTy).Contents (Elt Ideal)) (x4 : (⟨S128, .f32⟩ : BufTy).Contents (Elt Ideal)) (x18 x19 : (⟨S2x640000, .i32⟩ : BufTy).Contents (Elt Ideal)) (p : Fin 20000) (q k : Fin 128) :
    val_main_v111 (F := Ideal) x0 x1 x2 x3 x4 x18 x19 (lidx_main_v112 (ix2 p q) k)
      = Ideal.div (val_main_v102 (F := Ideal) x0 x1 x2 x3 x4 x18 x19 (ix2 p k)) (max (val_main_v106 (F := Ideal) x19 (ix1 p)) ONE32) := by
  rw [lidxL_117, val_main_v111_apply, val_main_v110_apply, val_main_v109_apply, val_main_v108_apply, val_main_v107_apply, val_main_cst_21_apply,
    idxCol_117, idxCnt_117]
  generalize val_main_v102 (F := Ideal) x0 x1 x2 x3 x4 x18 x19 = agg
  generalize val_main_v106 (F := Ideal) x19 = cnt
  rw [Ideal.hostDivf_def, Ideal.maximumf_def, Ideal.ofBits_def]

/-- Layer 4 of the reference, read at `(p, q)` (no rectifier). -/
theorem ref117_apply (x0 x1 : (⟨S20000x128, .f32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x11 x12 : (⟨S128x128, .f32⟩ : BufTy).Contents (Elt Ideal)) (x13 : (⟨S128, .f32⟩ : BufTy).Contents (Elt Ideal)) (x18 x19 : (⟨S2x640000, .i32⟩ : BufTy).Contents (Elt Ideal)) (p : Fin 20000) (q : Fin 128) :
    val_main_v117 (F := Ideal) x0 x1 x2 x3 x4 x5 x6 x7 x11 x12 x13 x18 x19 (ix2 p q)
      = combK (fun k => val_main_v102 (F := Ideal) x0 x1 x2 x3 x4 x18 x19 (ix2 p k)) (fun k => val_main_v59 (F := Ideal) x0 x1 x5 x6 x7 x19 (ix2 p k)) (fun k => x11 (ix2 k q))
          (fun k => x12 (ix2 k q)) (Ideal.div ONE32 (max (val_main_v106 (F := Ideal) x19 (ix1 p)) ONE32)) (x13 (ix1 q)) := by
  rw [val_main_v117_apply, val_main_v115_apply, val_main_v112_apply, val_main_v116_apply, val_main_v114_apply, val_main_v113_apply, idxRow_117, idxBias_117, Ideal.addf_def, Ideal.addf_def]
  simp only [div117, ridxL_117, lidxR_117, ridxR_117]
  generalize val_main_v102 (F := Ideal) x0 x1 x2 x3 x4 x18 x19 = agg
  generalize val_main_v106 (F := Ideal) x19 = cnt
  generalize val_main_v59 (F := Ideal) x0 x1 x5 x6 x7 x19 = dst
  exact comb_law (fun k => agg (ix2 p k)) (fun k => dst (ix2 p k)) (fun k => x11 (ix2 k q))
    (fun k => x12 (ix2 k q)) (cnt (ix1 p)) (x13 (ix1 q))

end Cert.CombineRowR

end
-- ==== Proof.DecoderRowR.lean ====
/-
  The edge decoder of the reference read at one entry.

  The reference joins the two gathered feature rows of an edge into one row of length 256, multiplies it by the
  stacked hidden weight [256,128], adds the hidden bias, clamps below at 0.0, multiplies by the output weight
  [128,1] and adds the output bias. Splitting the sum over the joined row at the join (the first 128 terms read
  the first gathered row against the upper half of the weight, the last 128 the second against the lower half)
  gives Cert.Spec.decK of the two gathered rows. The two gathers stay opaque functions throughout.
-/
import proofs.«110691_j32409823216440_2_alg».proof.Proof.Spec
import proofs.«110691_j32409823216440_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.DecoderRow

open Idealize.ShloMosaic Idealize.ShloMosaic.ValueIdx Cert.Spec
open Cert.ReferenceIdeal Cert.ReferenceIdeal.Gen Cert.ReferenceIdeal.Read

/-- A sum over 256 terms is the sum of its first 128 and its last 128 terms. -/
theorem sum256_split (f : Fin 256 → EReal) :
    ∑ k : Fin 256, f k
      = (∑ k : Fin 128, f ⟨k.val, by omega⟩) + ∑ k : Fin 128, f ⟨128 + k.val, by omega⟩ :=
  Fin.sum_univ_add (a := 128) (b := 128) f

/-- The joined array at a column below the join reads the first piece at that column. -/
theorem concatR_left {α : Type} (g1 g2 : S200000x128.Idx → α)
    (h : Shape.Concatenates [S200000x128, S200000x128] S200000x256 1) (l : Fin 200000) (k : Fin 128) :
    concatenate S200000x256 1 [⟨S200000x128, g1⟩, ⟨S200000x128, g2⟩] h (ix2 l (⟨k.val, by omega⟩ : Fin 256))
      = g1 (ix2 l k) :=
  concatenate_pair_apply_left 1 g1 g2 h _ rfl (ix2 l k) (fun b => by
    match b with
    | ⟨0, _⟩ => rfl
    | ⟨1, _⟩ => rfl)

/-- The joined array at a column from the join on reads the second piece at that column less 128. -/
theorem concatR_right {α : Type} (g1 g2 : S200000x128.Idx → α)
    (h : Shape.Concatenates [S200000x128, S200000x128] S200000x256 1) (l : Fin 200000) (k : Fin 128) :
    concatenate S200000x256 1 [⟨S200000x128, g1⟩, ⟨S200000x128, g2⟩] h (ix2 l (⟨128 + k.val, by omega⟩ : Fin 256))
      = g2 (ix2 l k) :=
  concatenate_pair_apply_right 1 g1 g2 h _ rfl rfl (ix2 l k)
    (fun b hb => by
      match b with
      | ⟨0, _⟩ => rfl
      | ⟨1, _⟩ => exact absurd rfl hb)
    (by show k.val + 128 = 128 + k.val; omega)

/-! The operand indices of the two products, the two bias broadcasts: each is the index with the expected coordinates. -/

theorem lidx137_eq (l : Fin 200000) (q : Fin 128) (k : Fin 256) : lidx_main_v137 (ix2 l q) k = ix2 l k :=
  funext fun a => by match a with | ⟨0, _⟩ => rfl | ⟨1, _⟩ => rfl
theorem ridx137_eq (l : Fin 200000) (q : Fin 128) (k : Fin 256) : ridx_main_v137 (ix2 l q) k = ix2 k q :=
  funext fun a => by match a with | ⟨0, _⟩ => rfl | ⟨1, _⟩ => rfl
theorem lidx142_eq (l : Fin 200000) (z : Fin 1) (k : Fin 128) : lidx_main_v142 (ix2 l z) k = ix2 l k :=
  funext fun a => by match a with | ⟨0, _⟩ => rfl | ⟨1, _⟩ => rfl
theorem ridx142_eq (l : Fin 200000) (z : Fin 1) (k : Fin 128) : ridx_main_v142 (ix2 l z) k = ix2 k z :=
  funext fun a => by match a with | ⟨0, _⟩ => rfl | ⟨1, _⟩ => rfl
theorem idx139_eq (l : Fin 200000) (q : Fin 128) : idx_main_v138 (idx_main_v139 (ix2 l q)) = ix1 q :=
  funext fun a => by match a with | ⟨0, _⟩ => rfl
theorem idx144_eq (l : Fin 200000) (z : Fin 1) : idx_main_v143 (idx_main_v144 (ix2 l z)) = ix1 0 :=
  funext fun a => by match a with | ⟨0, _⟩ => rfl

/-- THE HIDDEN PRODUCT AT ENTRY (l, q): the first gathered row against the upper half of the stacked weight plus
    the second gathered row against its lower half. -/
theorem ref137_apply (x0 x1 : (⟨S20000x128, .f32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S256x128, .f32⟩ : BufTy).Contents (Elt Ideal)) (x18 x19 : (⟨S2x640000, .i32⟩ : BufTy).Contents (Elt Ideal)) (x20 : (⟨S2x200000, .i32⟩ : BufTy).Contents (Elt Ideal)) (l : Fin 200000) (q : Fin 128) :
    val_main_v137 (F := Ideal) x0 x1 x2 x3 x4 x5 x6 x7 x8 x9 x10 x11 x12 x13 x14 x18 x19 x20 (ix2 l q)
      = (∑ k : Fin 128, val_main_v128 (F := Ideal) x0 x1 x2 x3 x4 x5 x6 x7 x11 x12 x13 x18 x19 x20 (ix2 l k) * x14 (ix2 (⟨k.val, by omega⟩ : Fin 256) q))
        + ∑ k : Fin 128, val_main_v135 (F := Ideal) x0 x1 x2 x3 x4 x5 x6 x7 x8 x9 x10 x18 x19 x20 (ix2 l k) * x14 (ix2 (⟨128 + k.val, by omega⟩ : Fin 256) q) := by
  rw [val_main_v137_apply]
  unfold val_main_v136
  generalize val_main_v128 (F := Ideal) x0 x1 x2 x3 x4 x5 x6 x7 x11 x12 x13 x18 x19 x20 = g1
  generalize val_main_v135 (F := Ideal) x0 x1 x2 x3 x4 x5 x6 x7 x8 x9 x10 x18 x19 x20 = g2
  rw [sum256_split]
  refine congrArg₂ (· + ·) (Finset.sum_congr rfl fun k _ => ?_) (Finset.sum_congr rfl fun k _ => ?_)
  · rw [lidx137_eq, ridx137_eq, concatR_left]
  · rw [lidx137_eq, ridx137_eq, concatR_right]

/-- THE REFERENCE'S DECODER OUTPUT AT ENTRY (l, 0): decK of the two gathered rows of edge l, the two halves of the
    stacked hidden weight, the hidden bias, the output weight column and the output bias. -/
theorem ref145_apply (x0 x1 : (⟨S20000x128, .f32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal)) (x16 : (⟨S128x1, .f32⟩ : BufTy).Contents (Elt Ideal)) (x17 : (⟨S1, .f32⟩ : BufTy).Contents (Elt Ideal)) (x18 x19 : (⟨S2x640000, .i32⟩ : BufTy).Contents (Elt Ideal)) (x20 : (⟨S2x200000, .i32⟩ : BufTy).Contents (Elt Ideal)) (l : Fin 200000) (z : Fin 1) :
    val_main_v145 (F := Ideal) x0 x1 x2 x3 x4 x5 x6 x7 x8 x9 x10 x11 x12 x13 x14 x15 x16 x17 x18 x19 x20 (ix2 l z)
      = decK (fun k => val_main_v128 (F := Ideal) x0 x1 x2 x3 x4 x5 x6 x7 x11 x12 x13 x18 x19 x20 (ix2 l k))
          (fun k => val_main_v135 (F := Ideal) x0 x1 x2 x3 x4 x5 x6 x7 x8 x9 x10 x18 x19 x20 (ix2 l k))
          (fun k q => x14 (ix2 (⟨k.val, by omega⟩ : Fin 256) q)) (fun k q => x14 (ix2 (⟨128 + k.val, by omega⟩ : Fin 256) q))
          (fun q => x15 (ix1 q)) (fun q => x16 (ix2 q 0)) (x17 (ix1 0)) := by
  obtain rfl : z = 0 := Subsingleton.elim _ _
  have hz : ∀ x : EReal, Z32 + x = x := fun x => by
    rw [show Z32 = 0 from Ideal.ofBits_zero_f32, zero_add]
  unfold decK
  beta_reduce
  rw [hz, val_main_v145_apply, val_main_v142_apply, val_main_v144_apply, val_main_v143_apply, idx144_eq, Ideal.addf_def]
  refine congrArg (· + (x17 (ix1 0) : EReal)) (Finset.sum_congr rfl fun q _ => ?_)
  rw [lidx142_eq, ridx142_eq, val_main_v141_apply, val_main_v140_apply, val_main_call2_v0_apply,
    val_main_call2_cst_apply, val_main_v139_apply, val_main_v138_apply, idx139_eq, ref137_apply,
    Ideal.maximumf_def, Ideal.addf_def, Ideal.ofBits_def]

end Cert.DecoderRow

end
-- ==== Proof.Bridge.lean ====
/-
  The kernel's whole-array combine and decoder functions meet the reference's stages.

  The host computes, per edge type, the in-degree `cnt` of every destination node once, and hands each combine region
  the column `1 / max(cnt, 1)` (as a [20000,1] array) and the bias as a [1,128] row. The reference divides the
  neighbour sum by `max(cnt, 1)` broadcast along the row and adds the bias broadcast down the rows. Entry by entry
  both are the same `combK`; the neighbour sums and in-degrees themselves are the same scatter-adds on both sides.
-/
import proofs.«110691_j32409823216440_2_alg».proof.Proof.Regions
import proofs.«110691_j32409823216440_2_alg».proof.Proof.CombineRowR
import proofs.«110691_j32409823216440_2_alg».proof.Proof.DecoderRowR
import Idealize.ShloMosaic.Lib.ValueLayout

noncomputable section

namespace Cert.KernelIdeal.Whole

open Cert.KernelIdeal Cert.KernelIdeal.Facts₀ Cert.KernelIdeal.Facts Cert.Spec
open Idealize.ShloMosaic Idealize.ShloMosaic.ValueIdx

/-- The column of reciprocal in-degrees as the host hands it to a combine region: `1 / max(cnt, 1)`, as [20000,1]. -/
def invCol (cnt : Vec Ideal S20000 .f32) : Vec Ideal S20000x1 .f32 :=
  shapeCast S20000x1 (Host.divf (broadcastInDim S20000 ![] bcast_S_S20000 (constant (F := Ideal) S_ .f32 0x3F800000#32))
    (maximumf cnt (broadcastInDim S20000 ![] bcast_S_S20000 (constant (F := Ideal) S_ .f32 0x3F800000#32)))) shapeCasts_S20000_S20000x1

/-- A bias vector as the [1,128] row a region reads. -/
def biasRow (b : Vec Ideal S128 .f32) : Vec Ideal S1x128 .f32 := shapeCast S1x128 b shapeCasts_S128_S1x128

theorem invCol_apply (cnt : Vec Ideal S20000 .f32) (p : Fin 20000) :
    invCol cnt (ix2 p 0) = Ideal.div ONE32 (max (cnt (ix1 p)) ONE32) := by
  unfold invCol
  rw [shapeCast_apply _ shapeCasts_S20000_S20000x1 (ix2 p (0 : Fin 1)) (ix1 p) (by simp [Shape.rowMajor_val_two, Shape.rowMajor_val_one])]
  rfl

theorem biasRow_apply (b : Vec Ideal S128 .f32) (q : Fin 128) : biasRow b (ix2 0 q) = b (ix1 q) := by
  unfold biasRow
  rw [shapeCast_apply _ shapeCasts_S128_S1x128 (ix2 (0 : Fin 1) q) (ix1 q) (by simp [Shape.rowMajor_val_two, Shape.rowMajor_val_one])]

/-- The in-degree reciprocals before they are made a column. -/
def invVec (cnt : Vec Ideal S20000 .f32) : Vec Ideal S20000 .f32 :=
  Host.divf (broadcastInDim S20000 ![] bcast_S_S20000 (constant (F := Ideal) S_ .f32 0x3F800000#32))
    (maximumf cnt (broadcastInDim S20000 ![] bcast_S_S20000 (constant (F := Ideal) S_ .f32 0x3F800000#32)))

/-- The first 128 rows of the decoder's stacked weight. -/
def sliceTop (w : Vec Ideal S256x128 .f32) : Vec Ideal S128x128 .f32 := extractStridedSlice S128x128 ![0, 0] w slices_S256x128_S128x128_0_0
/-- The last 128 rows of the decoder's stacked weight. -/
def sliceBot (w : Vec Ideal S256x128 .f32) : Vec Ideal S128x128 .f32 := extractStridedSlice S128x128 ![128, 0] w slices_S256x128_S128x128_128_0
/-- The [128,1] output weight as a [1,128] row. -/
def rowOfCol (w : Vec Ideal S128x1 .f32) : Vec Ideal S1x128 .f32 := transpose S1x128 [1, 0] w transposes_S128x1_S1x128_1_0
/-- The output bias as a [1,1] array. -/
def oneByOne (b : Vec Ideal S1 .f32) : Vec Ideal S1x1 .f32 := shapeCast S1x1 b shapeCasts_S1_S1x1

theorem sliceTop_apply (w : Vec Ideal S256x128 .f32) (k q : Fin 128) : sliceTop w (ix2 k q) = w (ix2 ⟨k.val, by omega⟩ q) := by
  unfold sliceTop
  exact extractStridedSlice_apply ![0, 0] w slices_S256x128_S128x128_0_0 (ix2 k q) (ix2 ⟨k.val, by omega⟩ q) (fun a => match a with
    | ⟨0, _⟩ => by show k.val = 0 + k.val; omega
    | ⟨1, _⟩ => by show q.val = 0 + q.val; omega)

theorem sliceBot_apply (w : Vec Ideal S256x128 .f32) (k q : Fin 128) : sliceBot w (ix2 k q) = w (ix2 ⟨128 + k.val, by omega⟩ q) := by
  unfold sliceBot
  exact extractStridedSlice_apply ![128, 0] w slices_S256x128_S128x128_128_0 (ix2 k q) (ix2 ⟨128 + k.val, by omega⟩ q) (fun a => match a with
    | ⟨0, _⟩ => by show 128 + k.val = 128 + k.val; omega
    | ⟨1, _⟩ => by show q.val = 0 + q.val; omega)

theorem rowOfCol_apply (w : Vec Ideal S128x1 .f32) (q : Fin 128) : rowOfCol w (ix2 0 q) = w (ix2 q 0) := by
  unfold rowOfCol
  exact transpose_ix2_apply w transposes_S128x1_S1x128_1_0 (0 : Fin 1) q

theorem oneByOne_apply (b : Vec Ideal S1 .f32) : oneByOne b (ix2 0 0) = b (ix1 0) := by
  unfold oneByOne
  exact shapeCast_a_1a_apply b shapeCasts_S1_S1x1 (0 : Fin 1) (0 : Fin 1)

/-! ## The four combine layers and the decoder, whole arrays -/

theorem bridge29 (x0 : (⟨Cert.ReferenceIdeal.S20000x128, .f32⟩ : BufTy).Contents (Elt Ideal)) (x1 : (⟨Cert.ReferenceIdeal.S20000x128, .f32⟩ : BufTy).Contents (Elt Ideal)) (x2 : (⟨Cert.ReferenceIdeal.S128x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x18 : (⟨Cert.ReferenceIdeal.S2x640000, .i32⟩ : BufTy).Contents (Elt Ideal)) :
    combReluArr (Cert.ReferenceIdeal.Read.val_main_v13 (F := Ideal) x0 x18) (invCol (Cert.ReferenceIdeal.Read.val_main_v17 (F := Ideal) x18)) x1 x2 x3 (biasRow x4) = (Cert.ReferenceIdeal.Read.val_main_v29 (F := Ideal) x0 x1 x2 x3 x4 x18) := by
  funext i
  obtain ⟨p, q, rfl⟩ : ∃ (p : Fin 20000) (q : Fin 128), i = ix2 p q := ⟨i 0, i 1, eq_ix2 i⟩
  rw [Cert.CombineRowR.ref29_apply]
  show max (combK _ _ _ _ (invCol _ (ix2 p 0)) (biasRow x4 (ix2 0 q))) Z32 = _
  rw [invCol_apply, biasRow_apply]

theorem bridge59 (x0 : (⟨Cert.ReferenceIdeal.S20000x128, .f32⟩ : BufTy).Contents (Elt Ideal)) (x1 : (⟨Cert.ReferenceIdeal.S20000x128, .f32⟩ : BufTy).Contents (Elt Ideal)) (x5 : (⟨Cert.ReferenceIdeal.S128x128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x19 : (⟨Cert.ReferenceIdeal.S2x640000, .i32⟩ : BufTy).Contents (Elt Ideal)) :
    combReluArr (Cert.ReferenceIdeal.Read.val_main_v43 (F := Ideal) x1 x19) (invCol (Cert.ReferenceIdeal.Read.val_main_v47 (F := Ideal) x19)) x0 x5 x6 (biasRow x7) = (Cert.ReferenceIdeal.Read.val_main_v59 (F := Ideal) x0 x1 x5 x6 x7 x19) := by
  funext i
  obtain ⟨p, q, rfl⟩ : ∃ (p : Fin 20000) (q : Fin 128), i = ix2 p q := ⟨i 0, i 1, eq_ix2 i⟩
  rw [Cert.CombineRowR.ref59_apply]
  show max (combK _ _ _ _ (invCol _ (ix2 p 0)) (biasRow x7 (ix2 0 q))) Z32 = _
  rw [invCol_apply, biasRow_apply]

theorem bridge88 (x0 : (⟨Cert.ReferenceIdeal.S20000x128, .f32⟩ : BufTy).Contents (Elt Ideal)) (x1 : (⟨Cert.ReferenceIdeal.S20000x128, .f32⟩ : BufTy).Contents (Elt Ideal)) (x2 : (⟨Cert.ReferenceIdeal.S128x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x18 : (⟨Cert.ReferenceIdeal.S2x640000, .i32⟩ : BufTy).Contents (Elt Ideal)) (x19 : (⟨Cert.ReferenceIdeal.S2x640000, .i32⟩ : BufTy).Contents (Elt Ideal)) :
    combLinArr (Cert.ReferenceIdeal.Read.val_main_v73 (F := Ideal) x0 x1 x5 x6 x7 x18 x19) (invCol (Cert.ReferenceIdeal.Read.val_main_v77 (F := Ideal) x18)) (Cert.ReferenceIdeal.Read.val_main_v29 (F := Ideal) x0 x1 x2 x3 x4 x18) x8 x9 (biasRow x10) = (Cert.ReferenceIdeal.Read.val_main_v88 (F := Ideal) x0 x1 x2 x3 x4 x5 x6 x7 x8 x9 x10 x18 x19) := by
  funext i
  obtain ⟨p, q, rfl⟩ : ∃ (p : Fin 20000) (q : Fin 128), i = ix2 p q := ⟨i 0, i 1, eq_ix2 i⟩
  rw [Cert.CombineRowR.ref88_apply]
  show (combK _ _ _ _ (invCol _ (ix2 p 0)) (biasRow x10 (ix2 0 q))) = _
  rw [invCol_apply, biasRow_apply]

theorem bridge117 (x0 : (⟨Cert.ReferenceIdeal.S20000x128, .f32⟩ : BufTy).Contents (Elt Ideal)) (x1 : (⟨Cert.ReferenceIdeal.S20000x128, .f32⟩ : BufTy).Contents (Elt Ideal)) (x2 : (⟨Cert.ReferenceIdeal.S128x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x18 : (⟨Cert.ReferenceIdeal.S2x640000, .i32⟩ : BufTy).Contents (Elt Ideal)) (x19 : (⟨Cert.ReferenceIdeal.S2x640000, .i32⟩ : BufTy).Contents (Elt Ideal)) :
    combLinArr (Cert.ReferenceIdeal.Read.val_main_v102 (F := Ideal) x0 x1 x2 x3 x4 x18 x19) (invCol (Cert.ReferenceIdeal.Read.val_main_v106 (F := Ideal) x19)) (Cert.ReferenceIdeal.Read.val_main_v59 (F := Ideal) x0 x1 x5 x6 x7 x19) x11 x12 (biasRow x13) = (Cert.ReferenceIdeal.Read.val_main_v117 (F := Ideal) x0 x1 x2 x3 x4 x5 x6 x7 x11 x12 x13 x18 x19) := by
  funext i
  obtain ⟨p, q, rfl⟩ : ∃ (p : Fin 20000) (q : Fin 128), i = ix2 p q := ⟨i 0, i 1, eq_ix2 i⟩
  rw [Cert.CombineRowR.ref117_apply]
  show (combK _ _ _ _ (invCol _ (ix2 p 0)) (biasRow x13 (ix2 0 q))) = _
  rw [invCol_apply, biasRow_apply]

theorem bridge145 (x0 : (⟨Cert.ReferenceIdeal.S20000x128, .f32⟩ : BufTy).Contents (Elt Ideal)) (x1 : (⟨Cert.ReferenceIdeal.S20000x128, .f32⟩ : BufTy).Contents (Elt Ideal)) (x2 : (⟨Cert.ReferenceIdeal.S128x128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128x128, .f32⟩ : BufTy).Contents (Elt Ideal)) (x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S256x128, .f32⟩ : BufTy).Contents (Elt Ideal)) (x15 : (⟨Cert.ReferenceIdeal.S128, .f32⟩ : BufTy).Contents (Elt Ideal)) (x16 : (⟨Cert.ReferenceIdeal.S128x1, .f32⟩ : BufTy).Contents (Elt Ideal)) (x17 : (⟨Cert.ReferenceIdeal.S1, .f32⟩ : BufTy).Contents (Elt Ideal)) (x18 : (⟨Cert.ReferenceIdeal.S2x640000, .i32⟩ : BufTy).Contents (Elt Ideal)) (x19 : (⟨Cert.ReferenceIdeal.S2x640000, .i32⟩ : BufTy).Contents (Elt Ideal)) (x20 : (⟨Cert.ReferenceIdeal.S2x200000, .i32⟩ : BufTy).Contents (Elt Ideal)) :
    decArr (Cert.ReferenceIdeal.Read.val_main_v128 (F := Ideal) x0 x1 x2 x3 x4 x5 x6 x7 x11 x12 x13 x18 x19 x20) (Cert.ReferenceIdeal.Read.val_main_v135 (F := Ideal) x0 x1 x2 x3 x4 x5 x6 x7 x8 x9 x10 x18 x19 x20) (sliceTop x14) (sliceBot x14) (biasRow x15) (rowOfCol x16) (oneByOne x17) = (Cert.ReferenceIdeal.Read.val_main_v145 (F := Ideal) x0 x1 x2 x3 x4 x5 x6 x7 x8 x9 x10 x11 x12 x13 x14 x15 x16 x17 x18 x19 x20) := by
  funext i
  obtain ⟨l, z, rfl⟩ : ∃ (l : Fin 200000) (z : Fin 1), i = ix2 l z := ⟨i 0, i 1, eq_ix2 i⟩
  rw [Cert.DecoderRow.ref145_apply]
  show decK _ _ (fun k q => sliceTop x14 (ix2 k q)) (fun k q => sliceBot x14 (ix2 k q)) (fun q => biasRow x15 (ix2 0 q)) (fun q => rowOfCol x16 (ix2 0 q)) (oneByOne x17 (ix2 0 0)) = _
  simp only [sliceTop_apply, sliceBot_apply, biasRow_apply, rowOfCol_apply, oneByOne_apply]

end Cert.KernelIdeal.Whole

end
-- ==== Proof.Chain.lean ====
/-
  The buffer contents at every boundary of the idealized kernel's @main, followed from the launch memory to the result.

  @main alternates host stretches and regions. After the first stretch the edge lists are split into source and
  destination vectors, the in-degrees are counted and inverted, and the first neighbour sum is formed; each region
  then writes one layer's combine, each later stretch gathers and scatter-adds the previous layer's output, and the
  last stretch flattens the decoder's column. At every boundary each buffer that is read later is identified with
  the matching stage of the reference program (`val_main_vN` of the same argument arrays): the host stages are the
  same operations on both sides, and the regions' outputs meet the reference's layers by the whole-array lemmas.
-/
import proofs.«110691_j32409823216440_2_alg».proof.Proof.KernelRun
import proofs.«110691_j32409823216440_2_alg».proof.Proof.Bridge
import Idealize.ShloMosaic.Lib.StableHlo.Run

set_option maxRecDepth 16384

noncomputable section

namespace Cert.KernelIdeal.Whole

open Cert.KernelIdeal Cert.KernelIdeal.Gen Cert.Spec
open Idealize.ShloMosaic Idealize.ShloMosaic.TcCoe Idealize.ShloMosaic.ValueIdx Idealize.ShloMosaic.StableHlo
open Idealize.SL.Sem
open Idealize.ShloMosaic.Pipeline (Dat Cfg Window)

/-- A buffer that no operation of a host stretch writes is unchanged across the stretch. -/
macro "host_keeps" : tactic => `(tactic| exact StableHlo.after_of_forall_not_mem _ _ (List.forall_iff_forall_mem.mp (by
      simp only [hostOps0, hostOps1, hostOps2, hostOps3, hostOps4, hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

/-! ## After the first host stretch -/

theorem W1_v1 : W1 m ρ c (Proc.devRef .tc main_v1) = (Cert.ReferenceIdeal.Read.val_main_v1 (F := Ideal) (m ((c : Thread nD τ).loc main_arg18))) := by
  show StableHlo.after hostOps0 (W0 m ρ c) (Proc.devRef .tc main_v1) = _
  after_results_simp
  rfl

theorem W1_v3 : W1 m ρ c (Proc.devRef .tc main_v3) = (Cert.ReferenceIdeal.Read.val_main_v3 (F := Ideal) (m ((c : Thread nD τ).loc main_arg18))) := by
  show StableHlo.after hostOps0 (W0 m ρ c) (Proc.devRef .tc main_v3) = _
  after_results_simp
  rfl

theorem W1_v5 : W1 m ρ c (Proc.devRef .tc main_v5) = (Cert.ReferenceIdeal.Read.val_main_v31 (F := Ideal) (m ((c : Thread nD τ).loc main_arg19))) := by
  show StableHlo.after hostOps0 (W0 m ρ c) (Proc.devRef .tc main_v5) = _
  after_results_simp
  rfl

theorem W1_v7 : W1 m ρ c (Proc.devRef .tc main_v7) = (Cert.ReferenceIdeal.Read.val_main_v33 (F := Ideal) (m ((c : Thread nD τ).loc main_arg19))) := by
  show StableHlo.after hostOps0 (W0 m ρ c) (Proc.devRef .tc main_v7) = _
  after_results_simp
  rfl

theorem W1_v15 : W1 m ρ c (Proc.devRef .tc main_v15) = (invVec (Cert.ReferenceIdeal.Read.val_main_v17 (F := Ideal) (m ((c : Thread nD τ).loc main_arg18)))) := by
  show StableHlo.after hostOps0 (W0 m ρ c) (Proc.devRef .tc main_v15) = _
  after_results_simp
  rfl

theorem W1_v22 : W1 m ρ c (Proc.devRef .tc main_v22) = (invVec (Cert.ReferenceIdeal.Read.val_main_v47 (F := Ideal) (m ((c : Thread nD τ).loc main_arg19)))) := by
  show StableHlo.after hostOps0 (W0 m ρ c) (Proc.devRef .tc main_v22) = _
  after_results_simp
  rfl

theorem W1_v32 : W1 m ρ c (Proc.devRef .tc main_v32) = (Cert.ReferenceIdeal.Read.val_main_v13 (F := Ideal) (m ((c : Thread nD τ).loc main_arg0)) (m ((c : Thread nD τ).loc main_arg18))) := by
  show StableHlo.after hostOps0 (W0 m ρ c) (Proc.devRef .tc main_v32) = _
  after_results_simp
  rfl

theorem W1_v33 : W1 m ρ c (Proc.devRef .tc main_v33) = (invCol (Cert.ReferenceIdeal.Read.val_main_v17 (F := Ideal) (m ((c : Thread nD τ).loc main_arg18)))) := by
  show StableHlo.after hostOps0 (W0 m ρ c) (Proc.devRef .tc main_v33) = _
  after_results_simp
  rfl

theorem W1_v34 : W1 m ρ c (Proc.devRef .tc main_v34) = (biasRow (m ((c : Thread nD τ).loc main_arg4))) := by
  show StableHlo.after hostOps0 (W0 m ρ c) (Proc.devRef .tc main_v34) = _
  after_results_simp
  rfl

theorem W1_step_arg1 : W1 m ρ c (Proc.devRef .tc main_arg1) = W0 m ρ c (Proc.devRef .tc main_arg1) := by host_keeps
theorem W1_arg1 : W1 m ρ c (Proc.devRef .tc main_arg1) = (m ((c : Thread nD τ).loc main_arg1)) :=
  W1_step_arg1 m ρ c
theorem W2_step_arg1 : W2 m ρ c (Proc.devRef .tc main_arg1) = W1 m ρ c (Proc.devRef .tc main_arg1) :=
  (W2_arr m ρ c 2).trans (((dat0 (V1 m ρ) c).arrAt_in 2 rfl _).trans (A_eq0 (V1 m ρ) c 2))
theorem W2_arg1 : W2 m ρ c (Proc.devRef .tc main_arg1) = (m ((c : Thread nD τ).loc main_arg1)) :=
  (W2_step_arg1 m ρ c).trans (W1_arg1 m ρ c)

theorem W1_step_arg2 : W1 m ρ c (Proc.devRef .tc main_arg2) = W0 m ρ c (Proc.devRef .tc main_arg2) := by host_keeps
theorem W1_arg2 : W1 m ρ c (Proc.devRef .tc main_arg2) = (m ((c : Thread nD τ).loc main_arg2)) :=
  W1_step_arg2 m ρ c

theorem W1_step_arg3 : W1 m ρ c (Proc.devRef .tc main_arg3) = W0 m ρ c (Proc.devRef .tc main_arg3) := by host_keeps
theorem W1_arg3 : W1 m ρ c (Proc.devRef .tc main_arg3) = (m ((c : Thread nD τ).loc main_arg3)) :=
  W1_step_arg3 m ρ c

/-! ## Layer 1, destination: disease nodes -/

theorem W2_v35 : W2 m ρ c (Proc.devRef .tc main_v35) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18))) := by
  refine (W2_arr m ρ c 6).trans ((final0 (V1 m ρ) c).trans ?_)
  show combReluArr (W1 m ρ c (Proc.devRef .tc main_v32)) (W1 m ρ c (Proc.devRef .tc main_v33)) (W1 m ρ c (Proc.devRef .tc main_arg1)) (W1 m ρ c (Proc.devRef .tc main_arg2)) (W1 m ρ c (Proc.devRef .tc main_arg3)) (W1 m ρ c (Proc.devRef .tc main_v34)) = _
  rw [W1_v32 m ρ c, W1_v33 m ρ c, W1_arg1 m ρ c, W1_arg2 m ρ c, W1_arg3 m ρ c, W1_v34 m ρ c]
  exact bridge29 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18))

theorem W2_step_v5 : W2 m ρ c (Proc.devRef .tc main_v5) = W1 m ρ c (Proc.devRef .tc main_v5) := W2_of_ne m ρ c main_v5 (by decide)
theorem W2_v5 : W2 m ρ c (Proc.devRef .tc main_v5) = (Cert.ReferenceIdeal.Read.val_main_v31 (F := Ideal) (m ((c : Thread nD τ).loc main_arg19))) :=
  (W2_step_v5 m ρ c).trans (W1_v5 m ρ c)
theorem W3_step_v5 : W3 m ρ c (Proc.devRef .tc main_v5) = W2 m ρ c (Proc.devRef .tc main_v5) := by host_keeps
theorem W3_v5 : W3 m ρ c (Proc.devRef .tc main_v5) = (Cert.ReferenceIdeal.Read.val_main_v31 (F := Ideal) (m ((c : Thread nD τ).loc main_arg19))) :=
  (W3_step_v5 m ρ c).trans (W2_v5 m ρ c)
theorem W4_step_v5 : W4 m ρ c (Proc.devRef .tc main_v5) = W3 m ρ c (Proc.devRef .tc main_v5) := W4_of_ne m ρ c main_v5 (by decide)
theorem W4_v5 : W4 m ρ c (Proc.devRef .tc main_v5) = (Cert.ReferenceIdeal.Read.val_main_v31 (F := Ideal) (m ((c : Thread nD τ).loc main_arg19))) :=
  (W4_step_v5 m ρ c).trans (W3_v5 m ρ c)
theorem W5_step_v5 : W5 m ρ c (Proc.devRef .tc main_v5) = W4 m ρ c (Proc.devRef .tc main_v5) := by host_keeps
theorem W5_v5 : W5 m ρ c (Proc.devRef .tc main_v5) = (Cert.ReferenceIdeal.Read.val_main_v31 (F := Ideal) (m ((c : Thread nD τ).loc main_arg19))) :=
  (W5_step_v5 m ρ c).trans (W4_v5 m ρ c)
theorem W6_step_v5 : W6 m ρ c (Proc.devRef .tc main_v5) = W5 m ρ c (Proc.devRef .tc main_v5) := W6_of_ne m ρ c main_v5 (by decide)
theorem W6_v5 : W6 m ρ c (Proc.devRef .tc main_v5) = (Cert.ReferenceIdeal.Read.val_main_v31 (F := Ideal) (m ((c : Thread nD τ).loc main_arg19))) :=
  (W6_step_v5 m ρ c).trans (W5_v5 m ρ c)

theorem W2_step_v7 : W2 m ρ c (Proc.devRef .tc main_v7) = W1 m ρ c (Proc.devRef .tc main_v7) := W2_of_ne m ρ c main_v7 (by decide)
theorem W2_v7 : W2 m ρ c (Proc.devRef .tc main_v7) = (Cert.ReferenceIdeal.Read.val_main_v33 (F := Ideal) (m ((c : Thread nD τ).loc main_arg19))) :=
  (W2_step_v7 m ρ c).trans (W1_v7 m ρ c)
theorem W3_step_v7 : W3 m ρ c (Proc.devRef .tc main_v7) = W2 m ρ c (Proc.devRef .tc main_v7) := by host_keeps
theorem W3_v7 : W3 m ρ c (Proc.devRef .tc main_v7) = (Cert.ReferenceIdeal.Read.val_main_v33 (F := Ideal) (m ((c : Thread nD τ).loc main_arg19))) :=
  (W3_step_v7 m ρ c).trans (W2_v7 m ρ c)
theorem W4_step_v7 : W4 m ρ c (Proc.devRef .tc main_v7) = W3 m ρ c (Proc.devRef .tc main_v7) := W4_of_ne m ρ c main_v7 (by decide)
theorem W4_v7 : W4 m ρ c (Proc.devRef .tc main_v7) = (Cert.ReferenceIdeal.Read.val_main_v33 (F := Ideal) (m ((c : Thread nD τ).loc main_arg19))) :=
  (W4_step_v7 m ρ c).trans (W3_v7 m ρ c)
theorem W5_step_v7 : W5 m ρ c (Proc.devRef .tc main_v7) = W4 m ρ c (Proc.devRef .tc main_v7) := by host_keeps
theorem W5_v7 : W5 m ρ c (Proc.devRef .tc main_v7) = (Cert.ReferenceIdeal.Read.val_main_v33 (F := Ideal) (m ((c : Thread nD τ).loc main_arg19))) :=
  (W5_step_v7 m ρ c).trans (W4_v7 m ρ c)
theorem W6_step_v7 : W6 m ρ c (Proc.devRef .tc main_v7) = W5 m ρ c (Proc.devRef .tc main_v7) := W6_of_ne m ρ c main_v7 (by decide)
theorem W6_v7 : W6 m ρ c (Proc.devRef .tc main_v7) = (Cert.ReferenceIdeal.Read.val_main_v33 (F := Ideal) (m ((c : Thread nD τ).loc main_arg19))) :=
  (W6_step_v7 m ρ c).trans (W5_v7 m ρ c)

theorem W2_step_v22 : W2 m ρ c (Proc.devRef .tc main_v22) = W1 m ρ c (Proc.devRef .tc main_v22) := W2_of_ne m ρ c main_v22 (by decide)
theorem W2_v22 : W2 m ρ c (Proc.devRef .tc main_v22) = (invVec (Cert.ReferenceIdeal.Read.val_main_v47 (F := Ideal) (m ((c : Thread nD τ).loc main_arg19)))) :=
  (W2_step_v22 m ρ c).trans (W1_v22 m ρ c)
theorem W3_step_v22 : W3 m ρ c (Proc.devRef .tc main_v22) = W2 m ρ c (Proc.devRef .tc main_v22) := by host_keeps
theorem W3_v22 : W3 m ρ c (Proc.devRef .tc main_v22) = (invVec (Cert.ReferenceIdeal.Read.val_main_v47 (F := Ideal) (m ((c : Thread nD τ).loc main_arg19)))) :=
  (W3_step_v22 m ρ c).trans (W2_v22 m ρ c)
theorem W4_step_v22 : W4 m ρ c (Proc.devRef .tc main_v22) = W3 m ρ c (Proc.devRef .tc main_v22) := W4_of_ne m ρ c main_v22 (by decide)
theorem W4_v22 : W4 m ρ c (Proc.devRef .tc main_v22) = (invVec (Cert.ReferenceIdeal.Read.val_main_v47 (F := Ideal) (m ((c : Thread nD τ).loc main_arg19)))) :=
  (W4_step_v22 m ρ c).trans (W3_v22 m ρ c)
theorem W5_step_v22 : W5 m ρ c (Proc.devRef .tc main_v22) = W4 m ρ c (Proc.devRef .tc main_v22) := by host_keeps
theorem W5_v22 : W5 m ρ c (Proc.devRef .tc main_v22) = (invVec (Cert.ReferenceIdeal.Read.val_main_v47 (F := Ideal) (m ((c : Thread nD τ).loc main_arg19)))) :=
  (W5_step_v22 m ρ c).trans (W4_v22 m ρ c)
theorem W6_step_v22 : W6 m ρ c (Proc.devRef .tc main_v22) = W5 m ρ c (Proc.devRef .tc main_v22) := W6_of_ne m ρ c main_v22 (by decide)
theorem W6_v22 : W6 m ρ c (Proc.devRef .tc main_v22) = (invVec (Cert.ReferenceIdeal.Read.val_main_v47 (F := Ideal) (m ((c : Thread nD τ).loc main_arg19)))) :=
  (W6_step_v22 m ρ c).trans (W5_v22 m ρ c)

theorem W1_step_arg7 : W1 m ρ c (Proc.devRef .tc main_arg7) = W0 m ρ c (Proc.devRef .tc main_arg7) := by host_keeps
theorem W1_arg7 : W1 m ρ c (Proc.devRef .tc main_arg7) = (m ((c : Thread nD τ).loc main_arg7)) :=
  W1_step_arg7 m ρ c
theorem W2_step_arg7 : W2 m ρ c (Proc.devRef .tc main_arg7) = W1 m ρ c (Proc.devRef .tc main_arg7) := W2_of_ne m ρ c main_arg7 (by decide)
theorem W2_arg7 : W2 m ρ c (Proc.devRef .tc main_arg7) = (m ((c : Thread nD τ).loc main_arg7)) :=
  (W2_step_arg7 m ρ c).trans (W1_arg7 m ρ c)

theorem W3_v45 : W3 m ρ c (Proc.devRef .tc main_v45) = (Cert.ReferenceIdeal.Read.val_main_v43 (F := Ideal) (m ((c : Thread nD τ).loc main_arg1)) (m ((c : Thread nD τ).loc main_arg19))) := by
  show StableHlo.after hostOps1 (W2 m ρ c) (Proc.devRef .tc main_v45) = _
  after_results_simp
  rw [W2_arg1 m ρ c, W2_v5 m ρ c, W2_v7 m ρ c]
  rfl

theorem W3_v46 : W3 m ρ c (Proc.devRef .tc main_v46) = (invCol (Cert.ReferenceIdeal.Read.val_main_v47 (F := Ideal) (m ((c : Thread nD τ).loc main_arg19)))) := by
  show StableHlo.after hostOps1 (W2 m ρ c) (Proc.devRef .tc main_v46) = _
  after_results_simp
  rw [W2_v22 m ρ c]
  rfl

theorem W3_v47 : W3 m ρ c (Proc.devRef .tc main_v47) = (biasRow (m ((c : Thread nD τ).loc main_arg7))) := by
  show StableHlo.after hostOps1 (W2 m ρ c) (Proc.devRef .tc main_v47) = _
  after_results_simp
  rw [W2_arg7 m ρ c]
  rfl

theorem W1_step_arg0 : W1 m ρ c (Proc.devRef .tc main_arg0) = W0 m ρ c (Proc.devRef .tc main_arg0) := by host_keeps
theorem W1_arg0 : W1 m ρ c (Proc.devRef .tc main_arg0) = (m ((c : Thread nD τ).loc main_arg0)) :=
  W1_step_arg0 m ρ c
theorem W2_step_arg0 : W2 m ρ c (Proc.devRef .tc main_arg0) = W1 m ρ c (Proc.devRef .tc main_arg0) := W2_of_ne m ρ c main_arg0 (by decide)
theorem W2_arg0 : W2 m ρ c (Proc.devRef .tc main_arg0) = (m ((c : Thread nD τ).loc main_arg0)) :=
  (W2_step_arg0 m ρ c).trans (W1_arg0 m ρ c)
theorem W3_step_arg0 : W3 m ρ c (Proc.devRef .tc main_arg0) = W2 m ρ c (Proc.devRef .tc main_arg0) := by host_keeps
theorem W3_arg0 : W3 m ρ c (Proc.devRef .tc main_arg0) = (m ((c : Thread nD τ).loc main_arg0)) :=
  (W3_step_arg0 m ρ c).trans (W2_arg0 m ρ c)

theorem W1_step_arg5 : W1 m ρ c (Proc.devRef .tc main_arg5) = W0 m ρ c (Proc.devRef .tc main_arg5) := by host_keeps
theorem W1_arg5 : W1 m ρ c (Proc.devRef .tc main_arg5) = (m ((c : Thread nD τ).loc main_arg5)) :=
  W1_step_arg5 m ρ c
theorem W2_step_arg5 : W2 m ρ c (Proc.devRef .tc main_arg5) = W1 m ρ c (Proc.devRef .tc main_arg5) := W2_of_ne m ρ c main_arg5 (by decide)
theorem W2_arg5 : W2 m ρ c (Proc.devRef .tc main_arg5) = (m ((c : Thread nD τ).loc main_arg5)) :=
  (W2_step_arg5 m ρ c).trans (W1_arg5 m ρ c)
theorem W3_step_arg5 : W3 m ρ c (Proc.devRef .tc main_arg5) = W2 m ρ c (Proc.devRef .tc main_arg5) := by host_keeps
theorem W3_arg5 : W3 m ρ c (Proc.devRef .tc main_arg5) = (m ((c : Thread nD τ).loc main_arg5)) :=
  (W3_step_arg5 m ρ c).trans (W2_arg5 m ρ c)

theorem W1_step_arg6 : W1 m ρ c (Proc.devRef .tc main_arg6) = W0 m ρ c (Proc.devRef .tc main_arg6) := by host_keeps
theorem W1_arg6 : W1 m ρ c (Proc.devRef .tc main_arg6) = (m ((c : Thread nD τ).loc main_arg6)) :=
  W1_step_arg6 m ρ c
theorem W2_step_arg6 : W2 m ρ c (Proc.devRef .tc main_arg6) = W1 m ρ c (Proc.devRef .tc main_arg6) := W2_of_ne m ρ c main_arg6 (by decide)
theorem W2_arg6 : W2 m ρ c (Proc.devRef .tc main_arg6) = (m ((c : Thread nD τ).loc main_arg6)) :=
  (W2_step_arg6 m ρ c).trans (W1_arg6 m ρ c)
theorem W3_step_arg6 : W3 m ρ c (Proc.devRef .tc main_arg6) = W2 m ρ c (Proc.devRef .tc main_arg6) := by host_keeps
theorem W3_arg6 : W3 m ρ c (Proc.devRef .tc main_arg6) = (m ((c : Thread nD τ).loc main_arg6)) :=
  (W3_step_arg6 m ρ c).trans (W2_arg6 m ρ c)

/-! ## Layer 1, destination: drug nodes -/

theorem W4_v48 : W4 m ρ c (Proc.devRef .tc main_v48) = (Cert.ReferenceIdeal.Read.val_main_v59 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg19))) := by
  refine (W4_arr m ρ c 6).trans ((final1 (V3 m ρ) c).trans ?_)
  show combReluArr (W3 m ρ c (Proc.devRef .tc main_v45)) (W3 m ρ c (Proc.devRef .tc main_v46)) (W3 m ρ c (Proc.devRef .tc main_arg0)) (W3 m ρ c (Proc.devRef .tc main_arg5)) (W3 m ρ c (Proc.devRef .tc main_arg6)) (W3 m ρ c (Proc.devRef .tc main_v47)) = _
  rw [W3_v45 m ρ c, W3_v46 m ρ c, W3_arg0 m ρ c, W3_arg5 m ρ c, W3_arg6 m ρ c, W3_v47 m ρ c]
  exact bridge59 (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg19))

theorem W2_step_v1 : W2 m ρ c (Proc.devRef .tc main_v1) = W1 m ρ c (Proc.devRef .tc main_v1) := W2_of_ne m ρ c main_v1 (by decide)
theorem W2_v1 : W2 m ρ c (Proc.devRef .tc main_v1) = (Cert.ReferenceIdeal.Read.val_main_v1 (F := Ideal) (m ((c : Thread nD τ).loc main_arg18))) :=
  (W2_step_v1 m ρ c).trans (W1_v1 m ρ c)
theorem W3_step_v1 : W3 m ρ c (Proc.devRef .tc main_v1) = W2 m ρ c (Proc.devRef .tc main_v1) := by host_keeps
theorem W3_v1 : W3 m ρ c (Proc.devRef .tc main_v1) = (Cert.ReferenceIdeal.Read.val_main_v1 (F := Ideal) (m ((c : Thread nD τ).loc main_arg18))) :=
  (W3_step_v1 m ρ c).trans (W2_v1 m ρ c)
theorem W4_step_v1 : W4 m ρ c (Proc.devRef .tc main_v1) = W3 m ρ c (Proc.devRef .tc main_v1) := W4_of_ne m ρ c main_v1 (by decide)
theorem W4_v1 : W4 m ρ c (Proc.devRef .tc main_v1) = (Cert.ReferenceIdeal.Read.val_main_v1 (F := Ideal) (m ((c : Thread nD τ).loc main_arg18))) :=
  (W4_step_v1 m ρ c).trans (W3_v1 m ρ c)

theorem W2_step_v3 : W2 m ρ c (Proc.devRef .tc main_v3) = W1 m ρ c (Proc.devRef .tc main_v3) := W2_of_ne m ρ c main_v3 (by decide)
theorem W2_v3 : W2 m ρ c (Proc.devRef .tc main_v3) = (Cert.ReferenceIdeal.Read.val_main_v3 (F := Ideal) (m ((c : Thread nD τ).loc main_arg18))) :=
  (W2_step_v3 m ρ c).trans (W1_v3 m ρ c)
theorem W3_step_v3 : W3 m ρ c (Proc.devRef .tc main_v3) = W2 m ρ c (Proc.devRef .tc main_v3) := by host_keeps
theorem W3_v3 : W3 m ρ c (Proc.devRef .tc main_v3) = (Cert.ReferenceIdeal.Read.val_main_v3 (F := Ideal) (m ((c : Thread nD τ).loc main_arg18))) :=
  (W3_step_v3 m ρ c).trans (W2_v3 m ρ c)
theorem W4_step_v3 : W4 m ρ c (Proc.devRef .tc main_v3) = W3 m ρ c (Proc.devRef .tc main_v3) := W4_of_ne m ρ c main_v3 (by decide)
theorem W4_v3 : W4 m ρ c (Proc.devRef .tc main_v3) = (Cert.ReferenceIdeal.Read.val_main_v3 (F := Ideal) (m ((c : Thread nD τ).loc main_arg18))) :=
  (W4_step_v3 m ρ c).trans (W3_v3 m ρ c)

theorem W2_step_v15 : W2 m ρ c (Proc.devRef .tc main_v15) = W1 m ρ c (Proc.devRef .tc main_v15) := W2_of_ne m ρ c main_v15 (by decide)
theorem W2_v15 : W2 m ρ c (Proc.devRef .tc main_v15) = (invVec (Cert.ReferenceIdeal.Read.val_main_v17 (F := Ideal) (m ((c : Thread nD τ).loc main_arg18)))) :=
  (W2_step_v15 m ρ c).trans (W1_v15 m ρ c)
theorem W3_step_v15 : W3 m ρ c (Proc.devRef .tc main_v15) = W2 m ρ c (Proc.devRef .tc main_v15) := by host_keeps
theorem W3_v15 : W3 m ρ c (Proc.devRef .tc main_v15) = (invVec (Cert.ReferenceIdeal.Read.val_main_v17 (F := Ideal) (m ((c : Thread nD τ).loc main_arg18)))) :=
  (W3_step_v15 m ρ c).trans (W2_v15 m ρ c)
theorem W4_step_v15 : W4 m ρ c (Proc.devRef .tc main_v15) = W3 m ρ c (Proc.devRef .tc main_v15) := W4_of_ne m ρ c main_v15 (by decide)
theorem W4_v15 : W4 m ρ c (Proc.devRef .tc main_v15) = (invVec (Cert.ReferenceIdeal.Read.val_main_v17 (F := Ideal) (m ((c : Thread nD τ).loc main_arg18)))) :=
  (W4_step_v15 m ρ c).trans (W3_v15 m ρ c)

theorem W1_step_arg10 : W1 m ρ c (Proc.devRef .tc main_arg10) = W0 m ρ c (Proc.devRef .tc main_arg10) := by host_keeps
theorem W1_arg10 : W1 m ρ c (Proc.devRef .tc main_arg10) = (m ((c : Thread nD τ).loc main_arg10)) :=
  W1_step_arg10 m ρ c
theorem W2_step_arg10 : W2 m ρ c (Proc.devRef .tc main_arg10) = W1 m ρ c (Proc.devRef .tc main_arg10) := W2_of_ne m ρ c main_arg10 (by decide)
theorem W2_arg10 : W2 m ρ c (Proc.devRef .tc main_arg10) = (m ((c : Thread nD τ).loc main_arg10)) :=
  (W2_step_arg10 m ρ c).trans (W1_arg10 m ρ c)
theorem W3_step_arg10 : W3 m ρ c (Proc.devRef .tc main_arg10) = W2 m ρ c (Proc.devRef .tc main_arg10) := by host_keeps
theorem W3_arg10 : W3 m ρ c (Proc.devRef .tc main_arg10) = (m ((c : Thread nD τ).loc main_arg10)) :=
  (W3_step_arg10 m ρ c).trans (W2_arg10 m ρ c)
theorem W4_step_arg10 : W4 m ρ c (Proc.devRef .tc main_arg10) = W3 m ρ c (Proc.devRef .tc main_arg10) := W4_of_ne m ρ c main_arg10 (by decide)
theorem W4_arg10 : W4 m ρ c (Proc.devRef .tc main_arg10) = (m ((c : Thread nD τ).loc main_arg10)) :=
  (W4_step_arg10 m ρ c).trans (W3_arg10 m ρ c)

theorem W5_v58 : W5 m ρ c (Proc.devRef .tc main_v58) = (Cert.ReferenceIdeal.Read.val_main_v73 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg18)) (m ((c : Thread nD τ).loc main_arg19))) := by
  show StableHlo.after hostOps2 (W4 m ρ c) (Proc.devRef .tc main_v58) = _
  after_results_simp
  rw [W4_v48 m ρ c, W4_v1 m ρ c, W4_v3 m ρ c]
  rfl

theorem W5_v59 : W5 m ρ c (Proc.devRef .tc main_v59) = (invCol (Cert.ReferenceIdeal.Read.val_main_v77 (F := Ideal) (m ((c : Thread nD τ).loc main_arg18)))) := by
  show StableHlo.after hostOps2 (W4 m ρ c) (Proc.devRef .tc main_v59) = _
  after_results_simp
  rw [W4_v15 m ρ c]
  rfl

theorem W5_v60 : W5 m ρ c (Proc.devRef .tc main_v60) = (biasRow (m ((c : Thread nD τ).loc main_arg10))) := by
  show StableHlo.after hostOps2 (W4 m ρ c) (Proc.devRef .tc main_v60) = _
  after_results_simp
  rw [W4_arg10 m ρ c]
  rfl

theorem W3_step_v35 : W3 m ρ c (Proc.devRef .tc main_v35) = W2 m ρ c (Proc.devRef .tc main_v35) := by host_keeps
theorem W3_v35 : W3 m ρ c (Proc.devRef .tc main_v35) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18))) :=
  (W3_step_v35 m ρ c).trans (W2_v35 m ρ c)
theorem W4_step_v35 : W4 m ρ c (Proc.devRef .tc main_v35) = W3 m ρ c (Proc.devRef .tc main_v35) := W4_of_ne m ρ c main_v35 (by decide)
theorem W4_v35 : W4 m ρ c (Proc.devRef .tc main_v35) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18))) :=
  (W4_step_v35 m ρ c).trans (W3_v35 m ρ c)
theorem W5_step_v35 : W5 m ρ c (Proc.devRef .tc main_v35) = W4 m ρ c (Proc.devRef .tc main_v35) := by host_keeps
theorem W5_v35 : W5 m ρ c (Proc.devRef .tc main_v35) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18))) :=
  (W5_step_v35 m ρ c).trans (W4_v35 m ρ c)
theorem W6_step_v35 : W6 m ρ c (Proc.devRef .tc main_v35) = W5 m ρ c (Proc.devRef .tc main_v35) :=
  (W6_arr m ρ c 2).trans (((dat2 (V5 m ρ) c).arrAt_in 2 rfl _).trans (A_eq2 (V5 m ρ) c 2))
theorem W6_v35 : W6 m ρ c (Proc.devRef .tc main_v35) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18))) :=
  (W6_step_v35 m ρ c).trans (W5_v35 m ρ c)

theorem W1_step_arg8 : W1 m ρ c (Proc.devRef .tc main_arg8) = W0 m ρ c (Proc.devRef .tc main_arg8) := by host_keeps
theorem W1_arg8 : W1 m ρ c (Proc.devRef .tc main_arg8) = (m ((c : Thread nD τ).loc main_arg8)) :=
  W1_step_arg8 m ρ c
theorem W2_step_arg8 : W2 m ρ c (Proc.devRef .tc main_arg8) = W1 m ρ c (Proc.devRef .tc main_arg8) := W2_of_ne m ρ c main_arg8 (by decide)
theorem W2_arg8 : W2 m ρ c (Proc.devRef .tc main_arg8) = (m ((c : Thread nD τ).loc main_arg8)) :=
  (W2_step_arg8 m ρ c).trans (W1_arg8 m ρ c)
theorem W3_step_arg8 : W3 m ρ c (Proc.devRef .tc main_arg8) = W2 m ρ c (Proc.devRef .tc main_arg8) := by host_keeps
theorem W3_arg8 : W3 m ρ c (Proc.devRef .tc main_arg8) = (m ((c : Thread nD τ).loc main_arg8)) :=
  (W3_step_arg8 m ρ c).trans (W2_arg8 m ρ c)
theorem W4_step_arg8 : W4 m ρ c (Proc.devRef .tc main_arg8) = W3 m ρ c (Proc.devRef .tc main_arg8) := W4_of_ne m ρ c main_arg8 (by decide)
theorem W4_arg8 : W4 m ρ c (Proc.devRef .tc main_arg8) = (m ((c : Thread nD τ).loc main_arg8)) :=
  (W4_step_arg8 m ρ c).trans (W3_arg8 m ρ c)
theorem W5_step_arg8 : W5 m ρ c (Proc.devRef .tc main_arg8) = W4 m ρ c (Proc.devRef .tc main_arg8) := by host_keeps
theorem W5_arg8 : W5 m ρ c (Proc.devRef .tc main_arg8) = (m ((c : Thread nD τ).loc main_arg8)) :=
  (W5_step_arg8 m ρ c).trans (W4_arg8 m ρ c)

theorem W1_step_arg9 : W1 m ρ c (Proc.devRef .tc main_arg9) = W0 m ρ c (Proc.devRef .tc main_arg9) := by host_keeps
theorem W1_arg9 : W1 m ρ c (Proc.devRef .tc main_arg9) = (m ((c : Thread nD τ).loc main_arg9)) :=
  W1_step_arg9 m ρ c
theorem W2_step_arg9 : W2 m ρ c (Proc.devRef .tc main_arg9) = W1 m ρ c (Proc.devRef .tc main_arg9) := W2_of_ne m ρ c main_arg9 (by decide)
theorem W2_arg9 : W2 m ρ c (Proc.devRef .tc main_arg9) = (m ((c : Thread nD τ).loc main_arg9)) :=
  (W2_step_arg9 m ρ c).trans (W1_arg9 m ρ c)
theorem W3_step_arg9 : W3 m ρ c (Proc.devRef .tc main_arg9) = W2 m ρ c (Proc.devRef .tc main_arg9) := by host_keeps
theorem W3_arg9 : W3 m ρ c (Proc.devRef .tc main_arg9) = (m ((c : Thread nD τ).loc main_arg9)) :=
  (W3_step_arg9 m ρ c).trans (W2_arg9 m ρ c)
theorem W4_step_arg9 : W4 m ρ c (Proc.devRef .tc main_arg9) = W3 m ρ c (Proc.devRef .tc main_arg9) := W4_of_ne m ρ c main_arg9 (by decide)
theorem W4_arg9 : W4 m ρ c (Proc.devRef .tc main_arg9) = (m ((c : Thread nD τ).loc main_arg9)) :=
  (W4_step_arg9 m ρ c).trans (W3_arg9 m ρ c)
theorem W5_step_arg9 : W5 m ρ c (Proc.devRef .tc main_arg9) = W4 m ρ c (Proc.devRef .tc main_arg9) := by host_keeps
theorem W5_arg9 : W5 m ρ c (Proc.devRef .tc main_arg9) = (m ((c : Thread nD τ).loc main_arg9)) :=
  (W5_step_arg9 m ρ c).trans (W4_arg9 m ρ c)

/-! ## Layer 2, destination: disease nodes -/

theorem W6_v61 : W6 m ρ c (Proc.devRef .tc main_v61) = (Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19))) := by
  refine (W6_arr m ρ c 6).trans ((final2 (V5 m ρ) c).trans ?_)
  show combLinArr (W5 m ρ c (Proc.devRef .tc main_v58)) (W5 m ρ c (Proc.devRef .tc main_v59)) (W5 m ρ c (Proc.devRef .tc main_v35)) (W5 m ρ c (Proc.devRef .tc main_arg8)) (W5 m ρ c (Proc.devRef .tc main_arg9)) (W5 m ρ c (Proc.devRef .tc main_v60)) = _
  rw [W5_v58 m ρ c, W5_v59 m ρ c, W5_v35 m ρ c, W5_arg8 m ρ c, W5_arg9 m ρ c, W5_v60 m ρ c]
  exact bridge88 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19))

theorem W1_step_arg13 : W1 m ρ c (Proc.devRef .tc main_arg13) = W0 m ρ c (Proc.devRef .tc main_arg13) := by host_keeps
theorem W1_arg13 : W1 m ρ c (Proc.devRef .tc main_arg13) = (m ((c : Thread nD τ).loc main_arg13)) :=
  W1_step_arg13 m ρ c
theorem W2_step_arg13 : W2 m ρ c (Proc.devRef .tc main_arg13) = W1 m ρ c (Proc.devRef .tc main_arg13) := W2_of_ne m ρ c main_arg13 (by decide)
theorem W2_arg13 : W2 m ρ c (Proc.devRef .tc main_arg13) = (m ((c : Thread nD τ).loc main_arg13)) :=
  (W2_step_arg13 m ρ c).trans (W1_arg13 m ρ c)
theorem W3_step_arg13 : W3 m ρ c (Proc.devRef .tc main_arg13) = W2 m ρ c (Proc.devRef .tc main_arg13) := by host_keeps
theorem W3_arg13 : W3 m ρ c (Proc.devRef .tc main_arg13) = (m ((c : Thread nD τ).loc main_arg13)) :=
  (W3_step_arg13 m ρ c).trans (W2_arg13 m ρ c)
theorem W4_step_arg13 : W4 m ρ c (Proc.devRef .tc main_arg13) = W3 m ρ c (Proc.devRef .tc main_arg13) := W4_of_ne m ρ c main_arg13 (by decide)
theorem W4_arg13 : W4 m ρ c (Proc.devRef .tc main_arg13) = (m ((c : Thread nD τ).loc main_arg13)) :=
  (W4_step_arg13 m ρ c).trans (W3_arg13 m ρ c)
theorem W5_step_arg13 : W5 m ρ c (Proc.devRef .tc main_arg13) = W4 m ρ c (Proc.devRef .tc main_arg13) := by host_keeps
theorem W5_arg13 : W5 m ρ c (Proc.devRef .tc main_arg13) = (m ((c : Thread nD τ).loc main_arg13)) :=
  (W5_step_arg13 m ρ c).trans (W4_arg13 m ρ c)
theorem W6_step_arg13 : W6 m ρ c (Proc.devRef .tc main_arg13) = W5 m ρ c (Proc.devRef .tc main_arg13) := W6_of_ne m ρ c main_arg13 (by decide)
theorem W6_arg13 : W6 m ρ c (Proc.devRef .tc main_arg13) = (m ((c : Thread nD τ).loc main_arg13)) :=
  (W6_step_arg13 m ρ c).trans (W5_arg13 m ρ c)

theorem W7_v71 : W7 m ρ c (Proc.devRef .tc main_v71) = (Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg18)) (m ((c : Thread nD τ).loc main_arg19))) := by
  show StableHlo.after hostOps3 (W6 m ρ c) (Proc.devRef .tc main_v71) = _
  after_results_simp
  rw [W6_v35 m ρ c, W6_v5 m ρ c, W6_v7 m ρ c]
  rfl

theorem W7_v72 : W7 m ρ c (Proc.devRef .tc main_v72) = (invCol (Cert.ReferenceIdeal.Read.val_main_v106 (F := Ideal) (m ((c : Thread nD τ).loc main_arg19)))) := by
  show StableHlo.after hostOps3 (W6 m ρ c) (Proc.devRef .tc main_v72) = _
  after_results_simp
  rw [W6_v22 m ρ c]
  rfl

theorem W7_v73 : W7 m ρ c (Proc.devRef .tc main_v73) = (biasRow (m ((c : Thread nD τ).loc main_arg13))) := by
  show StableHlo.after hostOps3 (W6 m ρ c) (Proc.devRef .tc main_v73) = _
  after_results_simp
  rw [W6_arg13 m ρ c]
  rfl

theorem W5_step_v48 : W5 m ρ c (Proc.devRef .tc main_v48) = W4 m ρ c (Proc.devRef .tc main_v48) := by host_keeps
theorem W5_v48 : W5 m ρ c (Proc.devRef .tc main_v48) = (Cert.ReferenceIdeal.Read.val_main_v59 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg19))) :=
  (W5_step_v48 m ρ c).trans (W4_v48 m ρ c)
theorem W6_step_v48 : W6 m ρ c (Proc.devRef .tc main_v48) = W5 m ρ c (Proc.devRef .tc main_v48) := W6_of_ne m ρ c main_v48 (by decide)
theorem W6_v48 : W6 m ρ c (Proc.devRef .tc main_v48) = (Cert.ReferenceIdeal.Read.val_main_v59 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg19))) :=
  (W6_step_v48 m ρ c).trans (W5_v48 m ρ c)
theorem W7_step_v48 : W7 m ρ c (Proc.devRef .tc main_v48) = W6 m ρ c (Proc.devRef .tc main_v48) := by host_keeps
theorem W7_v48 : W7 m ρ c (Proc.devRef .tc main_v48) = (Cert.ReferenceIdeal.Read.val_main_v59 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg19))) :=
  (W7_step_v48 m ρ c).trans (W6_v48 m ρ c)

theorem W1_step_arg11 : W1 m ρ c (Proc.devRef .tc main_arg11) = W0 m ρ c (Proc.devRef .tc main_arg11) := by host_keeps
theorem W1_arg11 : W1 m ρ c (Proc.devRef .tc main_arg11) = (m ((c : Thread nD τ).loc main_arg11)) :=
  W1_step_arg11 m ρ c
theorem W2_step_arg11 : W2 m ρ c (Proc.devRef .tc main_arg11) = W1 m ρ c (Proc.devRef .tc main_arg11) := W2_of_ne m ρ c main_arg11 (by decide)
theorem W2_arg11 : W2 m ρ c (Proc.devRef .tc main_arg11) = (m ((c : Thread nD τ).loc main_arg11)) :=
  (W2_step_arg11 m ρ c).trans (W1_arg11 m ρ c)
theorem W3_step_arg11 : W3 m ρ c (Proc.devRef .tc main_arg11) = W2 m ρ c (Proc.devRef .tc main_arg11) := by host_keeps
theorem W3_arg11 : W3 m ρ c (Proc.devRef .tc main_arg11) = (m ((c : Thread nD τ).loc main_arg11)) :=
  (W3_step_arg11 m ρ c).trans (W2_arg11 m ρ c)
theorem W4_step_arg11 : W4 m ρ c (Proc.devRef .tc main_arg11) = W3 m ρ c (Proc.devRef .tc main_arg11) := W4_of_ne m ρ c main_arg11 (by decide)
theorem W4_arg11 : W4 m ρ c (Proc.devRef .tc main_arg11) = (m ((c : Thread nD τ).loc main_arg11)) :=
  (W4_step_arg11 m ρ c).trans (W3_arg11 m ρ c)
theorem W5_step_arg11 : W5 m ρ c (Proc.devRef .tc main_arg11) = W4 m ρ c (Proc.devRef .tc main_arg11) := by host_keeps
theorem W5_arg11 : W5 m ρ c (Proc.devRef .tc main_arg11) = (m ((c : Thread nD τ).loc main_arg11)) :=
  (W5_step_arg11 m ρ c).trans (W4_arg11 m ρ c)
theorem W6_step_arg11 : W6 m ρ c (Proc.devRef .tc main_arg11) = W5 m ρ c (Proc.devRef .tc main_arg11) := W6_of_ne m ρ c main_arg11 (by decide)
theorem W6_arg11 : W6 m ρ c (Proc.devRef .tc main_arg11) = (m ((c : Thread nD τ).loc main_arg11)) :=
  (W6_step_arg11 m ρ c).trans (W5_arg11 m ρ c)
theorem W7_step_arg11 : W7 m ρ c (Proc.devRef .tc main_arg11) = W6 m ρ c (Proc.devRef .tc main_arg11) := by host_keeps
theorem W7_arg11 : W7 m ρ c (Proc.devRef .tc main_arg11) = (m ((c : Thread nD τ).loc main_arg11)) :=
  (W7_step_arg11 m ρ c).trans (W6_arg11 m ρ c)

theorem W1_step_arg12 : W1 m ρ c (Proc.devRef .tc main_arg12) = W0 m ρ c (Proc.devRef .tc main_arg12) := by host_keeps
theorem W1_arg12 : W1 m ρ c (Proc.devRef .tc main_arg12) = (m ((c : Thread nD τ).loc main_arg12)) :=
  W1_step_arg12 m ρ c
theorem W2_step_arg12 : W2 m ρ c (Proc.devRef .tc main_arg12) = W1 m ρ c (Proc.devRef .tc main_arg12) := W2_of_ne m ρ c main_arg12 (by decide)
theorem W2_arg12 : W2 m ρ c (Proc.devRef .tc main_arg12) = (m ((c : Thread nD τ).loc main_arg12)) :=
  (W2_step_arg12 m ρ c).trans (W1_arg12 m ρ c)
theorem W3_step_arg12 : W3 m ρ c (Proc.devRef .tc main_arg12) = W2 m ρ c (Proc.devRef .tc main_arg12) := by host_keeps
theorem W3_arg12 : W3 m ρ c (Proc.devRef .tc main_arg12) = (m ((c : Thread nD τ).loc main_arg12)) :=
  (W3_step_arg12 m ρ c).trans (W2_arg12 m ρ c)
theorem W4_step_arg12 : W4 m ρ c (Proc.devRef .tc main_arg12) = W3 m ρ c (Proc.devRef .tc main_arg12) := W4_of_ne m ρ c main_arg12 (by decide)
theorem W4_arg12 : W4 m ρ c (Proc.devRef .tc main_arg12) = (m ((c : Thread nD τ).loc main_arg12)) :=
  (W4_step_arg12 m ρ c).trans (W3_arg12 m ρ c)
theorem W5_step_arg12 : W5 m ρ c (Proc.devRef .tc main_arg12) = W4 m ρ c (Proc.devRef .tc main_arg12) := by host_keeps
theorem W5_arg12 : W5 m ρ c (Proc.devRef .tc main_arg12) = (m ((c : Thread nD τ).loc main_arg12)) :=
  (W5_step_arg12 m ρ c).trans (W4_arg12 m ρ c)
theorem W6_step_arg12 : W6 m ρ c (Proc.devRef .tc main_arg12) = W5 m ρ c (Proc.devRef .tc main_arg12) := W6_of_ne m ρ c main_arg12 (by decide)
theorem W6_arg12 : W6 m ρ c (Proc.devRef .tc main_arg12) = (m ((c : Thread nD τ).loc main_arg12)) :=
  (W6_step_arg12 m ρ c).trans (W5_arg12 m ρ c)
theorem W7_step_arg12 : W7 m ρ c (Proc.devRef .tc main_arg12) = W6 m ρ c (Proc.devRef .tc main_arg12) := by host_keeps
theorem W7_arg12 : W7 m ρ c (Proc.devRef .tc main_arg12) = (m ((c : Thread nD τ).loc main_arg12)) :=
  (W7_step_arg12 m ρ c).trans (W6_arg12 m ρ c)

/-! ## Layer 2, destination: drug nodes -/

theorem W8_v74 : W8 m ρ c (Proc.devRef .tc main_v74) = (Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg18)) (m ((c : Thread nD τ).loc main_arg19))) := by
  refine (W8_arr m ρ c 6).trans ((final3 (V7 m ρ) c).trans ?_)
  show combLinArr (W7 m ρ c (Proc.devRef .tc main_v71)) (W7 m ρ c (Proc.devRef .tc main_v72)) (W7 m ρ c (Proc.devRef .tc main_v48)) (W7 m ρ c (Proc.devRef .tc main_arg11)) (W7 m ρ c (Proc.devRef .tc main_arg12)) (W7 m ρ c (Proc.devRef .tc main_v73)) = _
  rw [W7_v71 m ρ c, W7_v72 m ρ c, W7_v48 m ρ c, W7_arg11 m ρ c, W7_arg12 m ρ c, W7_v73 m ρ c]
  exact bridge117 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg18)) (m ((c : Thread nD τ).loc main_arg19))

theorem W7_step_v61 : W7 m ρ c (Proc.devRef .tc main_v61) = W6 m ρ c (Proc.devRef .tc main_v61) := by host_keeps
theorem W7_v61 : W7 m ρ c (Proc.devRef .tc main_v61) = (Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19))) :=
  (W7_step_v61 m ρ c).trans (W6_v61 m ρ c)
theorem W8_step_v61 : W8 m ρ c (Proc.devRef .tc main_v61) = W7 m ρ c (Proc.devRef .tc main_v61) := W8_of_ne m ρ c main_v61 (by decide)
theorem W8_v61 : W8 m ρ c (Proc.devRef .tc main_v61) = (Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19))) :=
  (W8_step_v61 m ρ c).trans (W7_v61 m ρ c)

theorem W1_step_arg20 : W1 m ρ c (Proc.devRef .tc main_arg20) = W0 m ρ c (Proc.devRef .tc main_arg20) := by host_keeps
theorem W1_arg20 : W1 m ρ c (Proc.devRef .tc main_arg20) = (m ((c : Thread nD τ).loc main_arg20)) :=
  W1_step_arg20 m ρ c
theorem W2_step_arg20 : W2 m ρ c (Proc.devRef .tc main_arg20) = W1 m ρ c (Proc.devRef .tc main_arg20) := W2_of_ne m ρ c main_arg20 (by decide)
theorem W2_arg20 : W2 m ρ c (Proc.devRef .tc main_arg20) = (m ((c : Thread nD τ).loc main_arg20)) :=
  (W2_step_arg20 m ρ c).trans (W1_arg20 m ρ c)
theorem W3_step_arg20 : W3 m ρ c (Proc.devRef .tc main_arg20) = W2 m ρ c (Proc.devRef .tc main_arg20) := by host_keeps
theorem W3_arg20 : W3 m ρ c (Proc.devRef .tc main_arg20) = (m ((c : Thread nD τ).loc main_arg20)) :=
  (W3_step_arg20 m ρ c).trans (W2_arg20 m ρ c)
theorem W4_step_arg20 : W4 m ρ c (Proc.devRef .tc main_arg20) = W3 m ρ c (Proc.devRef .tc main_arg20) := W4_of_ne m ρ c main_arg20 (by decide)
theorem W4_arg20 : W4 m ρ c (Proc.devRef .tc main_arg20) = (m ((c : Thread nD τ).loc main_arg20)) :=
  (W4_step_arg20 m ρ c).trans (W3_arg20 m ρ c)
theorem W5_step_arg20 : W5 m ρ c (Proc.devRef .tc main_arg20) = W4 m ρ c (Proc.devRef .tc main_arg20) := by host_keeps
theorem W5_arg20 : W5 m ρ c (Proc.devRef .tc main_arg20) = (m ((c : Thread nD τ).loc main_arg20)) :=
  (W5_step_arg20 m ρ c).trans (W4_arg20 m ρ c)
theorem W6_step_arg20 : W6 m ρ c (Proc.devRef .tc main_arg20) = W5 m ρ c (Proc.devRef .tc main_arg20) := W6_of_ne m ρ c main_arg20 (by decide)
theorem W6_arg20 : W6 m ρ c (Proc.devRef .tc main_arg20) = (m ((c : Thread nD τ).loc main_arg20)) :=
  (W6_step_arg20 m ρ c).trans (W5_arg20 m ρ c)
theorem W7_step_arg20 : W7 m ρ c (Proc.devRef .tc main_arg20) = W6 m ρ c (Proc.devRef .tc main_arg20) := by host_keeps
theorem W7_arg20 : W7 m ρ c (Proc.devRef .tc main_arg20) = (m ((c : Thread nD τ).loc main_arg20)) :=
  (W7_step_arg20 m ρ c).trans (W6_arg20 m ρ c)
theorem W8_step_arg20 : W8 m ρ c (Proc.devRef .tc main_arg20) = W7 m ρ c (Proc.devRef .tc main_arg20) := W8_of_ne m ρ c main_arg20 (by decide)
theorem W8_arg20 : W8 m ρ c (Proc.devRef .tc main_arg20) = (m ((c : Thread nD τ).loc main_arg20)) :=
  (W8_step_arg20 m ρ c).trans (W7_arg20 m ρ c)

theorem W1_step_arg14 : W1 m ρ c (Proc.devRef .tc main_arg14) = W0 m ρ c (Proc.devRef .tc main_arg14) := by host_keeps
theorem W1_arg14 : W1 m ρ c (Proc.devRef .tc main_arg14) = (m ((c : Thread nD τ).loc main_arg14)) :=
  W1_step_arg14 m ρ c
theorem W2_step_arg14 : W2 m ρ c (Proc.devRef .tc main_arg14) = W1 m ρ c (Proc.devRef .tc main_arg14) := W2_of_ne m ρ c main_arg14 (by decide)
theorem W2_arg14 : W2 m ρ c (Proc.devRef .tc main_arg14) = (m ((c : Thread nD τ).loc main_arg14)) :=
  (W2_step_arg14 m ρ c).trans (W1_arg14 m ρ c)
theorem W3_step_arg14 : W3 m ρ c (Proc.devRef .tc main_arg14) = W2 m ρ c (Proc.devRef .tc main_arg14) := by host_keeps
theorem W3_arg14 : W3 m ρ c (Proc.devRef .tc main_arg14) = (m ((c : Thread nD τ).loc main_arg14)) :=
  (W3_step_arg14 m ρ c).trans (W2_arg14 m ρ c)
theorem W4_step_arg14 : W4 m ρ c (Proc.devRef .tc main_arg14) = W3 m ρ c (Proc.devRef .tc main_arg14) := W4_of_ne m ρ c main_arg14 (by decide)
theorem W4_arg14 : W4 m ρ c (Proc.devRef .tc main_arg14) = (m ((c : Thread nD τ).loc main_arg14)) :=
  (W4_step_arg14 m ρ c).trans (W3_arg14 m ρ c)
theorem W5_step_arg14 : W5 m ρ c (Proc.devRef .tc main_arg14) = W4 m ρ c (Proc.devRef .tc main_arg14) := by host_keeps
theorem W5_arg14 : W5 m ρ c (Proc.devRef .tc main_arg14) = (m ((c : Thread nD τ).loc main_arg14)) :=
  (W5_step_arg14 m ρ c).trans (W4_arg14 m ρ c)
theorem W6_step_arg14 : W6 m ρ c (Proc.devRef .tc main_arg14) = W5 m ρ c (Proc.devRef .tc main_arg14) := W6_of_ne m ρ c main_arg14 (by decide)
theorem W6_arg14 : W6 m ρ c (Proc.devRef .tc main_arg14) = (m ((c : Thread nD τ).loc main_arg14)) :=
  (W6_step_arg14 m ρ c).trans (W5_arg14 m ρ c)
theorem W7_step_arg14 : W7 m ρ c (Proc.devRef .tc main_arg14) = W6 m ρ c (Proc.devRef .tc main_arg14) := by host_keeps
theorem W7_arg14 : W7 m ρ c (Proc.devRef .tc main_arg14) = (m ((c : Thread nD τ).loc main_arg14)) :=
  (W7_step_arg14 m ρ c).trans (W6_arg14 m ρ c)
theorem W8_step_arg14 : W8 m ρ c (Proc.devRef .tc main_arg14) = W7 m ρ c (Proc.devRef .tc main_arg14) := W8_of_ne m ρ c main_arg14 (by decide)
theorem W8_arg14 : W8 m ρ c (Proc.devRef .tc main_arg14) = (m ((c : Thread nD τ).loc main_arg14)) :=
  (W8_step_arg14 m ρ c).trans (W7_arg14 m ρ c)

theorem W1_step_arg16 : W1 m ρ c (Proc.devRef .tc main_arg16) = W0 m ρ c (Proc.devRef .tc main_arg16) := by host_keeps
theorem W1_arg16 : W1 m ρ c (Proc.devRef .tc main_arg16) = (m ((c : Thread nD τ).loc main_arg16)) :=
  W1_step_arg16 m ρ c
theorem W2_step_arg16 : W2 m ρ c (Proc.devRef .tc main_arg16) = W1 m ρ c (Proc.devRef .tc main_arg16) := W2_of_ne m ρ c main_arg16 (by decide)
theorem W2_arg16 : W2 m ρ c (Proc.devRef .tc main_arg16) = (m ((c : Thread nD τ).loc main_arg16)) :=
  (W2_step_arg16 m ρ c).trans (W1_arg16 m ρ c)
theorem W3_step_arg16 : W3 m ρ c (Proc.devRef .tc main_arg16) = W2 m ρ c (Proc.devRef .tc main_arg16) := by host_keeps
theorem W3_arg16 : W3 m ρ c (Proc.devRef .tc main_arg16) = (m ((c : Thread nD τ).loc main_arg16)) :=
  (W3_step_arg16 m ρ c).trans (W2_arg16 m ρ c)
theorem W4_step_arg16 : W4 m ρ c (Proc.devRef .tc main_arg16) = W3 m ρ c (Proc.devRef .tc main_arg16) := W4_of_ne m ρ c main_arg16 (by decide)
theorem W4_arg16 : W4 m ρ c (Proc.devRef .tc main_arg16) = (m ((c : Thread nD τ).loc main_arg16)) :=
  (W4_step_arg16 m ρ c).trans (W3_arg16 m ρ c)
theorem W5_step_arg16 : W5 m ρ c (Proc.devRef .tc main_arg16) = W4 m ρ c (Proc.devRef .tc main_arg16) := by host_keeps
theorem W5_arg16 : W5 m ρ c (Proc.devRef .tc main_arg16) = (m ((c : Thread nD τ).loc main_arg16)) :=
  (W5_step_arg16 m ρ c).trans (W4_arg16 m ρ c)
theorem W6_step_arg16 : W6 m ρ c (Proc.devRef .tc main_arg16) = W5 m ρ c (Proc.devRef .tc main_arg16) := W6_of_ne m ρ c main_arg16 (by decide)
theorem W6_arg16 : W6 m ρ c (Proc.devRef .tc main_arg16) = (m ((c : Thread nD τ).loc main_arg16)) :=
  (W6_step_arg16 m ρ c).trans (W5_arg16 m ρ c)
theorem W7_step_arg16 : W7 m ρ c (Proc.devRef .tc main_arg16) = W6 m ρ c (Proc.devRef .tc main_arg16) := by host_keeps
theorem W7_arg16 : W7 m ρ c (Proc.devRef .tc main_arg16) = (m ((c : Thread nD τ).loc main_arg16)) :=
  (W7_step_arg16 m ρ c).trans (W6_arg16 m ρ c)
theorem W8_step_arg16 : W8 m ρ c (Proc.devRef .tc main_arg16) = W7 m ρ c (Proc.devRef .tc main_arg16) := W8_of_ne m ρ c main_arg16 (by decide)
theorem W8_arg16 : W8 m ρ c (Proc.devRef .tc main_arg16) = (m ((c : Thread nD τ).loc main_arg16)) :=
  (W8_step_arg16 m ρ c).trans (W7_arg16 m ρ c)

theorem W1_step_arg15 : W1 m ρ c (Proc.devRef .tc main_arg15) = W0 m ρ c (Proc.devRef .tc main_arg15) := by host_keeps
theorem W1_arg15 : W1 m ρ c (Proc.devRef .tc main_arg15) = (m ((c : Thread nD τ).loc main_arg15)) :=
  W1_step_arg15 m ρ c
theorem W2_step_arg15 : W2 m ρ c (Proc.devRef .tc main_arg15) = W1 m ρ c (Proc.devRef .tc main_arg15) := W2_of_ne m ρ c main_arg15 (by decide)
theorem W2_arg15 : W2 m ρ c (Proc.devRef .tc main_arg15) = (m ((c : Thread nD τ).loc main_arg15)) :=
  (W2_step_arg15 m ρ c).trans (W1_arg15 m ρ c)
theorem W3_step_arg15 : W3 m ρ c (Proc.devRef .tc main_arg15) = W2 m ρ c (Proc.devRef .tc main_arg15) := by host_keeps
theorem W3_arg15 : W3 m ρ c (Proc.devRef .tc main_arg15) = (m ((c : Thread nD τ).loc main_arg15)) :=
  (W3_step_arg15 m ρ c).trans (W2_arg15 m ρ c)
theorem W4_step_arg15 : W4 m ρ c (Proc.devRef .tc main_arg15) = W3 m ρ c (Proc.devRef .tc main_arg15) := W4_of_ne m ρ c main_arg15 (by decide)
theorem W4_arg15 : W4 m ρ c (Proc.devRef .tc main_arg15) = (m ((c : Thread nD τ).loc main_arg15)) :=
  (W4_step_arg15 m ρ c).trans (W3_arg15 m ρ c)
theorem W5_step_arg15 : W5 m ρ c (Proc.devRef .tc main_arg15) = W4 m ρ c (Proc.devRef .tc main_arg15) := by host_keeps
theorem W5_arg15 : W5 m ρ c (Proc.devRef .tc main_arg15) = (m ((c : Thread nD τ).loc main_arg15)) :=
  (W5_step_arg15 m ρ c).trans (W4_arg15 m ρ c)
theorem W6_step_arg15 : W6 m ρ c (Proc.devRef .tc main_arg15) = W5 m ρ c (Proc.devRef .tc main_arg15) := W6_of_ne m ρ c main_arg15 (by decide)
theorem W6_arg15 : W6 m ρ c (Proc.devRef .tc main_arg15) = (m ((c : Thread nD τ).loc main_arg15)) :=
  (W6_step_arg15 m ρ c).trans (W5_arg15 m ρ c)
theorem W7_step_arg15 : W7 m ρ c (Proc.devRef .tc main_arg15) = W6 m ρ c (Proc.devRef .tc main_arg15) := by host_keeps
theorem W7_arg15 : W7 m ρ c (Proc.devRef .tc main_arg15) = (m ((c : Thread nD τ).loc main_arg15)) :=
  (W7_step_arg15 m ρ c).trans (W6_arg15 m ρ c)
theorem W8_step_arg15 : W8 m ρ c (Proc.devRef .tc main_arg15) = W7 m ρ c (Proc.devRef .tc main_arg15) := W8_of_ne m ρ c main_arg15 (by decide)
theorem W8_arg15 : W8 m ρ c (Proc.devRef .tc main_arg15) = (m ((c : Thread nD τ).loc main_arg15)) :=
  (W8_step_arg15 m ρ c).trans (W7_arg15 m ρ c)

theorem W1_step_arg17 : W1 m ρ c (Proc.devRef .tc main_arg17) = W0 m ρ c (Proc.devRef .tc main_arg17) := by host_keeps
theorem W1_arg17 : W1 m ρ c (Proc.devRef .tc main_arg17) = (m ((c : Thread nD τ).loc main_arg17)) :=
  W1_step_arg17 m ρ c
theorem W2_step_arg17 : W2 m ρ c (Proc.devRef .tc main_arg17) = W1 m ρ c (Proc.devRef .tc main_arg17) := W2_of_ne m ρ c main_arg17 (by decide)
theorem W2_arg17 : W2 m ρ c (Proc.devRef .tc main_arg17) = (m ((c : Thread nD τ).loc main_arg17)) :=
  (W2_step_arg17 m ρ c).trans (W1_arg17 m ρ c)
theorem W3_step_arg17 : W3 m ρ c (Proc.devRef .tc main_arg17) = W2 m ρ c (Proc.devRef .tc main_arg17) := by host_keeps
theorem W3_arg17 : W3 m ρ c (Proc.devRef .tc main_arg17) = (m ((c : Thread nD τ).loc main_arg17)) :=
  (W3_step_arg17 m ρ c).trans (W2_arg17 m ρ c)
theorem W4_step_arg17 : W4 m ρ c (Proc.devRef .tc main_arg17) = W3 m ρ c (Proc.devRef .tc main_arg17) := W4_of_ne m ρ c main_arg17 (by decide)
theorem W4_arg17 : W4 m ρ c (Proc.devRef .tc main_arg17) = (m ((c : Thread nD τ).loc main_arg17)) :=
  (W4_step_arg17 m ρ c).trans (W3_arg17 m ρ c)
theorem W5_step_arg17 : W5 m ρ c (Proc.devRef .tc main_arg17) = W4 m ρ c (Proc.devRef .tc main_arg17) := by host_keeps
theorem W5_arg17 : W5 m ρ c (Proc.devRef .tc main_arg17) = (m ((c : Thread nD τ).loc main_arg17)) :=
  (W5_step_arg17 m ρ c).trans (W4_arg17 m ρ c)
theorem W6_step_arg17 : W6 m ρ c (Proc.devRef .tc main_arg17) = W5 m ρ c (Proc.devRef .tc main_arg17) := W6_of_ne m ρ c main_arg17 (by decide)
theorem W6_arg17 : W6 m ρ c (Proc.devRef .tc main_arg17) = (m ((c : Thread nD τ).loc main_arg17)) :=
  (W6_step_arg17 m ρ c).trans (W5_arg17 m ρ c)
theorem W7_step_arg17 : W7 m ρ c (Proc.devRef .tc main_arg17) = W6 m ρ c (Proc.devRef .tc main_arg17) := by host_keeps
theorem W7_arg17 : W7 m ρ c (Proc.devRef .tc main_arg17) = (m ((c : Thread nD τ).loc main_arg17)) :=
  (W7_step_arg17 m ρ c).trans (W6_arg17 m ρ c)
theorem W8_step_arg17 : W8 m ρ c (Proc.devRef .tc main_arg17) = W7 m ρ c (Proc.devRef .tc main_arg17) := W8_of_ne m ρ c main_arg17 (by decide)
theorem W8_arg17 : W8 m ρ c (Proc.devRef .tc main_arg17) = (m ((c : Thread nD τ).loc main_arg17)) :=
  (W8_step_arg17 m ρ c).trans (W7_arg17 m ρ c)

theorem W9_v85 : W9 m ρ c (Proc.devRef .tc main_v85) = (Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20))) := by
  show StableHlo.after hostOps4 (W8 m ρ c) (Proc.devRef .tc main_v85) = _
  after_results_simp
  rw [W8_v74 m ρ c, W8_arg20 m ρ c]
  rfl

theorem W9_v92 : W9 m ρ c (Proc.devRef .tc main_v92) = (Cert.ReferenceIdeal.Read.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg18)) (m ((c : Thread nD τ).loc main_arg19)) (m ((c : Thread nD τ).loc main_arg20))) := by
  show StableHlo.after hostOps4 (W8 m ρ c) (Proc.devRef .tc main_v92) = _
  after_results_simp
  rw [W8_v61 m ρ c, W8_arg20 m ρ c]
  rfl

theorem W9_v93 : W9 m ρ c (Proc.devRef .tc main_v93) = (sliceTop (m ((c : Thread nD τ).loc main_arg14))) := by
  show StableHlo.after hostOps4 (W8 m ρ c) (Proc.devRef .tc main_v93) = _
  after_results_simp
  rw [W8_arg14 m ρ c]
  rfl

theorem W9_v94 : W9 m ρ c (Proc.devRef .tc main_v94) = (sliceBot (m ((c : Thread nD τ).loc main_arg14))) := by
  show StableHlo.after hostOps4 (W8 m ρ c) (Proc.devRef .tc main_v94) = _
  after_results_simp
  rw [W8_arg14 m ρ c]
  rfl

theorem W9_v95 : W9 m ρ c (Proc.devRef .tc main_v95) = (rowOfCol (m ((c : Thread nD τ).loc main_arg16))) := by
  show StableHlo.after hostOps4 (W8 m ρ c) (Proc.devRef .tc main_v95) = _
  after_results_simp
  rw [W8_arg16 m ρ c]
  rfl

theorem W9_v96 : W9 m ρ c (Proc.devRef .tc main_v96) = (biasRow (m ((c : Thread nD τ).loc main_arg15))) := by
  show StableHlo.after hostOps4 (W8 m ρ c) (Proc.devRef .tc main_v96) = _
  after_results_simp
  rw [W8_arg15 m ρ c]
  rfl

theorem W9_v97 : W9 m ρ c (Proc.devRef .tc main_v97) = (oneByOne (m ((c : Thread nD τ).loc main_arg17))) := by
  show StableHlo.after hostOps4 (W8 m ρ c) (Proc.devRef .tc main_v97) = _
  after_results_simp
  rw [W8_arg17 m ρ c]
  rfl

/-! ## The decoder and the result -/

theorem W10_v98 : W10 m ρ c (Proc.devRef .tc main_v98) = (Cert.ReferenceIdeal.Read.val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  refine (W10_arr m ρ c 7).trans ((final4 (V9 m ρ) c).trans ?_)
  show decArr (W9 m ρ c (Proc.devRef .tc main_v85)) (W9 m ρ c (Proc.devRef .tc main_v92)) (W9 m ρ c (Proc.devRef .tc main_v93)) (W9 m ρ c (Proc.devRef .tc main_v94)) (W9 m ρ c (Proc.devRef .tc main_v96)) (W9 m ρ c (Proc.devRef .tc main_v95)) (W9 m ρ c (Proc.devRef .tc main_v97)) = _
  rw [W9_v85 m ρ c, W9_v92 m ρ c, W9_v93 m ρ c, W9_v94 m ρ c, W9_v96 m ρ c, W9_v95 m ρ c, W9_v97 m ρ c]
  exact bridge145 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

theorem W11_v99 : W11 m ρ c (Proc.devRef .tc main_v99) = (Cert.ReferenceIdeal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show StableHlo.after hostOps5 (W10 m ρ c) (Proc.devRef .tc main_v99) = _
  after_results_simp
  rw [W10_v98 m ρ c]
  rfl

end Cert.KernelIdeal.Whole

end
-- ==== Proof.lean ====
/-
  The certificate of a two-layer heterogeneous GraphSAGE encoder with an edge-decoder MLP against its jnp reference.

  Both programs gather source rows along the edges and scatter-add them at the destinations, twice per layer; these
  host stages are the same operations on both sides. They differ in the dense part. The kernel multiplies the
  neighbour sum by the precomputed column 1 / max(in-degree, 1) and adds the bias last; the reference divides by
  max(in-degree, 1) and adds the bias before the second product. On the extended reals the divisor is at least one,
  hence nonzero, so the quotient is the product with the reciprocal, and the rest is commutativity and associativity
  of addition. The kernel's decoder multiplies the two gathered halves into the two halves of the stacked weight and
  takes the last projection as a lane sum; the reference concatenates first and uses two matrix products: a sum over
  256 terms split at 128, and an inner product written two ways. No finiteness of the inputs is used.

  The three frames: the two kernel programs by their generated frame certificates, the reference by its generated run.
  The idealization rewrote nothing, so `preserves` is trivial. The value claim: the kernel's run with every buffer named
  (`Whole.run_all`), its result followed through the eleven segments to the reference's last stage (`Whole.W11_v99`),
  against the reference's generated run and its stage-by-stage reading.
-/
import proofs.«110691_j32409823216440_2_alg».proof.Defs
import proofs.«110691_j32409823216440_2_alg».proof.Proof.Gen.Kernel
import proofs.«110691_j32409823216440_2_alg».proof.Proof.Gen.Kernel.Skeleton
import proofs.«110691_j32409823216440_2_alg».proof.Proof.Gen.Kernel.Launch
import proofs.«110691_j32409823216440_2_alg».proof.Proof.Gen.Kernel.Points
import proofs.«110691_j32409823216440_2_alg».proof.Proof.Gen.Kernel.Frame
import proofs.«110691_j32409823216440_2_alg».proof.Proof.Gen.KernelIdeal
import proofs.«110691_j32409823216440_2_alg».proof.Proof.Gen.KernelIdeal.Skeleton
import proofs.«110691_j32409823216440_2_alg».proof.Proof.Gen.KernelIdeal.Launch
import proofs.«110691_j32409823216440_2_alg».proof.Proof.Gen.KernelIdeal.Points
import proofs.«110691_j32409823216440_2_alg».proof.Proof.Gen.KernelIdeal.Frame
import proofs.«110691_j32409823216440_2_alg».proof.Proof.Gen.ReferenceIdeal
import proofs.«110691_j32409823216440_2_alg».proof.Proof.Gen.Pre_finite_inputs
import proofs.«110691_j32409823216440_2_alg».proof.Proof.Gen.ReferenceIdeal.Run
import proofs.«110691_j32409823216440_2_alg».proof.Proof.Gen.ReferenceIdeal.Read
import proofs.«110691_j32409823216440_2_alg».proof.Proof.Chain
import Idealize.ShloMosaic.Adequacy
import Idealize.ShloMosaic.Init

set_option maxRecDepth 16384

noncomputable section

namespace Cert.Proof

open Idealize.ShloMosaic Idealize.SL.Sem

/-- At the ideal instance the kernel's result is the reference's last stage of the same argument arrays. -/
theorem algebraic : Cert.algebraic_KernelIdeal_ReferenceIdeal
    (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Read.val_main_v146 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · refine (θ_run Cert.KernelIdeal.defs _ _).mono (fun r h c => ⟨(h c _ (Cert.KernelIdeal.Gen.mem_uc Cert.KernelIdeal.main_v99 (by decide))).trans (Cert.KernelIdeal.Whole.W11_v99 m ρ c),
      (h c _ (Cert.KernelIdeal.Gen.mem_uc Cert.KernelIdeal.main_arg0 (by decide))).trans (Cert.KernelIdeal.Gen.W11_main_arg0 m ρ c),
      (h c _ (Cert.KernelIdeal.Gen.mem_uc Cert.KernelIdeal.main_arg1 (by decide))).trans (Cert.KernelIdeal.Gen.W11_main_arg1 m ρ c),
      (h c _ (Cert.KernelIdeal.Gen.mem_uc Cert.KernelIdeal.main_arg2 (by decide))).trans (Cert.KernelIdeal.Gen.W11_main_arg2 m ρ c),
      (h c _ (Cert.KernelIdeal.Gen.mem_uc Cert.KernelIdeal.main_arg3 (by decide))).trans (Cert.KernelIdeal.Gen.W11_main_arg3 m ρ c),
      (h c _ (Cert.KernelIdeal.Gen.mem_uc Cert.KernelIdeal.main_arg4 (by decide))).trans (Cert.KernelIdeal.Gen.W11_main_arg4 m ρ c),
      (h c _ (Cert.KernelIdeal.Gen.mem_uc Cert.KernelIdeal.main_arg5 (by decide))).trans (Cert.KernelIdeal.Gen.W11_main_arg5 m ρ c),
      (h c _ (Cert.KernelIdeal.Gen.mem_uc Cert.KernelIdeal.main_arg6 (by decide))).trans (Cert.KernelIdeal.Gen.W11_main_arg6 m ρ c),
      (h c _ (Cert.KernelIdeal.Gen.mem_uc Cert.KernelIdeal.main_arg7 (by decide))).trans (Cert.KernelIdeal.Gen.W11_main_arg7 m ρ c),
      (h c _ (Cert.KernelIdeal.Gen.mem_uc Cert.KernelIdeal.main_arg8 (by decide))).trans (Cert.KernelIdeal.Gen.W11_main_arg8 m ρ c),
      (h c _ (Cert.KernelIdeal.Gen.mem_uc Cert.KernelIdeal.main_arg9 (by decide))).trans (Cert.KernelIdeal.Gen.W11_main_arg9 m ρ c),
      (h c _ (Cert.KernelIdeal.Gen.mem_uc Cert.KernelIdeal.main_arg10 (by decide))).trans (Cert.KernelIdeal.Gen.W11_main_arg10 m ρ c),
      (h c _ (Cert.KernelIdeal.Gen.mem_uc Cert.KernelIdeal.main_arg11 (by decide))).trans (Cert.KernelIdeal.Gen.W11_main_arg11 m ρ c),
      (h c _ (Cert.KernelIdeal.Gen.mem_uc Cert.KernelIdeal.main_arg12 (by decide))).trans (Cert.KernelIdeal.Gen.W11_main_arg12 m ρ c),
      (h c _ (Cert.KernelIdeal.Gen.mem_uc Cert.KernelIdeal.main_arg13 (by decide))).trans (Cert.KernelIdeal.Gen.W11_main_arg13 m ρ c),
      (h c _ (Cert.KernelIdeal.Gen.mem_uc Cert.KernelIdeal.main_arg14 (by decide))).trans (Cert.KernelIdeal.Gen.W11_main_arg14 m ρ c),
      (h c _ (Cert.KernelIdeal.Gen.mem_uc Cert.KernelIdeal.main_arg15 (by decide))).trans (Cert.KernelIdeal.Gen.W11_main_arg15 m ρ c),
      (h c _ (Cert.KernelIdeal.Gen.mem_uc Cert.KernelIdeal.main_arg16 (by decide))).trans (Cert.KernelIdeal.Gen.W11_main_arg16 m ρ c),
      (h c _ (Cert.KernelIdeal.Gen.mem_uc Cert.KernelIdeal.main_arg17 (by decide))).trans (Cert.KernelIdeal.Gen.W11_main_arg17 m ρ c),
      (h c _ (Cert.KernelIdeal.Gen.mem_uc Cert.KernelIdeal.main_arg18 (by decide))).trans (Cert.KernelIdeal.Gen.W11_main_arg18 m ρ c),
      (h c _ (Cert.KernelIdeal.Gen.mem_uc Cert.KernelIdeal.main_arg19 (by decide))).trans (Cert.KernelIdeal.Gen.W11_main_arg19 m ρ c),
      (h c _ (Cert.KernelIdeal.Gen.mem_uc Cert.KernelIdeal.main_arg20 (by decide))).trans (Cert.KernelIdeal.Gen.W11_main_arg20 m ρ c)⟩)
      (Cert.KernelIdeal.Whole.run_all m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20⟩ := hagree c
    rw [Cert.ReferenceIdeal.Read.val_main_v146_eq, h0, h1, h2, h3, h4, h5, h6, h7, h8, h9, h10, h11, h12, h13, h14, h15, h16, h17, h18, h19, h20]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
